-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S4x2048x128 : Shape := ⟨3, ![4, 2048, 128]⟩
abbrev S64x128 : Shape := ⟨2, ![64, 128]⟩
abbrev S64 : Shape := ⟨1, ![64]⟩
abbrev S64x64 : Shape := ⟨2, ![64, 64]⟩
abbrev S192x64 : Shape := ⟨2, ![192, 64]⟩
abbrev S192 : Shape := ⟨1, ![192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S4x2048x128 : S_.BroadcastsInDim S4x2048x128 (![] : Fin 0 → Fin S4x2048x128.rank)
  reducesTo_S4x2048x128_S_d0_1_2 : S4x2048x128.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_

variable [Facts]

def fn_part2 {F : FTy → Type} [FloatOps F] (main_arg7 : FVec F S192x64 .f32) (main_arg8 : FVec F S192 .f32) (main_arg9 : FVec F S192 .f32) (main_v33 : IVec S_ 1) : IVec S_ 1 :=
  let main_v34 : FVec F S192x64 .f32 := Host.absf main_arg7
  let main_cst_12 : FVec F S_ .f32 := constant S_ .f32 0x7F800000#32
  let main_v35 : FVec F S192x64 .f32 := broadcastInDim S192x64 ![] bcast_S_S192x64 main_cst_12
  let main_v36 : IVec S192x64 1 := cmpf .olt main_v34 main_v35
  let main_c_13 : IVec S_ 1 := constantI S_ 1 1#1
  let main_v37 : IVec S_ 1 := (fun x v => Host.reduce IntOp.andi x v reducesTo_S192x64_S_d0_1 h_S_) main_v36 main_c_13
  let main_v38 : IVec S_ 1 := andi main_v33 main_v37
  let main_v39 : FVec F S192 .f32 := Host.absf main_arg8
  let main_cst_14 : FVec F S_ .f32 := constant S_ .f32 0x7F800000#32
  let main_v40 : FVec F S192 .f32 := broadcastInDim S192 ![] bcast_S_S192 main_cst_14
  let main_v41 : IVec S192 1 := cmpf .olt main_v39 main_v40
  let main_c_15 : IVec S_ 1 := constantI S_ 1 1#1
  let main_v42 : IVec S_ 1 := (fun x v => Host.reduce IntOp.andi x v reducesTo_S192_S_d0 h_S_) main_v41 main_c_15
  let main_v43 : IVec S_ 1 := andi main_v38 main_v42
  let main_v44 : FVec F S192 .f32 := Host.absf main_arg9
  let main_cst_16 : FVec F S_ .f32 := constant S_ .f32 0x7F800000#32
  let main_v45 : FVec F S192 .f32 := broadcastInDim S192 ![] bcast_S_S192 main_cst_16
  let main_v46 : IVec S192 1 := cmpf .olt main_v44 main_v45
  let main_c_17 : IVec S_ 1 := constantI S_ 1 1#1
  let main_v47 : IVec S_ 1 := (fun x v => Host.reduce IntOp.andi x v reducesTo_S192_S_d0 h_S_) main_v46 main_c_17
  let main_v48 : IVec S_ 1 := andi main_v43 main_v47
  main_v48

def fn_part1 {F : FTy → Type} [FloatOps F] (main_arg4 : FVec F S64x64 .f32) (main_arg5 : FVec F S64 .f32) (main_arg6 : FVec F S192x64 .f32) (main_arg7 : FVec F S192x64 .f32) (main_arg8 : FVec F S192 .f32) (main_arg9 : FVec F S192 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg6
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x2048x2048 .f32) (main_arg1 : FVec F S4x2048x128 .f32) (main_arg2 : FVec F S64x128 .f32) (main_arg3 : FVec F S64 .f32) (main_arg4 : FVec F S64x64 .f32) (main_arg5 : FVec F S64 .f32) (main_arg6 : FVec F S192x64 .f32) (main_arg7 : FVec F S192x64 .f32) (main_arg8 : FVec F S192 .f32) (main_arg9 : FVec F S192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S4x2048x128 .f32 := Host.absf main_arg1
  let main_cst_0 : FVec F S_ .f32 := constant S_ .f32 0x7F800000#32
  let main_v5 : FVec F S4x2048x128 .f32 := broadcastInDim S4x2048x128 ![] bcast_S_S4x2048x128 main_cst_0
  let main_v6 : IVec S4x2048x128 1 := cmpf .olt main_v4 main_v5
  let main_c_1 : IVec S_ 1 := constantI S_ 1 1#1
  let main_v7 : IVec S_ 1 := (fun x v => Host.reduce IntOp.andi x v reducesTo_S4x2048x128_S_d0_1_2 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S4x2048x2048 : Shape := ⟨3, ![4, 2048, 2048]⟩
abbrev S4x2048x128 : Shape := ⟨3, ![4, 2048, 128]⟩
abbrev S64x128 : Shape := ⟨2, ![64, 128]⟩
abbrev S64 : Shape := ⟨1, ![64]⟩
abbrev S64x64 : Shape := ⟨2, ![64, 64]⟩
abbrev S192x64 : Shape := ⟨2, ![192, 64]⟩
abbrev S192 : Shape := ⟨1, ![192]⟩
abbrev S64x1 : Shape := ⟨2, ![64, 1]⟩
abbrev S192x1 : Shape := ⟨2, ![192, 1]⟩
abbrev S4x64x2048 : Shape := ⟨3, ![4, 64, 2048]⟩
abbrev S1x512x2048 : Shape := ⟨3, ![1, 512, 2048]⟩
abbrev S1x2048x128 : Shape := ⟨3, ![1, 2048, 128]⟩
abbrev S1x64x2048 : Shape := ⟨3, ![1, 64, 2048]⟩
abbrev S2048x2048 : Shape := ⟨2, ![2048, 2048]⟩
abbrev S64x2048 : Shape := ⟨2, ![64, 2048]⟩
abbrev S512x2048 : Shape := ⟨2, ![512, 2048]⟩
abbrev S2048x128 : Shape := ⟨2, ![2048, 128]⟩
abbrev S64x512 : Shape := ⟨2, ![64, 512]⟩
abbrev S192x2048 : Shape := ⟨2, ![192, 2048]⟩
abbrev S4x2048x64 : Shape := ⟨3, ![4, 2048, 64]⟩
abbrev S8192x64 : Shape := ⟨2, ![8192, 64]⟩

abbrev nBuf : Space → Nat
  | .hbm => 17
  | .vmem => 18
  | .smem => 0
  | _ => 0

abbrev bufTy : (tb : Table) → Fin (tcTables nBuf tb) → BufTy
  | .hbm, ⟨0, _⟩ => ⟨S4x2048x2048, .f32⟩
  | .hbm, ⟨1, _⟩ => ⟨S4x2048x128, .f32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S192x64, .f32⟩
  | .hbm, ⟨7, _⟩ => ⟨S192x64, .f32⟩
  | .hbm, ⟨8, _⟩ => ⟨S192, .f32⟩
  | .hbm, ⟨9, _⟩ => ⟨S192, .f32⟩
  | .hbm, ⟨10, _⟩ => ⟨S64x1, .f32⟩
  | .hbm, ⟨11, _⟩ => ⟨S64x1, .f32⟩
  | .hbm, ⟨12, _⟩ => ⟨S192x1, .f32⟩
  | .hbm, ⟨13, _⟩ => ⟨S192x1, .f32⟩
  | .hbm, ⟨14, _⟩ => ⟨S4x64x2048, .f32⟩
  | .hbm, ⟨15, _⟩ => ⟨S4x2048x64, .f32⟩
  | .hbm, ⟨16, _⟩ => ⟨S8192x64, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x128, .f32⟩
  | .local _ .vmem, ⟨3, _⟩ => ⟨S1x2048x128, .f32⟩
  | .local _ .vmem, ⟨4, _⟩ => ⟨S64x128, .f32⟩
  | .local _ .vmem, ⟨5, _⟩ => ⟨S64x1, .f32⟩
  | .local _ .vmem, ⟨6, _⟩ => ⟨S64x64, .f32⟩
  | .local _ .vmem, ⟨7, _⟩ => ⟨S64x1, .f32⟩
  | .local _ .vmem, ⟨8, _⟩ => ⟨S192x64, .f32⟩
  | .local _ .vmem, ⟨9, _⟩ => ⟨S192x64, .f32⟩
  | .local _ .vmem, ⟨10, _⟩ => ⟨S192x1, .f32⟩
  | .local _ .vmem, ⟨11, _⟩ => ⟨S192x1, .f32⟩
  | .local _ .vmem, ⟨12, _⟩ => ⟨S1x64x2048, .f32⟩
  | .local _ .vmem, ⟨13, _⟩ => ⟨S1x64x2048, .f32⟩
  | .local _ .vmem, ⟨14, _⟩ => ⟨S2048x2048, .bf16⟩
  | .local _ .vmem, ⟨15, _⟩ => ⟨S64x2048, .f32⟩
  | .local _ .vmem, ⟨16, _⟩ => ⟨S64x2048, .bf16⟩
  | .local _ .vmem, ⟨17, _⟩ => ⟨S64x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : Index := Scalar.indexCast v3
  let c0_2 : Index := 0#32
  ![v4.toNat, 0]
def k0_off2 (i : grid0.Coords) : Fin 2 → Nat :=
  let c0_7 : Index := 0#32
  let arg1 : BitVec 32 := BitVec.ofNat 32 (i 1).val
  let c512_i32_6 : BitVec 32 := 512#32
  let v12 : BitVec 32 := Scalar.muli arg1 c512_i32_6
  let v13 : Index := Scalar.indexCast v12
  ![0, v13.toNat]
def k0_cond2 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_10 : BitVec 32 := 0#32
  let v22 : BitVec 1 := Scalar.cmpi .ne v21 c0_i32_10
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S192x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S192x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S192x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S192x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  shapeCasts_S64_S64x1 : S64.ShapeCasts S64x1
  shapeCasts_S192_S192x1 : S192.ShapeCasts S192x1
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  h_S512x2048 : 0 < S512x2048.numel
  shapeCasts_S512x2048_S512x2048 : S512x2048.ShapeCasts S512x2048
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S64x128_S64x128_0_0 : ∀ a, (![0, 0] : Fin 2 → Nat) a + S64x128.size a ≤ S64x128.size a
  h_S64x128 : 0 < S64x128.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x2048 : S64x1.Broadcasts S64x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  packedbf16_S64x2048_S64x2048_0_0 : (Rect.unit (s := S64x2048) ![0, 0] S64x2048.size inb_S64x2048_S64x2048_0_0).PackedRows (EltTy.packing .bf16)
  h_S64x512 : 0 < S64x512.numel
  inb_S64x64_S64x64_0_0 : ∀ a, (![0, 0] : Fin 2 → Nat) a + S64x64.size a ≤ S64x64.size a
  h_S64x64 : 0 < S64x64.numel
  inb_S192x64_S192x64_0_0 : ∀ a, (![0, 0] : Fin 2 → Nat) a + S192x64.size a ≤ S192x64.size a
  h_S192x64 : 0 < S192x64.numel
  inb_S192x1_S192x1_0_0 : ∀ a, (![0, 0] : Fin 2 → Nat) a + S192x1.size a ≤ S192x1.size a
  h_S192x1 : 0 < S192x1.numel
  shapeCasts_S192x1_S192x1 : S192x1.ShapeCasts S192x1
  broadcasts_S192x1_S192x2048 : S192x1.Broadcasts S192x2048
  slices_S192x2048_o0_0_S64x2048 : S192x2048.Slices ![0, 0] S64x2048
  slices_S192x2048_o64_0_S64x2048 : S192x2048.Slices ![64, 0] S64x2048
  slices_S192x2048_o128_0_S64x2048 : S192x2048.Slices ![128, 0] S64x2048
  inb_S2048x2048_S2048x2048_0_0 : ∀ a, (![0, 0] : Fin 2 → Nat) a + S2048x2048.size a ≤ S2048x2048.size a
  h_S2048x2048 : 0 < S2048x2048.numel
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  shapeCasts_S64x2048_S1x64x2048 : S64x2048.ShapeCasts S1x64x2048
  transposes_S4x64x2048_S4x2048x64_0_2_1 : S4x64x2048.Transposes [0, 2, 1] S4x2048x64
  shapeCasts_S4x2048x64_S8192x64 : S4x2048x64.ShapeCasts S8192x64
  dot_S64x128_S2048x128_S64x2048_1_1_0_0_n_n_wf : DotDims.WF S64x128 S2048x128 S64x2048 [1] [1] [0] [0] [] []
  dot_S64x512_S512x2048_S64x2048_1_0_0_1_n_n_wf : DotDims.WF S64x512 S512x2048 S64x2048 [1] [0] [0] [1] [] []
  dot_S64x64_S64x2048_S64x2048_1_0_0_1_n_n_wf : DotDims.WF S64x64 S64x2048 S64x2048 [1] [0] [0] [1] [] []
  dot_S192x64_S64x2048_S192x2048_1_0_0_1_n_n_wf : DotDims.WF S192x64 S64x2048 S192x2048 [1] [0] [0] [1] [] []
  dot_S64x2048_S2048x2048_S64x2048_1_0_0_1_n_n_wf : DotDims.WF S64x2048 S2048x2048 S64x2048 [1] [0] [0] [1] [] []
  hrank0 : 0 < grid0.rank
  k0_off1_inb : ∀ i : grid0.Coords, ∀ a, (k0_off1 i) a + S512x2048.size a ≤ S2048x2048.size a
  k0_off1_packedbf16 : ∀ i : grid0.Coords, (Rect.unit (s := S2048x2048) (k0_off1 i) S512x2048.size (k0_off1_inb i)).PackedRows (EltTy.packing .bf16)
  k0_off2_inb : ∀ i : grid0.Coords, ∀ a, (k0_off2 i) a + S64x512.size a ≤ S64x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x2048x2048.size a
  hwx0_0 : ∀ i : grid0.Coords, EltTy.bits .f32 = 32 ∨ (Rect.block (s := S4x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S4x2048x128.size a
  hwx0_1 : ∀ i : grid0.Coords, EltTy.bits .f32 = 32 ∨ (Rect.block (s := S4x2048x128) S1x2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S192x64.size a ≤ S192x64.size a
  hwx0_6 : ∀ i : grid0.Coords, EltTy.bits .f32 = 32 ∨ (Rect.block (s := S192x64) S192x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S192x64.size a ≤ S192x64.size a
  hwx0_7 : ∀ i : grid0.Coords, EltTy.bits .f32 = 32 ∨ (Rect.block (s := S192x64) S192x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S192x1.size a ≤ S192x1.size a
  hwx0_8 : ∀ i : grid0.Coords, EltTy.bits .f32 = 32 ∨ (Rect.block (s := S192x1) S192x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S192x1.size a ≤ S192x1.size a
  hwx0_9 : ∀ i : grid0.Coords, EltTy.bits .f32 = 32 ∨ (Rect.block (s := S192x1) S192x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x64x2048.size a ≤ S4x64x2048.size a
  hwx0_10 : ∀ i : grid0.Coords, EltTy.bits .f32 = 32 ∨ (Rect.block (s := S4x64x2048) S1x64x2048.size (cc0_transform_10 i) (hinb0_10 i)).WholeWords (EltTy.packing .f32)

variable [Facts₀]

def dot_S64x128_S2048x128_S64x2048_1_1_0_0_n_n : DotDims S64x128 S2048x128 S64x2048 where
  lhsContracting := [1]
  rhsContracting := [1]
  lhsNonContracting := [0]
  rhsNonContracting := [0]
  lhsBatch := []
  rhsBatch := []
  wf := dot_S64x128_S2048x128_S64x2048_1_1_0_0_n_n_wf
def dot_S64x512_S512x2048_S64x2048_1_0_0_1_n_n : DotDims S64x512 S512x2048 S64x2048 where
  lhsContracting := [1]
  rhsContracting := [0]
  lhsNonContracting := [0]
  rhsNonContracting := [1]
  lhsBatch := []
  rhsBatch := []
  wf := dot_S64x512_S512x2048_S64x2048_1_0_0_1_n_n_wf
def dot_S64x64_S64x2048_S64x2048_1_0_0_1_n_n : DotDims S64x64 S64x2048 S64x2048 where
  lhsContracting := [1]
  rhsContracting := [0]
  lhsNonContracting := [0]
  rhsNonContracting := [1]
  lhsBatch := []
  rhsBatch := []
  wf := dot_S64x64_S64x2048_S64x2048_1_0_0_1_n_n_wf
def dot_S192x64_S64x2048_S192x2048_1_0_0_1_n_n : DotDims S192x64 S64x2048 S192x2048 where
  lhsContracting := [1]
  rhsContracting := [0]
  lhsNonContracting := [0]
  rhsNonContracting := [1]
  lhsBatch := []
  rhsBatch := []
  wf := dot_S192x64_S64x2048_S192x2048_1_0_0_1_n_n_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S192x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S192x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S192x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S192x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x64x2048.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S4x2048x128 : Shape := ⟨3, ![4, 2048, 128]⟩
abbrev S64x128 : Shape := ⟨2, ![64, 128]⟩
abbrev S64 : Shape := ⟨1, ![64]⟩
abbrev S64x64 : Shape := ⟨2, ![64, 64]⟩
abbrev S192x64 : Shape := ⟨2, ![192, 64]⟩
abbrev S192 : Shape := ⟨1, ![192]⟩
abbrev S8192x128 : Shape := ⟨2, ![8192, 128]⟩
abbrev S128x64 : Shape := ⟨2, ![128, 64]⟩
abbrev S8192x64 : Shape := ⟨2, ![8192, 64]⟩
abbrev S1x64 : Shape := ⟨2, ![1, 64]⟩
abbrev S_ : Shape := ⟨0, ![]⟩
abbrev S4x2048x64 : Shape := ⟨3, ![4, 2048, 64]⟩
abbrev S64x192 : Shape := ⟨2, ![64, 192]⟩
abbrev S8192x192 : Shape := ⟨2, ![8192, 192]⟩
abbrev S1x192 : Shape := ⟨2, ![1, 192]⟩

abbrev nBuf : Space → Nat
  | .hbm => 129
  | .vmem => 0
  | .smem => 0
  | _ => 0

abbrev hbmTy0_0 (i : Nat) : BufTy := match i % 128 with
  | 0 => ⟨S4x2048x2048, .f32⟩
  | 1 => ⟨S4x2048x128, .f32⟩
  | 2 => ⟨S64x128, .f32⟩
  | 3 => ⟨S64, .f32⟩
  | 4 => ⟨S64x64, .f32⟩
  | 5 => ⟨S64, .f32⟩
  | 6 => ⟨S192x64, .f32⟩
  | 7 => ⟨S192x64, .f32⟩
  | 8 => ⟨S192, .f32⟩
  | 9 => ⟨S192, .f32⟩
  | 10 => ⟨S8192x128, .f32⟩
  | 11 => ⟨S128x64, .f32⟩
  | 12 => ⟨S8192x64, .f32⟩
  | 13 => ⟨S1x64, .f32⟩
  | 14 => ⟨S8192x64, .f32⟩
  | 15 => ⟨S8192x64, .f32⟩
  | 16 => ⟨S_, .f32⟩
  | 17 => ⟨S8192x64, .f32⟩
  | 18 => ⟨S8192x64, .f32⟩
  | 19 => ⟨S4x2048x64, .f32⟩
  | 20 => ⟨S4x2048x64, .f32⟩
  | 21 => ⟨S8192x64, .f32⟩
  | 22 => ⟨S8192x64, .f32⟩
  | 23 => ⟨S64x64, .f32⟩
  | 24 => ⟨S8192x64, .f32⟩
  | 25 => ⟨S1x64, .f32⟩
  | 26 => ⟨S8192x64, .f32⟩
  | 27 => ⟨S8192x64, .f32⟩
  | 28 => ⟨S_, .f32⟩
  | 29 => ⟨S8192x64, .f32⟩
  | 30 => ⟨S8192x64, .f32⟩
  | 31 => ⟨S64x192, .f32⟩
  | 32 => ⟨S8192x192, .f32⟩
  | 33 => ⟨S1x192, .f32⟩
  | 34 => ⟨S8192x192, .f32⟩
  | 35 => ⟨S8192x192, .f32⟩
  | 36 => ⟨S64x192, .f32⟩
  | 37 => ⟨S8192x192, .f32⟩
  | 38 => ⟨S1x192, .f32⟩
  | 39 => ⟨S8192x192, .f32⟩
  | 40 => ⟨S8192x192, .f32⟩
  | 41 => ⟨S8192x64, .f32⟩
  | 42 => ⟨S8192x64, .f32⟩
  | 43 => ⟨S8192x64, .f32⟩
  | 44 => ⟨S8192x64, .f32⟩
  | 45 => ⟨S8192x64, .f32⟩
  | 46 => ⟨S8192x64, .f32⟩
  | 47 => ⟨S8192x64, .f32⟩
  | 48 => ⟨S8192x64, .f32⟩
  | 49 => ⟨S8192x64, .f32⟩
  | 50 => ⟨S_, .f32⟩
  | 51 => ⟨S8192x64, .f32⟩
  | 52 => ⟨S8192x64, .f32⟩
  | 53 => ⟨S_, .f32⟩
  | 54 => ⟨S8192x64, .f32⟩
  | 55 => ⟨S8192x64, .f32⟩
  | 56 => ⟨S8192x64, .f32⟩
  | 57 => ⟨S8192x64, .f32⟩
  | 58 => ⟨S8192x64, .f32⟩
  | 59 => ⟨S_, .f32⟩
  | 60 => ⟨S8192x64, .f32⟩
  | 61 => ⟨S8192x64, .f32⟩
  | 62 => ⟨S_, .f32⟩
  | 63 => ⟨S8192x64, .f32⟩
  | 64 => ⟨S8192x64, .f32⟩
  | 65 => ⟨S8192x64, .f32⟩
  | 66 => ⟨S8192x64, .f32⟩
  | 67 => ⟨S8192x64, .f32⟩
  | 68 => ⟨S_, .f32⟩
  | 69 => ⟨S8192x64, .f32⟩
  | 70 => ⟨S8192x64, .f32⟩
  | 71 => ⟨S8192x64, .f32⟩
  | 72 => ⟨S8192x64, .f32⟩
  | 73 => ⟨S8192x64, .f32⟩
  | 74 => ⟨S4x2048x64, .f32⟩
  | 75 => ⟨S4x2048x64, .f32⟩
  | 76 => ⟨S8192x64, .f32⟩
  | 77 => ⟨S8192x64, .f32⟩
  | 78 => ⟨S64x64, .f32⟩
  | 79 => ⟨S8192x64, .f32⟩
  | 80 => ⟨S1x64, .f32⟩
  | 81 => ⟨S8192x64, .f32⟩
  | 82 => ⟨S8192x64, .f32⟩
  | 83 => ⟨S_, .f32⟩
  | 84 => ⟨S8192x64, .f32⟩
  | 85 => ⟨S8192x64, .f32⟩
  | 86 => ⟨S64x192, .f32⟩
  | 87 => ⟨S8192x192, .f32⟩
  | 88 => ⟨S1x192, .f32⟩
  | 89 => ⟨S8192x192, .f32⟩
  | 90 => ⟨S8192x192, .f32⟩
  | 91 => ⟨S64x192, .f32⟩
  | 92 => ⟨S8192x192, .f32⟩
  | 93 => ⟨S1x192, .f32⟩
  | 94 => ⟨S8192x192, .f32⟩
  | 95 => ⟨S8192x192, .f32⟩
  | 96 => ⟨S8192x64, .f32⟩
  | 97 => ⟨S8192x64, .f32⟩
  | 98 => ⟨S8192x64, .f32⟩
  | 99 => ⟨S8192x64, .f32⟩
  | 100 => ⟨S8192x64, .f32⟩
  | 101 => ⟨S8192x64, .f32⟩
  | 102 => ⟨S8192x64, .f32⟩
  | 103 => ⟨S8192x64, .f32⟩
  | 104 => ⟨S8192x64, .f32⟩
  | 105 => ⟨S_, .f32⟩
  | 106 => ⟨S8192x64, .f32⟩
  | 107 => ⟨S8192x64, .f32⟩
  | 108 => ⟨S_, .f32⟩
  | 109 => ⟨S8192x64, .f32⟩
  | 110 => ⟨S8192x64, .f32⟩
  | 111 => ⟨S8192x64, .f32⟩
  | 112 => ⟨S8192x64, .f32⟩
  | 113 => ⟨S8192x64, .f32⟩
  | 114 => ⟨S_, .f32⟩
  | 115 => ⟨S8192x64, .f32⟩
  | 116 => ⟨S8192x64, .f32⟩
  | 117 => ⟨S_, .f32⟩
  | 118 => ⟨S8192x64, .f32⟩
  | 119 => ⟨S8192x64, .f32⟩
  | 120 => ⟨S8192x64, .f32⟩
  | 121 => ⟨S8192x64, .f32⟩
  | 122 => ⟨S8192x64, .f32⟩
  | 123 => ⟨S_, .f32⟩
  | 124 => ⟨S8192x64, .f32⟩
  | 125 => ⟨S8192x64, .f32⟩
  | 126 => ⟨S8192x64, .f32⟩
  | 127 => ⟨S8192x64, .f32⟩
  | _ => ⟨S4x2048x2048, .f32⟩

abbrev hbmTy0_1 (i : Nat) : BufTy := match i % 128 with
  | 0 => ⟨S8192x64, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_cst : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_cst : Ref sig .tc := ⟨.hbm, 28, rfl⟩
abbrev main_call1_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst : Ref sig .tc := ⟨.hbm, 50, rfl⟩
abbrev main_v36 : Ref sig .tc := ⟨.hbm, 51, rfl⟩
abbrev main_v37 : Ref sig .tc := ⟨.hbm, 52, rfl⟩
abbrev main_cst_0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_1 : Ref sig .tc := ⟨.hbm, 59, rfl⟩
abbrev main_v43 : Ref sig .tc := ⟨.hbm, 60, rfl⟩
abbrev main_v44 : Ref sig .tc := ⟨.hbm, 61, rfl⟩
abbrev main_cst_2 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_3 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_call2_cst : Ref sig .tc := ⟨.hbm, 83, rfl⟩
abbrev main_call2_v0 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_4 : Ref sig .tc := ⟨.hbm, 105, rfl⟩
abbrev main_v84 : Ref sig .tc := ⟨.hbm, 106, rfl⟩
abbrev main_v85 : Ref sig .tc := ⟨.hbm, 107, rfl⟩
abbrev main_cst_5 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_6 : Ref sig .tc := ⟨.hbm, 114, rfl⟩
abbrev main_v91 : Ref sig .tc := ⟨.hbm, 115, rfl⟩
abbrev main_v92 : Ref sig .tc := ⟨.hbm, 116, rfl⟩
abbrev main_cst_7 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_8 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩

abbrev nD : Nat := 1
abbrev τ : Topo := Topo.v7x

variable {F : FTy → Type} [FloatOps F]

class Facts₀ : Prop where
  shapeCasts_S4x2048x128_S8192x128 : S4x2048x128.ShapeCasts S8192x128
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  shapeCasts_S8192x64_S4x2048x64 : S8192x64.ShapeCasts S4x2048x64
  shapeCasts_S4x2048x64_S8192x64 : S4x2048x64.ShapeCasts S8192x64
  transposes_S64x64_S64x64_1_0 : S64x64.Transposes [1, 0] S64x64
  transposes_S192x64_S64x192_1_0 : S192x64.Transposes [1, 0] S64x192
  bcast_S192_S1x192_1 : S192.BroadcastsInDim S1x192 (![1] : Fin 1 → Fin S1x192.rank)
  bcast_S1x192_S8192x192_0_1 : S1x192.BroadcastsInDim S8192x192 (![0, 1] : Fin 2 → Fin S8192x192.rank)
  slices_S8192x192_S8192x64_0_0 : S8192x192.Slices ![0, 0] S8192x64
  slices_S8192x192_S8192x64_0_64 : S8192x192.Slices ![0, 64] S8192x64
  slices_S8192x192_S8192x64_0_128 : S8192x192.Slices ![0, 128] S8192x64
  dot_S8192x128_S128x64_S8192x64_1_0_0_1_n_n_wf : DotDims.WF S8192x128 S128x64 S8192x64 [1] [0] [0] [1] [] []
  dot_S4x2048x2048_S4x2048x64_S4x2048x64_1_1_2_2_0_0_wf : DotDims.WF S4x2048x2048 S4x2048x64 S4x2048x64 [1] [1] [2] [2] [0] [0]
  dot_S8192x64_S64x64_S8192x64_1_0_0_1_n_n_wf : DotDims.WF S8192x64 S64x64 S8192x64 [1] [0] [0] [1] [] []
  dot_S8192x64_S64x192_S8192x192_1_0_0_1_n_n_wf : DotDims.WF S8192x64 S64x192 S8192x192 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S4x2048x2048_S4x2048x64_S4x2048x64_1_1_2_2_0_0 : DotDims S4x2048x2048 S4x2048x64 S4x2048x64 where
  lhsContracting := [1]
  rhsContracting := [1]
  lhsNonContracting := [2]
  rhsNonContracting := [2]
  lhsBatch := [0]
  rhsBatch := [0]
  wf := dot_S4x2048x2048_S4x2048x64_S4x2048x64_1_1_2_2_0_0_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x192_S8192x192_1_0_0_1_n_n : DotDims S8192x64 S64x192 S8192x192 where
  lhsContracting := [1]
  rhsContracting := [0]
  lhsNonContracting := [0]
  rhsNonContracting := [1]
  lhsBatch := []
  rhsBatch := []
  wf := dot_S8192x64_S64x192_S8192x192_1_0_0_1_n_n_wf

class Facts : Prop extends Facts₀ where

variable [Facts]
-- ==== Proof.KBBodyDefs.lean ====
/-
  What the body's proof shares between its three control cases, for any float instance.

  The grid has 16 points, point `t` being (graph `t / 4`, row chunk `t % 4`). The body branches twice on the
  chunk: the first chunk of a graph (`t % 4 = 0`) also computes the input layer and resets the accumulator; the
  last chunk (`t % 4 = 3`) also runs the two recurrent steps and stores the output block. Both conditions are
  decided over the whole grid once. The ten input windows are live at every point; the output window is idle except
  at a graph's last chunk, where it is written back. The four scratch buffers are whole buffers of the core.
-/
import proofs.«119515_g77850577207767_cont_9to1c4b_578_27_alg».proof.Proof.Gen.Kernel.Frame
import proofs.«119515_g77850577207767_cont_9to1c4b_578_27_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions -/

/-- The first branch's condition from the grid coordinates: the chunk coordinate is zero. -/
abbrev isFirstChunk (i : grid0.Coords) : Prop :=
  (Scalar.cmpi .ne (Scalar.extui (Scalar.cmpi .eq (BitVec.ofNat 32 (i 1).val) 0#32)) 0#32) = 1#1
/-- It holds exactly at the points whose chunk is 0. -/
theorem isFirstChunk_iff : ∀ t : Fin cfg0.N, isFirstChunk (grid0.coords t) ↔ t.val % 4 = 0 :=
  (by decide +kernel : ∀ t : Fin grid0.N, isFirstChunk (grid0.coords t) ↔ t.val % 4 = 0)

/-- The second branch's condition: the chunk coordinate is three. -/
abbrev isLastChunk (i : grid0.Coords) : Prop := k0_cond2 i = 1#1
/-- It holds exactly at the points whose chunk is 3. -/
theorem isLastChunk_iff : ∀ t : Fin cfg0.N, isLastChunk (grid0.coords t) ↔ t.val % 4 = 3 :=
  (by decide +kernel : ∀ t : Fin grid0.N, isLastChunk (grid0.coords t) ↔ t.val % 4 = 3)

/-! ## Where the windows are live -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
/-- The output window is idle except at a graph's last chunk. -/
theorem outIdle_iff : ∀ t : Fin cfg0.N, cfg0.idle 10 (grid0.coords t) = true ↔ ¬ t.val % 4 = 3 :=
  (by decide +kernel : ∀ t : Fin grid0.N, cfg0.idle 10 (grid0.coords t) = true ↔ ¬ t.val % 4 = 3)

/-! ## The memrefs the body is called with -/

abbrev stg0 (t : Fin cfg0.N) : Memref sig .tc .vmem S1x512x2048 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S1x2048x128 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S64x128 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S64x1 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S64x64 .f32 := win0_4.stage (cfg0.slots t 4)
abbrev hstg4 (t : Fin cfg0.N) : (stg4 t).IsWhole := hstage0_4 ((cfg0.slots t 4).cast nbuf0_4)
abbrev stg5 (t : Fin cfg0.N) : Memref sig .tc .vmem S64x1 .f32 := win0_5.stage (cfg0.slots t 5)
abbrev hstg5 (t : Fin cfg0.N) : (stg5 t).IsWhole := hstage0_5 ((cfg0.slots t 5).cast nbuf0_5)
abbrev stg6 (t : Fin cfg0.N) : Memref sig .tc .vmem S192x64 .f32 := win0_6.stage (cfg0.slots t 6)
abbrev hstg6 (t : Fin cfg0.N) : (stg6 t).IsWhole := hstage0_6 ((cfg0.slots t 6).cast nbuf0_6)
abbrev stg7 (t : Fin cfg0.N) : Memref sig .tc .vmem S192x64 .f32 := win0_7.stage (cfg0.slots t 7)
abbrev hstg7 (t : Fin cfg0.N) : (stg7 t).IsWhole := hstage0_7 ((cfg0.slots t 7).cast nbuf0_7)
abbrev stg8 (t : Fin cfg0.N) : Memref sig .tc .vmem S192x1 .f32 := win0_8.stage (cfg0.slots t 8)
abbrev hstg8 (t : Fin cfg0.N) : (stg8 t).IsWhole := hstage0_8 ((cfg0.slots t 8).cast nbuf0_8)
abbrev stg9 (t : Fin cfg0.N) : Memref sig .tc .vmem S192x1 .f32 := win0_9.stage (cfg0.slots t 9)
abbrev hstg9 (t : Fin cfg0.N) : (stg9 t).IsWhole := hstage0_9 ((cfg0.slots t 9).cast nbuf0_9)
abbrev stg10 (t : Fin cfg0.N) : Memref sig .tc .vmem S1x64x2048 .f32 := win0_10.stage (cfg0.slots t 10)
abbrev hstg10 (t : Fin cfg0.N) : (stg10 t).IsWhole := hstage0_10 ((cfg0.slots t 10).cast nbuf0_10)

/-- The adjacency bank, [2048, 2048] in the narrower format: one graph's adjacency rows, a chunk per point. -/
abbrev bankM : Memref sig .tc .vmem S2048x2048 .bf16 := Memref.whole cc0_scratch0
/-- The input layer of the current graph, [64, 2048]. -/
abbrev layerM : Memref sig .tc .vmem S64x2048 .f32 := Memref.whole cc0_scratch1
/-- The same in the narrower format. -/
abbrev narrowM : Memref sig .tc .vmem S64x2048 .bf16 := Memref.whole cc0_scratch2
/-- The neighbour-sum accumulator, [64, 2048]. -/
abbrev accM : Memref sig .tc .vmem S64x2048 .f32 := Memref.whole cc0_scratch3

/-- The class's region invariant with the four scratch buffers as memrefs owned at some contents. -/
theorem classInv_eq (c : Dev nD) :
    (Pipeline.ΦA spec0 c : sProp 𝕄)
      = iprop(iprop((∃ d, owns (c : Thread nD τ) bankM fullShare d) ∗ (∃ d, owns (c : Thread nD τ) layerM fullShare d) ∗ (∃ d, owns (c : Thread nD τ) narrowM fullShare d) ∗ (∃ d, owns (c : Thread nD τ) accM fullShare d)) ∗ (∃ r, prngReg c r)) := by
  unfold Pipeline.ΦA; rw [scopedRest0_eq]; simp only [bankM, layerM, narrowM, accM, owns_whole]; try rfl

end Cert.Kernel.Body

end
-- ==== Proof.KBRunMid.lean ====
/-
  The body at a middle chunk of a graph (neither the first nor the last): it stores the chunk's 512 adjacency rows
  into the bank and adds the chunk's partial product into the accumulator; nothing else is written.
  The run finds, as lists of stored pieces, what the bank and the accumulator hold afterwards; the bank's pieces sit
  over what it held before (a chunk store covers only its own rows), the accumulator's cover it.
-/
import proofs.«119515_g77850577207767_cont_9to1c4b_578_27_alg».proof.Proof.KBBodyDefs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run at a middle chunk, from whole memrefs: the inputs at their blocks, the output buffer at anything, the
    four scratch buffers at named contents. It ends with the inputs, the output buffer, the input layer and its narrow
    copy as they were, the bank with its pieces written over what it held, the accumulator with its pieces written. -/
noncomputable def runMiddle (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : ¬isFirstChunk i) (hc1 : ¬isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) :
    Σ' (LB : List (View.Piece (Elt F) S2048x2048 .bf16)), { LA : List (View.Piece (Elt F) S64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare s0 ∗ owns (c : Thread nD τ) arg14 fullShare s1 ∗ owns (c : Thread nD τ) arg15 fullShare s2 ∗ owns (c : Thread nD τ) arg16 fullShare s3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (arg13.view.loc (c : Thread nD τ) ↦[arg13.view.set]{fullShare} arg13.view.writes (Elt F) (harg13.unread s0) LB) ∗ owns (c : Thread nD τ) arg14 fullShare s1 ∗ owns (c : Thread nD τ) arg15 fullShare s2 ∗ (arg16.view.loc (c : Thread nD τ) ↦[arg16.view.set]{fullShare} arg16.view.writes (Elt F) (harg16.unread s3) LA)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg13.eq_unread hfs0; obtain rfl := harg14.eq_unread hfs1; obtain rfl := harg15.eq_unread hfs2; obtain rfl := harg16.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [HS0]; · iexact HS0
    isplitl [HS1]
    · iexists _; isplitr; · ipureintro; exact harg14.read_unread _
      iexact HS1
    isplitl [HS2]
    · iexists _; isplitr; · ipureintro; exact harg15.read_unread _
      iexact HS2
    iexact HS3

end Cert.Kernel.Body

end
-- ==== Proof.KBRunFirst.lean ====
/-
  The body at the first chunk of a graph: besides storing the chunk's adjacency rows into the bank it computes the
  input layer from the graph's features, stores it and its narrow copy, resets the accumulator and then adds the
  chunk's partial product into it. The run finds the stored pieces of all four scratch buffers; those of the input
  layer, of its narrow copy and of the accumulator cover their buffers, the bank's cover only the chunk's rows.
-/
import proofs.«119515_g77850577207767_cont_9to1c4b_578_27_alg».proof.Proof.KBRunMid

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run at the first chunk of a graph, from whole memrefs at named contents; it ends with every scratch
    buffer's pieces written over what the buffer held. -/
noncomputable def runFirst (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : isFirstChunk i) (hc1 : ¬isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) :
    Σ' (LB : List (View.Piece (Elt F) S2048x2048 .bf16)) (LL : List (View.Piece (Elt F) S64x2048 .f32)) (LN : List (View.Piece (Elt F) S64x2048 .bf16)), { LA : List (View.Piece (Elt F) S64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare s0 ∗ owns (c : Thread nD τ) arg14 fullShare s1 ∗ owns (c : Thread nD τ) arg15 fullShare s2 ∗ owns (c : Thread nD τ) arg16 fullShare s3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (arg13.view.loc (c : Thread nD τ) ↦[arg13.view.set]{fullShare} arg13.view.writes (Elt F) (harg13.unread s0) LB) ∗ (arg14.view.loc (c : Thread nD τ) ↦[arg14.view.set]{fullShare} arg14.view.writes (Elt F) (harg14.unread s1) LL) ∗ (∃ f, arg15.view.loc (c : Thread nD τ) ↦[arg15.view.set]{fullShare} arg15.view.writes (Elt F) f LN) ∗ (∃ f, arg16.view.loc (c : Thread nD τ) ↦[arg16.view.set]{fullShare} arg16.view.writes (Elt F) f LA)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg13.eq_unread hfs0; obtain rfl := harg14.eq_unread hfs1; obtain rfl := harg15.eq_unread hfs2; obtain rfl := harg16.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [HS0]; · iexact HS0
    isplitl [HS1]; · iexact HS1
    isplitl [HS2]; · iexists _; iexact HS2
    iexists _; iexact HS3

end Cert.Kernel.Body

end
-- ==== Proof.KBRunLast.lean ====
/-
  The body at the last chunk of a graph: it stores the chunk's adjacency rows into the bank, adds the chunk's partial
  product into the accumulator, and then, from the input layer, the finished accumulator and the full bank, runs the
  two recurrent steps and stores the graph's output block. The run finds the stored pieces of the bank, the
  accumulator and the output buffer; the last two cover their buffers.
-/
import proofs.«119515_g77850577207767_cont_9to1c4b_578_27_alg».proof.Proof.KBRunFirst

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run at the last chunk of a graph, from whole memrefs at named contents (the output buffer at anything);
    it ends with the bank's and the accumulator's pieces written over what they held and the output buffer's pieces
    written. -/
noncomputable def runLast (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : ¬isFirstChunk i) (hc1 : isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) :
    Σ' (LB : List (View.Piece (Elt F) S2048x2048 .bf16)) (LA : List (View.Piece (Elt F) S64x2048 .f32)), { LO : List (View.Piece (Elt F) S1x64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare s0 ∗ owns (c : Thread nD τ) arg14 fullShare s1 ∗ owns (c : Thread nD τ) arg15 fullShare s2 ∗ owns (c : Thread nD τ) arg16 fullShare s3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f LO) ∗ (arg13.view.loc (c : Thread nD τ) ↦[arg13.view.set]{fullShare} arg13.view.writes (Elt F) (harg13.unread s0) LB) ∗ owns (c : Thread nD τ) arg14 fullShare s1 ∗ owns (c : Thread nD τ) arg15 fullShare s2 ∗ (∃ f, arg16.view.loc (c : Thread nD τ) ↦[arg16.view.set]{fullShare} arg16.view.writes (Elt F) f LA)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg13.eq_unread hfs0; obtain rfl := harg14.eq_unread hfs1; obtain rfl := harg15.eq_unread hfs2; obtain rfl := harg16.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]; · iexact HS0
    isplitl [HS1]
    · iexists _; isplitr; · ipureintro; exact harg14.read_unread _
      iexact HS1
    isplitl [HS2]
    · iexists _; isplitr; · ipureintro; exact harg15.read_unread _
      iexact HS2
    iexists _; iexact HS3

end Cert.Kernel.Body

end
-- ==== Proof.KBTerms.lean ====
/-
  The kernel's arithmetic, named by what each grid point leaves behind, for any float instance.

  The grid is (graph `b`, row chunk `k`), four chunks of 512 adjacency rows per graph. Every point stores its
  chunk of the adjacency block into the bank (`bankRows`) and adds the chunk's partial product into the
  accumulator (`accumulate`). The first chunk of a graph also stores the input layer, transposed to
  [feature, node] (`inputLayer`, and `inputLayerNarrow` in the narrower format) and resets the accumulator
  (`accumulatorReset`). The last chunk of a graph computes both recurrent steps from the input layer, the finished
  accumulator and the full bank, and stores the output block (`finishBlock`).
  Each is the composition of the generated payload terms that the body's stores carry.
-/
import proofs.«119515_g77850577207767_cont_9to1c4b_578_27_alg».proof.Proof.Gen.Kernel.Skeleton

noncomputable section

namespace Cert.Kernel.Enc

open Idealize.ShloMosaic Cert.Kernel Cert.Kernel.Gen

variable {F : FTy → Type} [FloatOps F]

/-- The 512 adjacency rows a point puts into the bank: its adjacency block, in the narrower format. -/
def bankRows (a : Vec F S1x512x2048 .f32) : FVec F S512x2048 .bf16 := k0_pay2 a

/-- The input layer of a graph, [feature, node]: rectified `w · xᵀ + bias`. -/
def inputLayer (x : Vec F S1x2048x128 .f32) (w : Vec F S64x128 .f32) (bias : Vec F S64x1 .f32) : FVec F S64x2048 .f32 :=
  k0_pay4 x w bias

/-- The same in the narrower format, the left operand of the partial products. -/
def inputLayerNarrow (x : Vec F S1x2048x128 .f32) (w : Vec F S64x128 .f32) (bias : Vec F S64x1 .f32) : FVec F S64x2048 .bf16 :=
  k0_pay5 x w bias

/-- The accumulator as the first chunk of a graph resets it. -/
def accumulatorReset : FVec F S64x2048 .f32 := k0_pay6 (F := F)

/-- The accumulator after a point: what it held plus the product of the input layer's 512 columns of this chunk with the
    chunk's adjacency rows. -/
def accumulate (a : Vec F S1x512x2048 .f32) (acc : Vec F S64x2048 .f32) (cols : Vec F S64x512 .bf16) : FVec F S64x2048 .f32 :=
  k0_pay7 a acc cols

/-- The output block the last chunk of a graph stores, [1, feature, node]: two recurrent steps from the input layer `o0`,
    the first with the finished accumulator `ag` as its neighbour sum, the second with the product of the first step's
    state and the full bank. Weights in the order: aggregation weight and bias, input-projection weight and bias,
    state-projection weight and bias. -/
def finishBlock (o0 ag : Vec F S64x2048 .f32) (bank : Vec F S2048x2048 .bf16)
    (gw : Vec F S64x64 .f32) (gb : Vec F S64x1 .f32) (wih : Vec F S192x64 .f32) (bih : Vec F S192x1 .f32)
    (whh : Vec F S192x64 .f32) (bhh : Vec F S192x1 .f32) : FVec F S1x64x2048 .f32 :=
  k0_pay8
    (k0_pay13 o0 (k0_pay11 o0 ag gw gb wih bih whh bhh) (k0_pay12 o0 ag gw gb wih bih whh bhh))
    (k0_pay16 o0 (k0_pay11 o0 ag gw gb wih bih whh bhh) (k0_pay12 o0 ag gw gb wih bih whh bhh) bank gw gb wih bih whh bhh)
    (k0_pay17 o0 (k0_pay11 o0 ag gw gb wih bih whh bhh) (k0_pay12 o0 ag gw gb wih bih whh bhh) bank gw gb wih bih whh bhh)
    (k0_pay18 (F := F))

end Cert.Kernel.Enc

end
-- ==== Proof.KBState.lean ====
/-
  What the scratch buffers and the output buffer hold after each grid point, and the region's invariant.

  Point `t` is (graph `t / 4`, chunk `t % 4`); `gstart t = t - t % 4` is the first point of `t`'s graph. After point `t`:
    * the input-layer buffer holds the input layer of `t`'s graph, computed at `gstart t` from that point's
      feature block and weights (`layerAt`), and the narrow buffer its narrow copy (`narrowAt`);
    * the accumulator holds the reset value plus the partial products of chunks `0 … t % 4` of the graph, each the
      product of that chunk's 512 columns of the narrow copy with the chunk's adjacency rows (`accAt`, by
      recursion on the point: a first chunk restarts from the reset value);
    * the bank's rows `512 j … 512 j + 511` for `j ≤ t % 4` are the adjacency rows of chunk `j` of the graph
      (`BankRowsDone`); its other rows are whatever they were;
    * at a last chunk, the output buffer holds the two recurrent steps computed from the input layer, the finished
      accumulator and the bank with all four chunks in place (`bankFull`), `outAt`.
  The invariant before point `n + 1` owns the four scratch buffers at these contents (the bank at some contents
  with the rows property); before the first point it is the class's invariant, every scratch buffer at anything.
-/
import proofs.«119515_g77850577207767_cont_9to1c4b_578_27_alg».proof.Proof.KBRunLast
import proofs.«119515_g77850577207767_cont_9to1c4b_578_27_alg».proof.Proof.KBTerms
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx
open Cert.Kernel.Enc

variable (m : (ℓ : Loc nD τ sig) → Buf (Elt F) ℓ) (ρ : Dev nD → PrngReg)

/-! ## Points of a graph -/

theorem N16 : cfg0.N = 16 := N_0

/-- The first point of `t`'s graph. -/
def gstart (t : Fin cfg0.N) : Fin cfg0.N := ⟨t.val - t.val % 4, lt_of_le_of_lt (Nat.sub_le _ _) t.isLt⟩
/-- Chunk `j` (at most `t`'s own) of `t`'s graph. -/
def gchunk (t : Fin cfg0.N) (j : ℕ) (hj : j ≤ t.val % 4) : Fin cfg0.N :=
  ⟨t.val - t.val % 4 + j, by have := t.isLt; omega⟩

theorem gstart_pred (n : ℕ) (hn : n + 1 < cfg0.N) (h : ¬ (n + 1) % 4 = 0) :
    gstart ⟨n + 1, hn⟩ = gstart ⟨n, Nat.lt_of_succ_lt hn⟩ := by
  unfold gstart; apply Fin.ext; show n + 1 - (n + 1) % 4 = n - n % 4; omega

/-! ## The closed forms -/

/-- The 512 columns of a [64, 2048] value that the partial product at grid coordinates `i` uses. -/
def colsAt (i : grid0.Coords) (s2 : Vec F S64x2048 .bf16) : Vec F S64x512 .bf16 :=
  View.ld s2 (Rect.unit (s := S64x2048) (k0_off2 i) S64x512.size (k0_off2_inb i))

/-- The input layer of `t`'s graph. -/
def layerAt (c : Dev nD) (t : Fin cfg0.N) : Vec F S64x2048 .f32 :=
  inputLayer (iblk m c 1 (gstart t)) (iblk m c 2 (gstart t)) (iblk m c 3 (gstart t))
/-- Its narrow copy. -/
def narrowAt (c : Dev nD) (t : Fin cfg0.N) : Vec F S64x2048 .bf16 :=
  inputLayerNarrow (iblk m c 1 (gstart t)) (iblk m c 2 (gstart t)) (iblk m c 3 (gstart t))

/-- The accumulator after point `n`. -/
def accAt (c : Dev nD) : (n : ℕ) → n < cfg0.N → Vec F S64x2048 .f32
  | 0, h => accumulate (iblk m c 0 ⟨0, h⟩) (accumulatorReset (F := F)) (colsAt (grid0.coords ⟨0, h⟩) (narrowAt m c ⟨0, h⟩))
  | n + 1, h =>
    if (n + 1) % 4 = 0 then
      accumulate (iblk m c 0 ⟨n + 1, h⟩) (accumulatorReset (F := F)) (colsAt (grid0.coords ⟨n + 1, h⟩) (narrowAt m c ⟨n + 1, h⟩))
    else
      accumulate (iblk m c 0 ⟨n + 1, h⟩) (accAt c n (Nat.lt_of_succ_lt h)) (colsAt (grid0.coords ⟨n + 1, h⟩) (narrowAt m c ⟨n + 1, h⟩))

theorem accAt_first (c : Dev nD) (t : Fin cfg0.N) (h0 : t.val % 4 = 0) :
    accAt m c t.val t.isLt = accumulate (iblk m c 0 t) (accumulatorReset (F := F)) (colsAt (grid0.coords t) (narrowAt m c t)) := by
  obtain ⟨n, hn⟩ := t
  cases n with
  | zero => rfl
  | succ n => exact if_pos h0

theorem accAt_later (c : Dev nD) (n : ℕ) (hn : n + 1 < cfg0.N) (h0 : ¬ (n + 1) % 4 = 0) :
    accAt m c (n + 1) hn = accumulate (iblk m c 0 ⟨n + 1, hn⟩) (accAt m c n (Nat.lt_of_succ_lt hn)) (colsAt (grid0.coords ⟨n + 1, hn⟩) (narrowAt m c ⟨n + 1, hn⟩)) :=
  if_neg h0

/-- The bank's rows of the chunks done so far in `t`'s graph are those chunks' adjacency rows. -/
def BankRowsDone (c : Dev nD) (t : Fin cfg0.N) (s0 : Vec F S2048x2048 .bf16) : Prop :=
  ∀ (j : ℕ) (hj : j ≤ t.val % 4) (r : Fin 512) (v : Fin 2048),
    s0 (ix2 ⟨512 * j + r.val, by have := r.isLt; have := Nat.mod_lt t.val (by decide : 4 > 0); omega⟩ v)
      = bankRows (iblk m c 0 (gchunk t j hj)) (ix2 r v)

/-- The bank with all four chunks of `t`'s graph in place. -/
def bankFull (c : Dev nD) (t : Fin cfg0.N) : Vec F S2048x2048 .bf16 := fun y =>
  bankRows (iblk m c 0 ⟨t.val - t.val % 4 + (y 0).val / 512, by
      have := t.isLt; have h16 : cfg0.N = 16 := N16; have := (y 0).isLt
      have h2 : (y 0).val < 2048 := (y 0).isLt
      have : (y 0).val / 512 < 4 := Nat.div_lt_of_lt_mul (by omega)
      have : t.val % 4 < 4 := Nat.mod_lt _ (by decide)
      omega⟩)
    (ix2 ⟨(y 0).val % 512, Nat.mod_lt _ (by decide)⟩ (y 1))

/-- The output block stored at a last chunk `t`. -/
def outAt (c : Dev nD) (t : Fin cfg0.N) : Vec F S1x64x2048 .f32 :=
  finishBlock (layerAt m c t) (accAt m c t.val t.isLt) (bankFull m c t)
    (iblk m c 4 t) (iblk m c 5 t) (iblk m c 6 t) (iblk m c 8 t) (iblk m c 7 t) (iblk m c 9 t)

/-! ## The invariant -/

/-- What the four scratch buffers' contents satisfy before position `n`: nothing before the first point; afterwards the
    rows property of the bank and the closed forms of the other three, at the point before. -/
def Good (c : Dev nD) : (n : ℕ) → n ≤ cfg0.N → Vec F S2048x2048 .bf16 → Vec F S64x2048 .f32 → Vec F S64x2048 .bf16 → Vec F S64x2048 .f32 → Prop
  | 0, _, _, _, _, _ => True
  | n + 1, hn, s0, s1, s2, s3 =>
    BankRowsDone m c ⟨n, hn⟩ s0 ∧ s1 = layerAt m c ⟨n, hn⟩ ∧ s2 = narrowAt m c ⟨n, hn⟩ ∧ s3 = accAt m c n hn

theorem Good_succ (c : Dev nD) (n : ℕ) (hn : n < cfg0.N) (s0 : Vec F S2048x2048 .bf16) (s1 : Vec F S64x2048 .f32) (s2 : Vec F S64x2048 .bf16) (s3 : Vec F S64x2048 .f32) :
    Good m c (n + 1) hn s0 s1 s2 s3
      ↔ (BankRowsDone m c ⟨n, hn⟩ s0 ∧ s1 = layerAt m c ⟨n, hn⟩ ∧ s2 = narrowAt m c ⟨n, hn⟩ ∧ s3 = accAt m c n hn) := Iff.rfl

/-- Before a point `t` that is not the first: the facts at the point `p` before it. -/
theorem Good_at (c : Dev nD) (t p : Fin cfg0.N) (hp : p.val + 1 = t.val) (s0 : Vec F S2048x2048 .bf16) (s1 : Vec F S64x2048 .f32) (s2 : Vec F S64x2048 .bf16) (s3 : Vec F S64x2048 .f32)
    (h : Good m c t.val (Nat.le_of_lt t.isLt) s0 s1 s2 s3) :
    BankRowsDone m c p s0 ∧ s1 = layerAt m c p ∧ s2 = narrowAt m c p ∧ s3 = accAt m c p.val p.isLt := by
  obtain ⟨n, hn⟩ := t
  obtain ⟨k, hk⟩ := p
  have e : n = k + 1 := hp.symm
  subst e
  exact h

/-- The region's invariant before position `n`: the four scratch buffers owned at contents satisfying `Good`, and the
    generator register at some state. -/
def Inv (c : Dev nD) (n : ℕ) (hn : n ≤ cfg0.N) : sProp 𝕄 :=
  iprop(iprop(∃ s0 s1 s2 s3, ⌜Good m c n hn s0 s1 s2 s3⌝ ∗ owns (c : Thread nD τ) bankM fullShare s0
      ∗ owns (c : Thread nD τ) layerM fullShare s1 ∗ owns (c : Thread nD τ) narrowM fullShare s2
      ∗ owns (c : Thread nD τ) accM fullShare s3) ∗ (∃ r, prngReg c r))

/-! ## The proof data -/

/-- The proof data of the one pipeline on core `c`: the arrays as the region finds them; after the body each input's
    buffer at its block and the output's at `outAt`; the invariant `Inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-! ## Entry and exit -/

/-- The class's invariant gives the region's before the first point: any contents are good there. -/
theorem hin (c : Dev nD) : Pipeline.ΦA spec0 c ⊢ (dats m 0 c).Φ 0 := by
  rw [show (dats m 0 c).Φ 0 = Inv m c 0 (Nat.zero_le _) from rfl, classInv_eq]
  unfold Inv
  iintro ⟨⟨⟨%s0, HS0⟩, ⟨%s1, HS1⟩, ⟨%s2, HS2⟩, ⟨%s3, HS3⟩⟩, Hg⟩
  isplitl [HS0 HS1 HS2 HS3]
  · iexists s0, s1, s2, s3
    isplitr; · ipureintro; exact trivial
    isplitl [HS0]; · iexact HS0
    isplitl [HS1]; · iexact HS1
    isplitl [HS2]; · iexact HS2
    iexact HS3
  iexact Hg

/-- After the last point the invariant gives the class's back: what the contents satisfy is forgotten. -/
theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl, classInv_eq]
  unfold Inv
  iintro ⟨⟨%s0, %s1, %s2, %s3, -, HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

end Cert.Kernel.Body

end
-- ==== Proof.KBPieces.lean ====
/-
  What the three runs' stored pieces read back as, in the kernel's own arithmetic.

  A buffer stored whole reads back as its last store's value whatever it held; the value's operands are the
  blocks and scratch contents the run loaded. The bank is stored one chunk of 512 rows at a time: its rows inside
  the chunk read the chunk's adjacency rows, its other rows what the bank held.
-/
import proofs.«119515_g77850577207767_cont_9to1c4b_578_27_alg».proof.Proof.KBState
import Idealize.ShloMosaic.Lib.WritesUnit
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx
open Cert.Kernel.Enc

theorem hz2 : (![0, 0] : Fin 2 → ℕ) = fun _ => 0 := by funext a; fin_cases a <;> rfl
theorem hz3 : (![0, 0, 0] : Fin 3 → ℕ) = fun _ => 0 := by funext a; fin_cases a <;> rfl

/-- The bank's chunk offset at point `t`: row `512 · (t % 4)`, column 0. -/
theorem off1_eq : ∀ t : Fin cfg0.N, k0_off1 (grid0.coords t) = ![512 * (t.val % 4), 0] :=
  (by decide +kernel : ∀ t : Fin grid0.N, k0_off1 (grid0.coords t) = ![512 * (t.val % 4), 0])

/-! ## The bank after one chunk store -/

section Bank
variable {arg13 : Memref sig .tc .vmem S2048x2048 .bf16} (harg13 : arg13.IsWhole)
  {off : Fin 2 → ℕ} (inb : ∀ a, off a + S512x2048.size a ≤ S2048x2048.size a)
  (w : (Rect.unit (s := S2048x2048) off S512x2048.size inb).shape.Idx → Elt F .bf16) (s0 : Vec F S2048x2048 .bf16)

/-- A row of the chunk reads the stored value at its position in the chunk. -/
theorem bank_row_new {o : ℕ} (hoff : off = ![o, 0]) (r : Fin 512) (v : Fin 2048) (hr : o + r.val < 2048) :
    arg13.view.read (Elt F) (arg13.view.writes (Elt F) (harg13.unread s0)
        [(⟨Rect.unit (s := S2048x2048) off S512x2048.size inb, w⟩ : View.Piece (Elt F) S2048x2048 .bf16)]) (ix2 ⟨o + r.val, hr⟩ v)
      = w (ix2 r v) :=
  View.read_writes_cons_rows_of_mem arg13.view (harg13.unread s0) inb w [] (ix2 ⟨o + r.val, hr⟩ v) (ix2 r v) hoff rfl rfl

/-- A row outside the chunk reads what the bank held. -/
theorem bank_row_old {o : ℕ} (hoff : off = ![o, 0]) (y : S2048x2048.Idx) (h : (y 0).val < o ∨ o + 512 ≤ (y 0).val) :
    arg13.view.read (Elt F) (arg13.view.writes (Elt F) (harg13.unread s0)
        [(⟨Rect.unit (s := S2048x2048) off S512x2048.size inb, w⟩ : View.Piece (Elt F) S2048x2048 .bf16)]) y
      = s0 y := by
  rw [View.read_writes_cons_rows_of_not_mem arg13.view (harg13.unread s0) inb w [] y hoff rfl h, View.writes_nil, harg13.read_unread]
end Bank

/-! ## A middle chunk -/

theorem mid_bank (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : ¬isFirstChunk i) (hc1 : ¬isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) :
    (runMiddle c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 s0 s1 s2 s3).1
      = [(⟨Rect.unit (s := S2048x2048) (k0_off1 i) S512x2048.size (k0_off1_inb i), bankRows x0⟩ : View.Piece (Elt F) S2048x2048 .bf16)] := by
  unfold runMiddle; dsimp only
  simp only [View.readAt_eq_ld, harg2.read_unread, View.ld_unit_zero (S := S1x512x2048) hz3]
  rfl

set_option maxHeartbeats 1600000 in
theorem mid_acc (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : ¬isFirstChunk i) (hc1 : ¬isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) (f : arg16.view.ty.Contents (Elt F)) :
    arg16.view.read (Elt F) (arg16.view.writes (Elt F) f (runMiddle c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 s0 s1 s2 s3).2.1)
      = accumulate x0 s3 (colsAt i s2) := by
  unfold runMiddle; dsimp only
  rw [View.read_writes_eq_canon _ _ _ (fun y => ⟨_, List.mem_cons_self .., View.mem_set_unit_zero (S := S64x2048) hz2 inb_S64x2048_S64x2048_0_0 y⟩), View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1x512x2048) hz3, View.ld_unit_zero (S := S1x2048x128) hz3, View.ld_unit_zero (S := S64x128) hz2, View.ld_unit_zero (S := S64x1) hz2, View.ld_unit_zero (S := S64x64) hz2, View.ld_unit_zero (S := S192x64) hz2, View.ld_unit_zero (S := S192x1) hz2, View.ld_unit_zero (S := S64x2048) hz2, View.ld_unit_zero (S := S2048x2048) hz2]
  rfl

/-! ## The first chunk of a graph -/

theorem first_bank (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : isFirstChunk i) (hc1 : ¬isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) :
    (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 s0 s1 s2 s3).1
      = [(⟨Rect.unit (s := S2048x2048) (k0_off1 i) S512x2048.size (k0_off1_inb i), bankRows x0⟩ : View.Piece (Elt F) S2048x2048 .bf16)] := by
  unfold runFirst; dsimp only
  sl_unfold_words
  simp only [View.readAt_eq_ld, harg2.read_unread, View.ld_unit_zero (S := S1x512x2048) hz3]
  rfl

set_option maxHeartbeats 1600000 in
theorem first_layer (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : isFirstChunk i) (hc1 : ¬isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) (f : arg14.view.ty.Contents (Elt F)) :
    arg14.view.read (Elt F) (arg14.view.writes (Elt F) f (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 s0 s1 s2 s3).2.1)
      = inputLayer x1 x2 x3 := by
  unfold runFirst; dsimp only
  sl_unfold_words
  rw [View.read_writes_eq_canon _ _ _ (fun y => ⟨_, List.mem_cons_self .., View.mem_set_unit_zero (S := S64x2048) hz2 inb_S64x2048_S64x2048_0_0 y⟩), View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1x512x2048) hz3, View.ld_unit_zero (S := S1x2048x128) hz3, View.ld_unit_zero (S := S64x128) hz2, View.ld_unit_zero (S := S64x1) hz2, View.ld_unit_zero (S := S64x64) hz2, View.ld_unit_zero (S := S192x64) hz2, View.ld_unit_zero (S := S192x1) hz2, View.ld_unit_zero (S := S64x2048) hz2, View.ld_unit_zero (S := S2048x2048) hz2]
  rfl

set_option maxHeartbeats 1600000 in
theorem first_narrow (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : isFirstChunk i) (hc1 : ¬isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) (f : arg15.view.ty.Contents (Elt F)) :
    arg15.view.read (Elt F) (arg15.view.writes (Elt F) f (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 s0 s1 s2 s3).2.2.1)
      = inputLayerNarrow x1 x2 x3 := by
  unfold runFirst; dsimp only
  sl_unfold_words
  rw [View.read_writes_eq_canon _ _ _ (fun y => ⟨_, List.mem_cons_self .., View.mem_set_unit_zero (S := S64x2048) hz2 inb_S64x2048_S64x2048_0_0 y⟩), View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1x512x2048) hz3, View.ld_unit_zero (S := S1x2048x128) hz3, View.ld_unit_zero (S := S64x128) hz2, View.ld_unit_zero (S := S64x1) hz2, View.ld_unit_zero (S := S64x64) hz2, View.ld_unit_zero (S := S192x64) hz2, View.ld_unit_zero (S := S192x1) hz2, View.ld_unit_zero (S := S64x2048) hz2, View.ld_unit_zero (S := S2048x2048) hz2]
  rfl

set_option maxHeartbeats 1600000 in
theorem first_acc (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : isFirstChunk i) (hc1 : ¬isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) (f : arg16.view.ty.Contents (Elt F)) :
    arg16.view.read (Elt F) (arg16.view.writes (Elt F) f (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 s0 s1 s2 s3).2.2.2.1)
      = accumulate x0 (accumulatorReset (F := F)) (colsAt i (inputLayerNarrow x1 x2 x3)) := by
  unfold runFirst; dsimp only
  sl_unfold_words
  rw [View.read_writes_eq_canon _ _ _ (fun y => ⟨_, List.mem_cons_self .., View.mem_set_unit_zero (S := S64x2048) hz2 inb_S64x2048_S64x2048_0_0 y⟩), View.canon_cons_unit_zero hz2]
  simp only [View.readAt_eq_ld, View.readCov_unit_zero (S := S64x2048) _ hz2 inb_S64x2048_S64x2048_0_0, View.read_writes_junk_eq_canon, View.canon_unit_zero (S := S64x2048) hz2 inb_S64x2048_S64x2048_0_0, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1x512x2048) hz3, View.ld_unit_zero (S := S1x2048x128) hz3, View.ld_unit_zero (S := S64x128) hz2, View.ld_unit_zero (S := S64x1) hz2, View.ld_unit_zero (S := S64x64) hz2, View.ld_unit_zero (S := S192x64) hz2, View.ld_unit_zero (S := S192x1) hz2, View.ld_unit_zero (S := S64x2048) hz2, View.ld_unit_zero (S := S2048x2048) hz2]
  rfl

/-! ## The last chunk of a graph -/

theorem last_bank (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : ¬isFirstChunk i) (hc1 : isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) :
    (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 s0 s1 s2 s3).1
      = [(⟨Rect.unit (s := S2048x2048) (k0_off1 i) S512x2048.size (k0_off1_inb i), bankRows x0⟩ : View.Piece (Elt F) S2048x2048 .bf16)] := by
  unfold runLast; dsimp only
  sl_unfold_words
  simp only [View.readAt_eq_ld, harg2.read_unread, View.ld_unit_zero (S := S1x512x2048) hz3]
  rfl

set_option maxHeartbeats 1600000 in
theorem last_acc (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : ¬isFirstChunk i) (hc1 : isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) (f : arg16.view.ty.Contents (Elt F)) :
    arg16.view.read (Elt F) (arg16.view.writes (Elt F) f (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 s0 s1 s2 s3).2.1)
      = accumulate x0 s3 (colsAt i s2) := by
  unfold runLast; dsimp only
  sl_unfold_words
  rw [View.read_writes_eq_canon _ _ _ (fun y => ⟨_, List.mem_cons_self .., View.mem_set_unit_zero (S := S64x2048) hz2 inb_S64x2048_S64x2048_0_0 y⟩), View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1x512x2048) hz3, View.ld_unit_zero (S := S1x2048x128) hz3, View.ld_unit_zero (S := S64x128) hz2, View.ld_unit_zero (S := S64x1) hz2, View.ld_unit_zero (S := S64x64) hz2, View.ld_unit_zero (S := S192x64) hz2, View.ld_unit_zero (S := S192x1) hz2, View.ld_unit_zero (S := S64x2048) hz2, View.ld_unit_zero (S := S2048x2048) hz2]
  rfl

set_option maxHeartbeats 3200000 in
theorem last_out (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : ¬isFirstChunk i) (hc1 : isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) (f : arg12.view.ty.Contents (Elt F)) :
    arg12.view.read (Elt F) (arg12.view.writes (Elt F) f (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 s0 s1 s2 s3).2.2.1)
      = finishBlock s1 (accumulate x0 s3 (colsAt i s2))
          (arg13.view.read (Elt F) (arg13.view.writes (Elt F) (harg13.unread s0)
            [(⟨Rect.unit (s := S2048x2048) (k0_off1 i) S512x2048.size (k0_off1_inb i), bankRows x0⟩ : View.Piece (Elt F) S2048x2048 .bf16)]))
          x4 x5 x6 x8 x7 x9 := by
  unfold runLast; dsimp only
  sl_unfold_words
  rw [View.read_writes_eq_canon _ _ _ (fun y => ⟨_, List.mem_cons_self .., View.mem_set_unit_zero (S := S1x64x2048) hz3 inb_S1x64x2048_S1x64x2048_0_0_0 y⟩), View.canon_unit_zero hz3]
  simp only [View.readAt_eq_ld, View.readCov_unit_zero (S := S64x2048) _ hz2 inb_S64x2048_S64x2048_0_0, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1x512x2048) hz3, View.ld_unit_zero (S := S1x2048x128) hz3, View.ld_unit_zero (S := S64x128) hz2, View.ld_unit_zero (S := S64x1) hz2, View.ld_unit_zero (S := S64x64) hz2, View.ld_unit_zero (S := S192x64) hz2, View.ld_unit_zero (S := S192x1) hz2, View.ld_unit_zero (S := S64x2048) hz2, View.ld_unit_zero (S := S2048x2048) hz2]
  unfold finishBlock accumulate colsAt bankRows
  rfl

end Cert.Kernel.Body

end
-- ==== Proof.KBStep.lean ====
/-
  How the closed forms advance from a point to the next.

  The bank's rows property gains the point's own chunk: its rows read the point's adjacency rows, the rows of the
  earlier chunks of the graph read what they held. With all four chunks in place the bank is `bankFull`. The input
  layer and its narrow copy are those of the graph's first point, so they do not change between points of one
  graph; the accumulator at a later chunk is the accumulation onto the previous point's.
-/
import proofs.«119515_g77850577207767_cont_9to1c4b_578_27_alg».proof.Proof.KBPieces

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx
open Cert.Kernel.Enc

variable (m : (ℓ : Loc nD τ sig) → Buf (Elt F) ℓ)

/-! ## Points -/

theorem gstart_first (t : Fin cfg0.N) (h0 : t.val % 4 = 0) : gstart t = t := by
  unfold gstart; apply Fin.ext; show t.val - t.val % 4 = t.val; omega

theorem gstart_next (t p : Fin cfg0.N) (hp : p.val + 1 = t.val) (h0 : ¬ t.val % 4 = 0) : gstart t = gstart p := by
  unfold gstart; apply Fin.ext; show t.val - t.val % 4 = p.val - p.val % 4; omega

theorem gchunk_self (t : Fin cfg0.N) (hj : t.val % 4 ≤ t.val % 4) : gchunk t (t.val % 4) hj = t := by
  unfold gchunk; apply Fin.ext; show t.val - t.val % 4 + t.val % 4 = t.val
  have := Nat.mod_le t.val 4; omega

theorem layerAt_next (c : Dev nD) (t p : Fin cfg0.N) (hp : p.val + 1 = t.val) (h0 : ¬ t.val % 4 = 0) :
    layerAt m c t = layerAt m c p := by
  unfold layerAt; rw [gstart_next t p hp h0]

theorem narrowAt_next (c : Dev nD) (t p : Fin cfg0.N) (hp : p.val + 1 = t.val) (h0 : ¬ t.val % 4 = 0) :
    narrowAt m c t = narrowAt m c p := by
  unfold narrowAt; rw [gstart_next t p hp h0]

theorem accAt_next (c : Dev nD) (t p : Fin cfg0.N) (hp : p.val + 1 = t.val) (h0 : ¬ t.val % 4 = 0) :
    accAt m c t.val t.isLt
      = accumulate (iblk m c 0 t) (accAt m c p.val p.isLt) (colsAt (grid0.coords t) (narrowAt m c t)) := by
  obtain ⟨n, hn⟩ := t
  obtain ⟨k, hk⟩ := p
  have e : n = k + 1 := hp.symm
  subst e
  exact accAt_later m c k hn h0

/-! ## The bank -/

/-- The rows property one chunk on: given it for the earlier chunks of the graph, the bank after the point's chunk store
    has it for the point. -/
theorem bankRows_step (c : Dev nD) (t : Fin cfg0.N) (s0 : Vec F S2048x2048 .bf16)
    (hprev : ∀ (j : ℕ) (hj : j < t.val % 4) (r : Fin 512) (v : Fin 2048),
      s0 (ix2 ⟨512 * j + r.val, by have := r.isLt; have := Nat.mod_lt t.val (by decide : 4 > 0); omega⟩ v)
        = bankRows (iblk m c 0 (gchunk t j (Nat.le_of_lt hj))) (ix2 r v)) :
    BankRowsDone m c t (bankM.view.read (Elt F) (bankM.view.writes (Elt F) ((Memref.isWhole_whole cc0_scratch0).unread s0)
      [(⟨Rect.unit (s := S2048x2048) (k0_off1 (grid0.coords t)) S512x2048.size (k0_off1_inb (grid0.coords t)), bankRows (iblk m c 0 t)⟩ : View.Piece (Elt F) S2048x2048 .bf16)])) := by
  intro j hj r v
  by_cases hjk : j = t.val % 4
  · subst hjk
    rw [gchunk_self]
    exact bank_row_new (Memref.isWhole_whole cc0_scratch0) (k0_off1_inb (grid0.coords t)) (bankRows (iblk m c 0 t)) s0 (off1_eq t) r v _
  · have hlt : j < t.val % 4 := lt_of_le_of_ne hj hjk
    rw [bank_row_old (Memref.isWhole_whole cc0_scratch0) (k0_off1_inb (grid0.coords t)) (bankRows (iblk m c 0 t)) s0 (off1_eq t) _
      (Or.inl (by show 512 * j + r.val < 512 * (t.val % 4); have := r.isLt; omega))]
    exact hprev j hlt r v

/-- The earlier chunks' rows, from the rows property at the previous point of the same graph. -/
theorem bankRows_prev (c : Dev nD) (t p : Fin cfg0.N) (hp : p.val + 1 = t.val) (h0 : ¬ t.val % 4 = 0)
    (s0 : Vec F S2048x2048 .bf16) (hd : BankRowsDone m c p s0) :
    ∀ (j : ℕ) (hj : j < t.val % 4) (r : Fin 512) (v : Fin 2048),
      s0 (ix2 ⟨512 * j + r.val, by have := r.isLt; have := Nat.mod_lt t.val (by decide : 4 > 0); omega⟩ v)
        = bankRows (iblk m c 0 (gchunk t j (Nat.le_of_lt hj))) (ix2 r v) := by
  intro j hj r v
  have hj' : j ≤ p.val % 4 := by omega
  have e : gchunk t j (Nat.le_of_lt hj) = gchunk p j hj' := by
    unfold gchunk; apply Fin.ext; show t.val - t.val % 4 + j = p.val - p.val % 4 + j; omega
  rw [e]
  exact hd j hj' r v

/-- At a first chunk there is no earlier chunk. -/
theorem bankRows_none (c : Dev nD) (t : Fin cfg0.N) (h0 : t.val % 4 = 0) (s0 : Vec F S2048x2048 .bf16) :
    ∀ (j : ℕ) (hj : j < t.val % 4) (r : Fin 512) (v : Fin 2048),
      s0 (ix2 ⟨512 * j + r.val, by have := r.isLt; have := Nat.mod_lt t.val (by decide : 4 > 0); omega⟩ v)
        = bankRows (iblk m c 0 (gchunk t j (Nat.le_of_lt hj))) (ix2 r v) := by
  intro j hj; omega

/-- With all four chunks in place the bank is `bankFull`. -/
theorem bankFull_of_done (c : Dev nD) (t : Fin cfg0.N) (h3 : t.val % 4 = 3) (s0 : Vec F S2048x2048 .bf16)
    (hd : BankRowsDone m c t s0) : s0 = bankFull m c t := by
  funext y
  have hy : (y 0).val < 2048 := (y 0).isLt
  have hj : (y 0).val / 512 ≤ t.val % 4 := by rw [h3]; omega
  have h := hd ((y 0).val / 512) hj ⟨(y 0).val % 512, Nat.mod_lt _ (by decide)⟩ (y 1)
  have ey : (ix2 ⟨512 * ((y 0).val / 512) + (y 0).val % 512, by omega⟩ (y 1) : S2048x2048.Idx) = y := by
    funext a
    match a with
    | ⟨0, _⟩ => exact Fin.ext (Nat.div_add_mod (y 0).val 512)
    | ⟨1, _⟩ => rfl
  rw [ey] at h
  rw [h]
  rfl

end Cert.Kernel.Body

end
-- ==== Proof.KBOutBefore.lean ====
/-
  What the output's staging buffer holds when the body runs.

  The output block is never fetched, and it is written back exactly at the last chunk of each graph. At every
  other point the body leaves the output's buffer alone. So at any point the buffer holds what it held when its
  current run of untouched points began: nothing anyone named, at the first point and after each write-back alike.
  By induction on the point: the first point and a point after a write-back are fresh; any other point comes after
  a point that left the buffer as it found it, and that was fresh by induction.
-/
import proofs.«119515_g77850577207767_cont_9to1c4b_578_27_alg».proof.Proof.KBState

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

open Idealize.ShloMosaic.ValueIdx

variable (m : (ℓ : Loc nD τ sig) → Buf (Elt F) ℓ)

/-- The output's staging buffer holds, at every point, whatever a buffer nothing has filled holds. -/
theorem before10 (c : Dev nD) (t : Fin cfg0.N) (d) : (dats m 0 c).before 10 t d = d := by
  obtain ⟨n, hn⟩ := t
  induction n with
  | zero => exact (dats m 0 c).before_out_reset 10 rfl ⟨0, hn⟩ (.inl rfl) d
  | succ n ih =>
    have hn' : n < cfg0.N := Nat.lt_of_succ_lt hn
    by_cases hfl : (cfg0.win 10).flush ⟨n, hn'⟩ = true
    · exact (dats m 0 c).before_out_reset 10 rfl ⟨n + 1, hn⟩ (.inr ⟨Nat.succ_ne_zero n, hfl⟩) d
    · rw [Bool.not_eq_true] at hfl
      have hidle : cfg0.idle 10 (cfg0.grid.coords ⟨n, hn'⟩) = true :=
        (outIdle_iff ⟨n, hn'⟩).mpr fun h3 => by
          have := (flush0_10 ⟨n, hn'⟩).mpr h3; rw [hfl] at this; exact Bool.false_ne_true this
      rw [(dats m 0 c).before_of_pos 10 ⟨n + 1, hn⟩ (Nat.succ_ne_zero n) ((cfg0.win 10).fetch_out rfl _) d]
      show (if (cfg0.win 10).flush ⟨n, hn'⟩ = true then d else (dats m 0 c).left 10 ⟨n, hn'⟩ d) = d
      rw [hfl, if_neg Bool.false_ne_true]
      unfold Dat.left
      rw [hidle]
      exact ih hn'

end Cert.Kernel.Body

end
-- ==== Proof.KBFrame.lean ====
/-
  The body obligation at every grid point, the frame run and the frame.

  At a point the body is handed the region's invariant (the four scratch buffers at contents with the properties
  of `Good`), the ten input buffers at their blocks and the output buffer at anything. By the point's chunk it is in
  one of three cases, and that case's run applies. What the run leaves is read back through the stored pieces: the
  bank gains the chunk's rows; a first chunk leaves the input layer, its narrow copy and the restarted accumulator;
  a later chunk leaves the accumulator one product further; a last chunk leaves in the output buffer the two
  recurrent steps of the finished state, which is `outAt` because by then the bank holds all four chunks.
-/
import proofs.«119515_g77850577207767_cont_9to1c4b_578_27_alg».proof.Proof.KBStep
import proofs.«119515_g77850577207767_cont_9to1c4b_578_27_alg».proof.Proof.KBOutBefore

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx
open Cert.Kernel.Enc

variable (m : (ℓ : Loc nD τ sig) → Buf (Elt F) ℓ) (ρ : Dev nD → PrngReg)

/-! ## The output block at a last chunk -/

/-- The last chunk's stored block, from the previous point's closed forms, is `outAt`. -/
theorem out_step (c : Dev nD) (t p : Fin cfg0.N) (hp : p.val + 1 = t.val) (h0 : ¬ t.val % 4 = 0) (h3 : t.val % 4 = 3)
    (s0 : Vec F S2048x2048 .bf16) (hb : BankRowsDone m c p s0) :
    finishBlock (layerAt m c p) (accumulate (iblk m c 0 t) (accAt m c p.val p.isLt) (colsAt (grid0.coords t) (narrowAt m c p)))
        (bankM.view.read (Elt F) (bankM.view.writes (Elt F) ((Memref.isWhole_whole cc0_scratch0).unread s0)
          [(⟨Rect.unit (s := S2048x2048) (k0_off1 (grid0.coords t)) S512x2048.size (k0_off1_inb (grid0.coords t)), bankRows (iblk m c 0 t)⟩ : View.Piece (Elt F) S2048x2048 .bf16)]))
        (iblk m c 4 t) (iblk m c 5 t) (iblk m c 6 t) (iblk m c 8 t) (iblk m c 7 t) (iblk m c 9 t)
      = outAt m c t := by
  unfold outAt
  rw [← bankFull_of_done m c t h3 _ (bankRows_step m c t s0 (bankRows_prev m c t p hp h0 s0 hb)),
    accAt_next m c t p hp h0, layerAt_next m c t p hp h0, narrowAt_next m c t p hp h0]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem out_live (t : Fin cfg0.N) (h3 : t.val % 4 = 3) : cfg0.idle 10 (grid0.coords t) = false :=
  Bool.eq_false_iff.mpr fun h => (outIdle_iff t).mp h h3

theorem out_noflush (t : Fin cfg0.N) (h3 : ¬ t.val % 4 = 3) : (cfg0.win 10).flush t = false :=
  Bool.eq_false_iff.mpr fun h => h3 ((flush0_10 t).mp h)

set_option maxHeartbeats 16000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10 m c t]
  rw [show (dats m 0 c).owesAt () t.succ = (dats m 0 c).owesAt () t.castSucc from rfl]
  rw [show (dats m 0 c).Φ t.succ = Inv m c (t.val + 1) t.isLt from rfl, Inv_castSucc]
  have hN : t.val < 16 := lt_of_lt_of_eq t.isLt N16
  rw [show (dats m 0 c).leavesExact 0 t = owns (c : Thread nD τ) (stg0 t) fullShare ((dats m 0 c).after 0 t) from by
    unfold Dat.leavesExact; rw [live0 t], after0]
  rw [show (dats m 0 c).leavesExact 1 t = owns (c : Thread nD τ) (stg1 t) fullShare ((dats m 0 c).after 1 t) from by
    unfold Dat.leavesExact; rw [live1 t], after1]
  rw [show (dats m 0 c).leavesExact 2 t = owns (c : Thread nD τ) (stg2 t) fullShare ((dats m 0 c).after 2 t) from by
    unfold Dat.leavesExact; rw [live2 t], after2]
  rw [show (dats m 0 c).leavesExact 3 t = owns (c : Thread nD τ) (stg3 t) fullShare ((dats m 0 c).after 3 t) from by
    unfold Dat.leavesExact; rw [live3 t], after3]
  rw [show (dats m 0 c).leavesExact 4 t = owns (c : Thread nD τ) (stg4 t) fullShare ((dats m 0 c).after 4 t) from by
    unfold Dat.leavesExact; rw [live4 t], after4]
  rw [show (dats m 0 c).leavesExact 5 t = owns (c : Thread nD τ) (stg5 t) fullShare ((dats m 0 c).after 5 t) from by
    unfold Dat.leavesExact; rw [live5 t], after5]
  rw [show (dats m 0 c).leavesExact 6 t = owns (c : Thread nD τ) (stg6 t) fullShare ((dats m 0 c).after 6 t) from by
    unfold Dat.leavesExact; rw [live6 t], after6]
  rw [show (dats m 0 c).leavesExact 7 t = owns (c : Thread nD τ) (stg7 t) fullShare ((dats m 0 c).after 7 t) from by
    unfold Dat.leavesExact; rw [live7 t], after7]
  rw [show (dats m 0 c).leavesExact 8 t = owns (c : Thread nD τ) (stg8 t) fullShare ((dats m 0 c).after 8 t) from by
    unfold Dat.leavesExact; rw [live8 t], after8]
  rw [show (dats m 0 c).leavesExact 9 t = owns (c : Thread nD τ) (stg9 t) fullShare ((dats m 0 c).after 9 t) from by
    unfold Dat.leavesExact; rw [live9 t], after9]
  unfold Inv
  by_cases h0 : t.val % 4 = 0
  · -- the first chunk of a graph
    have h1 : ¬ t.val % 4 = 3 := by omega
    rw [Dat.leavesExact_idle (dats m 0 c) 10 t ((outIdle_iff t).mpr h1) (out_noflush t h1)]
    simp only [before10 m c t]
    iintro ⟨⟨⟨%s0, %s1, %s2, %s3, %hg, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runFirst c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) bankM (Memref.isWhole_whole _) layerM (Memref.isWhole_whole _) narrowM (Memref.isWhole_whole _) accM (Memref.isWhole_whole _) ((isFirstChunk_iff t).mpr h0) (fun h => h1 ((isLastChunk_iff t).mp h)) (iblk m c 0 t) (iblk m c 1 t) (iblk m c 2 t) (iblk m c 3 t) (iblk m c 4 t) (iblk m c 5 t) (iblk m c 6 t) (iblk m c 7 t) (iblk m c 8 t) (iblk m c 9 t) s0 s1 s2 s3).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, H7, H8, H9, H10, HB, HL, ⟨%fN, HN⟩, ⟨%fA, HA⟩⟩
    isplitl [HB HL HN HA Hg]
    · isplitl [HB HL HN HA]
      · iexists _, (layerAt m c t), (narrowAt m c t), (accAt m c t.val t.isLt)
        isplitr
        swap
        · isplitl [HB]
          · unfold owns; iexists _; isplitr
            swap; · iexact HB
            ipureintro; rfl
          isplitl [HL]
          · unfold owns; iexists _; isplitr
            swap; · iexact HL
            ipureintro
            exact (first_layer _ _ _ _ _ _ _ _ _ _ _ _ _ _ _ _ _ _ _ _ _ _ _ _ _ _ _ _ _ _ _ _ _ _ _ _ _ _ _ _ _ _ _ _ _ _ _ _ _).trans (by unfold layerAt; rw [gstart_first t h0])
          isplitl [HN]
          · unfold owns; iexists _; isplitr
            swap; · iexact HN
            ipureintro
            exact (first_narrow _ _ _ _ _ _ _ _ _ _ _ _ _ _ _ _ _ _ _ _ _ _ _ _ _ _ _ _ _ _ _ _ _ _ _ _ _ _ _ _ _ _ _ _ _ _ _ _ _).trans (by unfold narrowAt; rw [gstart_first t h0])
          unfold owns; iexists _; isplitr
          swap; · iexact HA
          ipureintro
          exact (first_acc _ _ _ _ _ _ _ _ _ _ _ _ _ _ _ _ _ _ _ _ _ _ _ _ _ _ _ _ _ _ _ _ _ _ _ _ _ _ _ _ _ _ _ _ _ _ _ _ _).trans (by rw [accAt_first m c t h0]; unfold narrowAt; rw [gstart_first t h0])
        · ipureintro
          refine (Good_succ m c t.val t.isLt _ _ _ _).mpr ⟨?_, rfl, rfl, rfl⟩
          rw [first_bank]
          exact bankRows_step m c t s0 (bankRows_none m c t h0 s0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hz : t.val ≠ 0 := fun h => h0 (by rw [h])
    have hpl : t.val - 1 < cfg0.N := lt_of_le_of_lt (Nat.sub_le _ _) t.isLt
    have hp : (⟨t.val - 1, hpl⟩ : Fin cfg0.N).val + 1 = t.val := by show t.val - 1 + 1 = t.val; omega
    by_cases h1 : t.val % 4 = 3
    · -- the last chunk of a graph
      rw [show (dats m 0 c).leavesExact 10 t = owns (c : Thread nD τ) (stg10 t) fullShare ((dats m 0 c).after 10 t) from by
        unfold Dat.leavesExact; rw [out_live t h1], after10]
      iintro ⟨⟨⟨%s0, %s1, %s2, %s3, %hg, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      obtain ⟨hb, e1, e2, e3⟩ := Good_at m c t ⟨t.val - 1, hpl⟩ hp s0 s1 s2 s3 hg
      subst e1 e2 e3
      iapply ((runLast c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) bankM (Memref.isWhole_whole _) layerM (Memref.isWhole_whole _) narrowM (Memref.isWhole_whole _) accM (Memref.isWhole_whole _) (fun h => h0 ((isFirstChunk_iff t).mp h)) ((isLastChunk_iff t).mpr h1) (iblk m c 0 t) (iblk m c 1 t) (iblk m c 2 t) (iblk m c 3 t) (iblk m c 4 t) (iblk m c 5 t) (iblk m c 6 t) (iblk m c 7 t) (iblk m c 8 t) (iblk m c 9 t) s0 _ _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, H6, H7, H8, H9, ⟨%fO, H10⟩, HB, HL, HN, ⟨%fA, HA⟩⟩
      isplitl [HB HL HN HA Hg]
      · isplitl [HB HL HN HA]
        · iexists _, (layerAt m c ⟨t.val - 1, hpl⟩), (narrowAt m c ⟨t.val - 1, hpl⟩), (accAt m c t.val t.isLt)
          isplitr
          swap
          · isplitl [HB]
            · unfold owns; iexists _; isplitr
              swap; · iexact HB
              ipureintro; rfl
            isplitl [HL]; · iexact HL
            isplitl [HN]; · iexact HN
            unfold owns; iexists _; isplitr
            swap; · iexact HA
            ipureintro
            exact (last_acc _ _ _ _ _ _ _ _ _ _ _ _ _ _ _ _ _ _ _ _ _ _ _ _ _ _ _ _ _ _ _ _ _ _ _ _ _ _ _ _ _ _ _ _ _ _ _ _ _).trans (by rw [accAt_next m c t _ hp h0, narrowAt_next m c t _ hp h0])
          · ipureintro
            refine (Good_succ m c t.val t.isLt _ _ _ _).mpr ⟨?_, (layerAt_next m c t _ hp h0).symm, (narrowAt_next m c t _ hp h0).symm, rfl⟩
            rw [last_bank]
            exact bankRows_step m c t s0 (bankRows_prev m c t _ hp h0 s0 hb)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro
      exact (last_out _ _ _ _ _ _ _ _ _ _ _ _ _ _ _ _ _ _ _ _ _ _ _ _ _ _ _ _ _ _ _ _ _ _ _ _ _ _ _ _ _ _ _ _ _ _ _ _ _).trans (out_step m c t _ hp h0 h1 s0 hb)
    · -- a middle chunk
      rw [Dat.leavesExact_idle (dats m 0 c) 10 t ((outIdle_iff t).mpr h1) (out_noflush t h1)]
      simp only [before10 m c t]
      iintro ⟨⟨⟨%s0, %s1, %s2, %s3, %hg, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      obtain ⟨hb, e1, e2, e3⟩ := Good_at m c t ⟨t.val - 1, hpl⟩ hp s0 s1 s2 s3 hg
      subst e1 e2 e3
      iapply ((runMiddle c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) bankM (Memref.isWhole_whole _) layerM (Memref.isWhole_whole _) narrowM (Memref.isWhole_whole _) accM (Memref.isWhole_whole _) (fun h => h0 ((isFirstChunk_iff t).mp h)) (fun h => h1 ((isLastChunk_iff t).mp h)) (iblk m c 0 t) (iblk m c 1 t) (iblk m c 2 t) (iblk m c 3 t) (iblk m c 4 t) (iblk m c 5 t) (iblk m c 6 t) (iblk m c 7 t) (iblk m c 8 t) (iblk m c 9 t) s0 _ _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, H6, H7, H8, H9, H10, HB, HL, HN, HA⟩
      isplitl [HB HL HN HA Hg]
      · isplitl [HB HL HN HA]
        · iexists _, (layerAt m c ⟨t.val - 1, hpl⟩), (narrowAt m c ⟨t.val - 1, hpl⟩), (accAt m c t.val t.isLt)
          isplitr
          swap
          · isplitl [HB]
            · unfold owns; iexists _; isplitr
              swap; · iexact HB
              ipureintro; rfl
            isplitl [HL]; · iexact HL
            isplitl [HN]; · iexact HN
            unfold owns; iexists _; isplitr
            swap; · iexact HA
            ipureintro
            exact (mid_acc _ _ _ _ _ _ _ _ _ _ _ _ _ _ _ _ _ _ _ _ _ _ _ _ _ _ _ _ _ _ _ _ _ _ _ _ _ _ _ _ _ _ _ _ _ _ _ _ _).trans (by rw [accAt_next m c t _ hp h0, narrowAt_next m c t _ hp h0])
          · ipureintro
            refine (Good_succ m c t.val t.isLt _ _ _ _).mpr ⟨?_, (layerAt_next m c t _ hp h0).symm, (narrowAt_next m c t _ hp h0).symm, rfl⟩
            rw [mid_bank]
            exact bankRows_step m c t s0 (bankRows_prev m c t _ hp h0 s0 hb)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer at what the
    host lines after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Body

end
-- ==== Proof.KIBodyDefs.lean ====
/-
  What the body's proof shares between its three control cases, for any float instance.

  The grid has 16 points, point `t` being (graph `t / 4`, row chunk `t % 4`). The body branches twice on the
  chunk: the first chunk of a graph (`t % 4 = 0`) also computes the input layer and resets the accumulator; the
  last chunk (`t % 4 = 3`) also runs the two recurrent steps and stores the output block. Both conditions are
  decided over the whole grid once. The ten input windows are live at every point; the output window is idle except
  at a graph's last chunk, where it is written back. The four scratch buffers are whole buffers of the core.
-/
import proofs.«119515_g77850577207767_cont_9to1c4b_578_27_alg».proof.Proof.Gen.KernelIdeal.Frame
import proofs.«119515_g77850577207767_cont_9to1c4b_578_27_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions -/

/-- The first branch's condition from the grid coordinates: the chunk coordinate is zero. -/
abbrev isFirstChunk (i : grid0.Coords) : Prop :=
  (Scalar.cmpi .ne (Scalar.extui (Scalar.cmpi .eq (BitVec.ofNat 32 (i 1).val) 0#32)) 0#32) = 1#1
/-- It holds exactly at the points whose chunk is 0. -/
theorem isFirstChunk_iff : ∀ t : Fin cfg0.N, isFirstChunk (grid0.coords t) ↔ t.val % 4 = 0 :=
  (by decide +kernel : ∀ t : Fin grid0.N, isFirstChunk (grid0.coords t) ↔ t.val % 4 = 0)

/-- The second branch's condition: the chunk coordinate is three. -/
abbrev isLastChunk (i : grid0.Coords) : Prop := k0_cond2 i = 1#1
/-- It holds exactly at the points whose chunk is 3. -/
theorem isLastChunk_iff : ∀ t : Fin cfg0.N, isLastChunk (grid0.coords t) ↔ t.val % 4 = 3 :=
  (by decide +kernel : ∀ t : Fin grid0.N, isLastChunk (grid0.coords t) ↔ t.val % 4 = 3)

/-! ## Where the windows are live -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
/-- The output window is idle except at a graph's last chunk. -/
theorem outIdle_iff : ∀ t : Fin cfg0.N, cfg0.idle 10 (grid0.coords t) = true ↔ ¬ t.val % 4 = 3 :=
  (by decide +kernel : ∀ t : Fin grid0.N, cfg0.idle 10 (grid0.coords t) = true ↔ ¬ t.val % 4 = 3)

/-! ## The memrefs the body is called with -/

abbrev stg0 (t : Fin cfg0.N) : Memref sig .tc .vmem S1x512x2048 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S1x2048x128 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S64x128 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S64x1 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S64x64 .f32 := win0_4.stage (cfg0.slots t 4)
abbrev hstg4 (t : Fin cfg0.N) : (stg4 t).IsWhole := hstage0_4 ((cfg0.slots t 4).cast nbuf0_4)
abbrev stg5 (t : Fin cfg0.N) : Memref sig .tc .vmem S64x1 .f32 := win0_5.stage (cfg0.slots t 5)
abbrev hstg5 (t : Fin cfg0.N) : (stg5 t).IsWhole := hstage0_5 ((cfg0.slots t 5).cast nbuf0_5)
abbrev stg6 (t : Fin cfg0.N) : Memref sig .tc .vmem S192x64 .f32 := win0_6.stage (cfg0.slots t 6)
abbrev hstg6 (t : Fin cfg0.N) : (stg6 t).IsWhole := hstage0_6 ((cfg0.slots t 6).cast nbuf0_6)
abbrev stg7 (t : Fin cfg0.N) : Memref sig .tc .vmem S192x64 .f32 := win0_7.stage (cfg0.slots t 7)
abbrev hstg7 (t : Fin cfg0.N) : (stg7 t).IsWhole := hstage0_7 ((cfg0.slots t 7).cast nbuf0_7)
abbrev stg8 (t : Fin cfg0.N) : Memref sig .tc .vmem S192x1 .f32 := win0_8.stage (cfg0.slots t 8)
abbrev hstg8 (t : Fin cfg0.N) : (stg8 t).IsWhole := hstage0_8 ((cfg0.slots t 8).cast nbuf0_8)
abbrev stg9 (t : Fin cfg0.N) : Memref sig .tc .vmem S192x1 .f32 := win0_9.stage (cfg0.slots t 9)
abbrev hstg9 (t : Fin cfg0.N) : (stg9 t).IsWhole := hstage0_9 ((cfg0.slots t 9).cast nbuf0_9)
abbrev stg10 (t : Fin cfg0.N) : Memref sig .tc .vmem S1x64x2048 .f32 := win0_10.stage (cfg0.slots t 10)
abbrev hstg10 (t : Fin cfg0.N) : (stg10 t).IsWhole := hstage0_10 ((cfg0.slots t 10).cast nbuf0_10)

/-- The adjacency bank, [2048, 2048] in the narrower format: one graph's adjacency rows, a chunk per point. -/
abbrev bankM : Memref sig .tc .vmem S2048x2048 .bf16 := Memref.whole cc0_scratch0
/-- The input layer of the current graph, [64, 2048]. -/
abbrev layerM : Memref sig .tc .vmem S64x2048 .f32 := Memref.whole cc0_scratch1
/-- The same in the narrower format. -/
abbrev narrowM : Memref sig .tc .vmem S64x2048 .bf16 := Memref.whole cc0_scratch2
/-- The neighbour-sum accumulator, [64, 2048]. -/
abbrev accM : Memref sig .tc .vmem S64x2048 .f32 := Memref.whole cc0_scratch3

/-- The class's region invariant with the four scratch buffers as memrefs owned at some contents. -/
theorem classInv_eq (c : Dev nD) :
    (Pipeline.ΦA spec0 c : sProp 𝕄)
      = iprop(iprop((∃ d, owns (c : Thread nD τ) bankM fullShare d) ∗ (∃ d, owns (c : Thread nD τ) layerM fullShare d) ∗ (∃ d, owns (c : Thread nD τ) narrowM fullShare d) ∗ (∃ d, owns (c : Thread nD τ) accM fullShare d)) ∗ (∃ r, prngReg c r)) := by
  unfold Pipeline.ΦA; rw [scopedRest0_eq]; simp only [bankM, layerM, narrowM, accM, owns_whole]; try rfl

end Cert.KernelIdeal.Body

end
-- ==== Proof.KIRunMid.lean ====
/-
  The body at a middle chunk of a graph (neither the first nor the last): it stores the chunk's 512 adjacency rows
  into the bank and adds the chunk's partial product into the accumulator; nothing else is written.
  The run finds, as lists of stored pieces, what the bank and the accumulator hold afterwards; the bank's pieces sit
  over what it held before (a chunk store covers only its own rows), the accumulator's cover it.
-/
import proofs.«119515_g77850577207767_cont_9to1c4b_578_27_alg».proof.Proof.KIBodyDefs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run at a middle chunk, from whole memrefs: the inputs at their blocks, the output buffer at anything, the
    four scratch buffers at named contents. It ends with the inputs, the output buffer, the input layer and its narrow
    copy as they were, the bank with its pieces written over what it held, the accumulator with its pieces written. -/
noncomputable def runMiddle (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : ¬isFirstChunk i) (hc1 : ¬isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) :
    Σ' (LB : List (View.Piece (Elt F) S2048x2048 .bf16)), { LA : List (View.Piece (Elt F) S64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare s0 ∗ owns (c : Thread nD τ) arg14 fullShare s1 ∗ owns (c : Thread nD τ) arg15 fullShare s2 ∗ owns (c : Thread nD τ) arg16 fullShare s3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (arg13.view.loc (c : Thread nD τ) ↦[arg13.view.set]{fullShare} arg13.view.writes (Elt F) (harg13.unread s0) LB) ∗ owns (c : Thread nD τ) arg14 fullShare s1 ∗ owns (c : Thread nD τ) arg15 fullShare s2 ∗ (arg16.view.loc (c : Thread nD τ) ↦[arg16.view.set]{fullShare} arg16.view.writes (Elt F) (harg16.unread s3) LA)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg13.eq_unread hfs0; obtain rfl := harg14.eq_unread hfs1; obtain rfl := harg15.eq_unread hfs2; obtain rfl := harg16.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [HS0]; · iexact HS0
    isplitl [HS1]
    · iexists _; isplitr; · ipureintro; exact harg14.read_unread _
      iexact HS1
    isplitl [HS2]
    · iexists _; isplitr; · ipureintro; exact harg15.read_unread _
      iexact HS2
    iexact HS3

end Cert.KernelIdeal.Body

end
-- ==== Proof.KIRunFirst.lean ====
/-
  The body at the first chunk of a graph: besides storing the chunk's adjacency rows into the bank it computes the
  input layer from the graph's features, stores it and its narrow copy, resets the accumulator and then adds the
  chunk's partial product into it. The run finds the stored pieces of all four scratch buffers; those of the input
  layer, of its narrow copy and of the accumulator cover their buffers, the bank's cover only the chunk's rows.
-/
import proofs.«119515_g77850577207767_cont_9to1c4b_578_27_alg».proof.Proof.KIRunMid

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run at the first chunk of a graph, from whole memrefs at named contents; it ends with every scratch
    buffer's pieces written over what the buffer held. -/
noncomputable def runFirst (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : isFirstChunk i) (hc1 : ¬isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) :
    Σ' (LB : List (View.Piece (Elt F) S2048x2048 .bf16)) (LL : List (View.Piece (Elt F) S64x2048 .f32)) (LN : List (View.Piece (Elt F) S64x2048 .bf16)), { LA : List (View.Piece (Elt F) S64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare s0 ∗ owns (c : Thread nD τ) arg14 fullShare s1 ∗ owns (c : Thread nD τ) arg15 fullShare s2 ∗ owns (c : Thread nD τ) arg16 fullShare s3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (arg13.view.loc (c : Thread nD τ) ↦[arg13.view.set]{fullShare} arg13.view.writes (Elt F) (harg13.unread s0) LB) ∗ (arg14.view.loc (c : Thread nD τ) ↦[arg14.view.set]{fullShare} arg14.view.writes (Elt F) (harg14.unread s1) LL) ∗ (∃ f, arg15.view.loc (c : Thread nD τ) ↦[arg15.view.set]{fullShare} arg15.view.writes (Elt F) f LN) ∗ (∃ f, arg16.view.loc (c : Thread nD τ) ↦[arg16.view.set]{fullShare} arg16.view.writes (Elt F) f LA)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg13.eq_unread hfs0; obtain rfl := harg14.eq_unread hfs1; obtain rfl := harg15.eq_unread hfs2; obtain rfl := harg16.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [HS0]; · iexact HS0
    isplitl [HS1]; · iexact HS1
    isplitl [HS2]; · iexists _; iexact HS2
    iexists _; iexact HS3

end Cert.KernelIdeal.Body

end
-- ==== Proof.KIRunLast.lean ====
/-
  The body at the last chunk of a graph: it stores the chunk's adjacency rows into the bank, adds the chunk's partial
  product into the accumulator, and then, from the input layer, the finished accumulator and the full bank, runs the
  two recurrent steps and stores the graph's output block. The run finds the stored pieces of the bank, the
  accumulator and the output buffer; the last two cover their buffers.
-/
import proofs.«119515_g77850577207767_cont_9to1c4b_578_27_alg».proof.Proof.KIRunFirst

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run at the last chunk of a graph, from whole memrefs at named contents (the output buffer at anything);
    it ends with the bank's and the accumulator's pieces written over what they held and the output buffer's pieces
    written. -/
noncomputable def runLast (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : ¬isFirstChunk i) (hc1 : isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) :
    Σ' (LB : List (View.Piece (Elt F) S2048x2048 .bf16)) (LA : List (View.Piece (Elt F) S64x2048 .f32)), { LO : List (View.Piece (Elt F) S1x64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare s0 ∗ owns (c : Thread nD τ) arg14 fullShare s1 ∗ owns (c : Thread nD τ) arg15 fullShare s2 ∗ owns (c : Thread nD τ) arg16 fullShare s3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f LO) ∗ (arg13.view.loc (c : Thread nD τ) ↦[arg13.view.set]{fullShare} arg13.view.writes (Elt F) (harg13.unread s0) LB) ∗ owns (c : Thread nD τ) arg14 fullShare s1 ∗ owns (c : Thread nD τ) arg15 fullShare s2 ∗ (∃ f, arg16.view.loc (c : Thread nD τ) ↦[arg16.view.set]{fullShare} arg16.view.writes (Elt F) f LA)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg13.eq_unread hfs0; obtain rfl := harg14.eq_unread hfs1; obtain rfl := harg15.eq_unread hfs2; obtain rfl := harg16.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]; · iexact HS0
    isplitl [HS1]
    · iexists _; isplitr; · ipureintro; exact harg14.read_unread _
      iexact HS1
    isplitl [HS2]
    · iexists _; isplitr; · ipureintro; exact harg15.read_unread _
      iexact HS2
    iexists _; iexact HS3

end Cert.KernelIdeal.Body

end
-- ==== Proof.KernelTerms.lean ====
/-
  The kernel's arithmetic, named by what each grid point leaves behind, for any float instance.

  The grid is (graph `b`, row chunk `k`), four chunks of 512 adjacency rows per graph. Every point stores its
  chunk of the adjacency block into the bank (`bankRows`) and adds the chunk's partial product into the
  accumulator (`accumulate`). The first chunk of a graph also stores the input layer, transposed to
  [feature, node] (`inputLayer`, and `inputLayerNarrow` in the narrower format) and resets the accumulator
  (`accumulatorReset`). The last chunk of a graph computes both recurrent steps from the input layer, the finished
  accumulator and the full bank, and stores the output block (`finishBlock`).
  Each is the composition of the generated payload terms that the body's stores carry.
-/
import proofs.«119515_g77850577207767_cont_9to1c4b_578_27_alg».proof.Proof.Gen.KernelIdeal.Skeleton

noncomputable section

namespace Cert.KernelIdeal.Enc

open Idealize.ShloMosaic Cert.KernelIdeal Cert.KernelIdeal.Gen

variable {F : FTy → Type} [FloatOps F]

/-- The 512 adjacency rows a point puts into the bank: its adjacency block, in the narrower format. -/
def bankRows (a : Vec F S1x512x2048 .f32) : FVec F S512x2048 .bf16 := k0_pay2 a

/-- The input layer of a graph, [feature, node]: rectified `w · xᵀ + bias`. -/
def inputLayer (x : Vec F S1x2048x128 .f32) (w : Vec F S64x128 .f32) (bias : Vec F S64x1 .f32) : FVec F S64x2048 .f32 :=
  k0_pay4 x w bias

/-- The same in the narrower format, the left operand of the partial products. -/
def inputLayerNarrow (x : Vec F S1x2048x128 .f32) (w : Vec F S64x128 .f32) (bias : Vec F S64x1 .f32) : FVec F S64x2048 .bf16 :=
  k0_pay5 x w bias

/-- The accumulator as the first chunk of a graph resets it. -/
def accumulatorReset : FVec F S64x2048 .f32 := k0_pay6 (F := F)

/-- The accumulator after a point: what it held plus the product of the input layer's 512 columns of this chunk with the
    chunk's adjacency rows. -/
def accumulate (a : Vec F S1x512x2048 .f32) (acc : Vec F S64x2048 .f32) (cols : Vec F S64x512 .bf16) : FVec F S64x2048 .f32 :=
  k0_pay7 a acc cols

/-- The output block the last chunk of a graph stores, [1, feature, node]: two recurrent steps from the input layer `o0`,
    the first with the finished accumulator `ag` as its neighbour sum, the second with the product of the first step's
    state and the full bank. Weights in the order: aggregation weight and bias, input-projection weight and bias,
    state-projection weight and bias. -/
def finishBlock (o0 ag : Vec F S64x2048 .f32) (bank : Vec F S2048x2048 .bf16)
    (gw : Vec F S64x64 .f32) (gb : Vec F S64x1 .f32) (wih : Vec F S192x64 .f32) (bih : Vec F S192x1 .f32)
    (whh : Vec F S192x64 .f32) (bhh : Vec F S192x1 .f32) : FVec F S1x64x2048 .f32 :=
  k0_pay8
    (k0_pay13 o0 (k0_pay11 o0 ag gw gb wih bih whh bhh) (k0_pay12 o0 ag gw gb wih bih whh bhh))
    (k0_pay16 o0 (k0_pay11 o0 ag gw gb wih bih whh bhh) (k0_pay12 o0 ag gw gb wih bih whh bhh) bank gw gb wih bih whh bhh)
    (k0_pay17 o0 (k0_pay11 o0 ag gw gb wih bih whh bhh) (k0_pay12 o0 ag gw gb wih bih whh bhh) bank gw gb wih bih whh bhh)
    (k0_pay18 (F := F))

end Cert.KernelIdeal.Enc

end
-- ==== Proof.KIState.lean ====
/-
  What the scratch buffers and the output buffer hold after each grid point, and the region's invariant.

  Point `t` is (graph `t / 4`, chunk `t % 4`); `gstart t = t - t % 4` is the first point of `t`'s graph. After point `t`:
    * the input-layer buffer holds the input layer of `t`'s graph, computed at `gstart t` from that point's
      feature block and weights (`layerAt`), and the narrow buffer its narrow copy (`narrowAt`);
    * the accumulator holds the reset value plus the partial products of chunks `0 … t % 4` of the graph, each the
      product of that chunk's 512 columns of the narrow copy with the chunk's adjacency rows (`accAt`, by
      recursion on the point: a first chunk restarts from the reset value);
    * the bank's rows `512 j … 512 j + 511` for `j ≤ t % 4` are the adjacency rows of chunk `j` of the graph
      (`BankRowsDone`); its other rows are whatever they were;
    * at a last chunk, the output buffer holds the two recurrent steps computed from the input layer, the finished
      accumulator and the bank with all four chunks in place (`bankFull`), `outAt`.
  The invariant before point `n + 1` owns the four scratch buffers at these contents (the bank at some contents
  with the rows property); before the first point it is the class's invariant, every scratch buffer at anything.
-/
import proofs.«119515_g77850577207767_cont_9to1c4b_578_27_alg».proof.Proof.KIRunLast
import proofs.«119515_g77850577207767_cont_9to1c4b_578_27_alg».proof.Proof.KernelTerms
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open Cert.KernelIdeal.Enc

variable (m : (ℓ : Loc nD τ sig) → Buf (Elt F) ℓ) (ρ : Dev nD → PrngReg)

/-! ## Points of a graph -/

theorem N16 : cfg0.N = 16 := N_0

/-- The first point of `t`'s graph. -/
def gstart (t : Fin cfg0.N) : Fin cfg0.N := ⟨t.val - t.val % 4, lt_of_le_of_lt (Nat.sub_le _ _) t.isLt⟩
/-- Chunk `j` (at most `t`'s own) of `t`'s graph. -/
def gchunk (t : Fin cfg0.N) (j : ℕ) (hj : j ≤ t.val % 4) : Fin cfg0.N :=
  ⟨t.val - t.val % 4 + j, by have := t.isLt; omega⟩

theorem gstart_pred (n : ℕ) (hn : n + 1 < cfg0.N) (h : ¬ (n + 1) % 4 = 0) :
    gstart ⟨n + 1, hn⟩ = gstart ⟨n, Nat.lt_of_succ_lt hn⟩ := by
  unfold gstart; apply Fin.ext; show n + 1 - (n + 1) % 4 = n - n % 4; omega

/-! ## The closed forms -/

/-- The 512 columns of a [64, 2048] value that the partial product at grid coordinates `i` uses. -/
def colsAt (i : grid0.Coords) (s2 : Vec F S64x2048 .bf16) : Vec F S64x512 .bf16 :=
  View.ld s2 (Rect.unit (s := S64x2048) (k0_off2 i) S64x512.size (k0_off2_inb i))

/-- The input layer of `t`'s graph. -/
def layerAt (c : Dev nD) (t : Fin cfg0.N) : Vec F S64x2048 .f32 :=
  inputLayer (iblk m c 1 (gstart t)) (iblk m c 2 (gstart t)) (iblk m c 3 (gstart t))
/-- Its narrow copy. -/
def narrowAt (c : Dev nD) (t : Fin cfg0.N) : Vec F S64x2048 .bf16 :=
  inputLayerNarrow (iblk m c 1 (gstart t)) (iblk m c 2 (gstart t)) (iblk m c 3 (gstart t))

/-- The accumulator after point `n`. -/
def accAt (c : Dev nD) : (n : ℕ) → n < cfg0.N → Vec F S64x2048 .f32
  | 0, h => accumulate (iblk m c 0 ⟨0, h⟩) (accumulatorReset (F := F)) (colsAt (grid0.coords ⟨0, h⟩) (narrowAt m c ⟨0, h⟩))
  | n + 1, h =>
    if (n + 1) % 4 = 0 then
      accumulate (iblk m c 0 ⟨n + 1, h⟩) (accumulatorReset (F := F)) (colsAt (grid0.coords ⟨n + 1, h⟩) (narrowAt m c ⟨n + 1, h⟩))
    else
      accumulate (iblk m c 0 ⟨n + 1, h⟩) (accAt c n (Nat.lt_of_succ_lt h)) (colsAt (grid0.coords ⟨n + 1, h⟩) (narrowAt m c ⟨n + 1, h⟩))

theorem accAt_first (c : Dev nD) (t : Fin cfg0.N) (h0 : t.val % 4 = 0) :
    accAt m c t.val t.isLt = accumulate (iblk m c 0 t) (accumulatorReset (F := F)) (colsAt (grid0.coords t) (narrowAt m c t)) := by
  obtain ⟨n, hn⟩ := t
  cases n with
  | zero => rfl
  | succ n => exact if_pos h0

theorem accAt_later (c : Dev nD) (n : ℕ) (hn : n + 1 < cfg0.N) (h0 : ¬ (n + 1) % 4 = 0) :
    accAt m c (n + 1) hn = accumulate (iblk m c 0 ⟨n + 1, hn⟩) (accAt m c n (Nat.lt_of_succ_lt hn)) (colsAt (grid0.coords ⟨n + 1, hn⟩) (narrowAt m c ⟨n + 1, hn⟩)) :=
  if_neg h0

/-- The bank's rows of the chunks done so far in `t`'s graph are those chunks' adjacency rows. -/
def BankRowsDone (c : Dev nD) (t : Fin cfg0.N) (s0 : Vec F S2048x2048 .bf16) : Prop :=
  ∀ (j : ℕ) (hj : j ≤ t.val % 4) (r : Fin 512) (v : Fin 2048),
    s0 (ix2 ⟨512 * j + r.val, by have := r.isLt; have := Nat.mod_lt t.val (by decide : 4 > 0); omega⟩ v)
      = bankRows (iblk m c 0 (gchunk t j hj)) (ix2 r v)

/-- The bank with all four chunks of `t`'s graph in place. -/
def bankFull (c : Dev nD) (t : Fin cfg0.N) : Vec F S2048x2048 .bf16 := fun y =>
  bankRows (iblk m c 0 ⟨t.val - t.val % 4 + (y 0).val / 512, by
      have := t.isLt; have h16 : cfg0.N = 16 := N16; have := (y 0).isLt
      have h2 : (y 0).val < 2048 := (y 0).isLt
      have : (y 0).val / 512 < 4 := Nat.div_lt_of_lt_mul (by omega)
      have : t.val % 4 < 4 := Nat.mod_lt _ (by decide)
      omega⟩)
    (ix2 ⟨(y 0).val % 512, Nat.mod_lt _ (by decide)⟩ (y 1))

/-- The output block stored at a last chunk `t`. -/
def outAt (c : Dev nD) (t : Fin cfg0.N) : Vec F S1x64x2048 .f32 :=
  finishBlock (layerAt m c t) (accAt m c t.val t.isLt) (bankFull m c t)
    (iblk m c 4 t) (iblk m c 5 t) (iblk m c 6 t) (iblk m c 8 t) (iblk m c 7 t) (iblk m c 9 t)

/-! ## The invariant -/

/-- What the four scratch buffers' contents satisfy before position `n`: nothing before the first point; afterwards the
    rows property of the bank and the closed forms of the other three, at the point before. -/
def Good (c : Dev nD) : (n : ℕ) → n ≤ cfg0.N → Vec F S2048x2048 .bf16 → Vec F S64x2048 .f32 → Vec F S64x2048 .bf16 → Vec F S64x2048 .f32 → Prop
  | 0, _, _, _, _, _ => True
  | n + 1, hn, s0, s1, s2, s3 =>
    BankRowsDone m c ⟨n, hn⟩ s0 ∧ s1 = layerAt m c ⟨n, hn⟩ ∧ s2 = narrowAt m c ⟨n, hn⟩ ∧ s3 = accAt m c n hn

theorem Good_succ (c : Dev nD) (n : ℕ) (hn : n < cfg0.N) (s0 : Vec F S2048x2048 .bf16) (s1 : Vec F S64x2048 .f32) (s2 : Vec F S64x2048 .bf16) (s3 : Vec F S64x2048 .f32) :
    Good m c (n + 1) hn s0 s1 s2 s3
      ↔ (BankRowsDone m c ⟨n, hn⟩ s0 ∧ s1 = layerAt m c ⟨n, hn⟩ ∧ s2 = narrowAt m c ⟨n, hn⟩ ∧ s3 = accAt m c n hn) := Iff.rfl

/-- Before a point `t` that is not the first: the facts at the point `p` before it. -/
theorem Good_at (c : Dev nD) (t p : Fin cfg0.N) (hp : p.val + 1 = t.val) (s0 : Vec F S2048x2048 .bf16) (s1 : Vec F S64x2048 .f32) (s2 : Vec F S64x2048 .bf16) (s3 : Vec F S64x2048 .f32)
    (h : Good m c t.val (Nat.le_of_lt t.isLt) s0 s1 s2 s3) :
    BankRowsDone m c p s0 ∧ s1 = layerAt m c p ∧ s2 = narrowAt m c p ∧ s3 = accAt m c p.val p.isLt := by
  obtain ⟨n, hn⟩ := t
  obtain ⟨k, hk⟩ := p
  have e : n = k + 1 := hp.symm
  subst e
  exact h

/-- The region's invariant before position `n`: the four scratch buffers owned at contents satisfying `Good`, and the
    generator register at some state. -/
def Inv (c : Dev nD) (n : ℕ) (hn : n ≤ cfg0.N) : sProp 𝕄 :=
  iprop(iprop(∃ s0 s1 s2 s3, ⌜Good m c n hn s0 s1 s2 s3⌝ ∗ owns (c : Thread nD τ) bankM fullShare s0
      ∗ owns (c : Thread nD τ) layerM fullShare s1 ∗ owns (c : Thread nD τ) narrowM fullShare s2
      ∗ owns (c : Thread nD τ) accM fullShare s3) ∗ (∃ r, prngReg c r))

/-! ## The proof data -/

/-- The proof data of the one pipeline on core `c`: the arrays as the region finds them; after the body each input's
    buffer at its block and the output's at `outAt`; the invariant `Inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-! ## Entry and exit -/

/-- The class's invariant gives the region's before the first point: any contents are good there. -/
theorem hin (c : Dev nD) : Pipeline.ΦA spec0 c ⊢ (dats m 0 c).Φ 0 := by
  rw [show (dats m 0 c).Φ 0 = Inv m c 0 (Nat.zero_le _) from rfl, classInv_eq]
  unfold Inv
  iintro ⟨⟨⟨%s0, HS0⟩, ⟨%s1, HS1⟩, ⟨%s2, HS2⟩, ⟨%s3, HS3⟩⟩, Hg⟩
  isplitl [HS0 HS1 HS2 HS3]
  · iexists s0, s1, s2, s3
    isplitr; · ipureintro; exact trivial
    isplitl [HS0]; · iexact HS0
    isplitl [HS1]; · iexact HS1
    isplitl [HS2]; · iexact HS2
    iexact HS3
  iexact Hg

/-- After the last point the invariant gives the class's back: what the contents satisfy is forgotten. -/
theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl, classInv_eq]
  unfold Inv
  iintro ⟨⟨%s0, %s1, %s2, %s3, -, HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

end Cert.KernelIdeal.Body

end
-- ==== Proof.KIPieces.lean ====
/-
  What the three runs' stored pieces read back as, in the kernel's own arithmetic.

  A buffer stored whole reads back as its last store's value whatever it held; the value's operands are the
  blocks and scratch contents the run loaded. The bank is stored one chunk of 512 rows at a time: its rows inside
  the chunk read the chunk's adjacency rows, its other rows what the bank held.
-/
import proofs.«119515_g77850577207767_cont_9to1c4b_578_27_alg».proof.Proof.KIState
import Idealize.ShloMosaic.Lib.WritesUnit
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open Cert.KernelIdeal.Enc

theorem hz2 : (![0, 0] : Fin 2 → ℕ) = fun _ => 0 := by funext a; fin_cases a <;> rfl
theorem hz3 : (![0, 0, 0] : Fin 3 → ℕ) = fun _ => 0 := by funext a; fin_cases a <;> rfl

/-- The bank's chunk offset at point `t`: row `512 · (t % 4)`, column 0. -/
theorem off1_eq : ∀ t : Fin cfg0.N, k0_off1 (grid0.coords t) = ![512 * (t.val % 4), 0] :=
  (by decide +kernel : ∀ t : Fin grid0.N, k0_off1 (grid0.coords t) = ![512 * (t.val % 4), 0])

/-! ## The bank after one chunk store -/

section Bank
variable {arg13 : Memref sig .tc .vmem S2048x2048 .bf16} (harg13 : arg13.IsWhole)
  {off : Fin 2 → ℕ} (inb : ∀ a, off a + S512x2048.size a ≤ S2048x2048.size a)
  (w : (Rect.unit (s := S2048x2048) off S512x2048.size inb).shape.Idx → Elt F .bf16) (s0 : Vec F S2048x2048 .bf16)

/-- A row of the chunk reads the stored value at its position in the chunk. -/
theorem bank_row_new {o : ℕ} (hoff : off = ![o, 0]) (r : Fin 512) (v : Fin 2048) (hr : o + r.val < 2048) :
    arg13.view.read (Elt F) (arg13.view.writes (Elt F) (harg13.unread s0)
        [(⟨Rect.unit (s := S2048x2048) off S512x2048.size inb, w⟩ : View.Piece (Elt F) S2048x2048 .bf16)]) (ix2 ⟨o + r.val, hr⟩ v)
      = w (ix2 r v) :=
  View.read_writes_cons_rows_of_mem arg13.view (harg13.unread s0) inb w [] (ix2 ⟨o + r.val, hr⟩ v) (ix2 r v) hoff rfl rfl

/-- A row outside the chunk reads what the bank held. -/
theorem bank_row_old {o : ℕ} (hoff : off = ![o, 0]) (y : S2048x2048.Idx) (h : (y 0).val < o ∨ o + 512 ≤ (y 0).val) :
    arg13.view.read (Elt F) (arg13.view.writes (Elt F) (harg13.unread s0)
        [(⟨Rect.unit (s := S2048x2048) off S512x2048.size inb, w⟩ : View.Piece (Elt F) S2048x2048 .bf16)]) y
      = s0 y := by
  rw [View.read_writes_cons_rows_of_not_mem arg13.view (harg13.unread s0) inb w [] y hoff rfl h, View.writes_nil, harg13.read_unread]
end Bank

/-! ## A middle chunk -/

theorem mid_bank (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : ¬isFirstChunk i) (hc1 : ¬isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) :
    (runMiddle c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 s0 s1 s2 s3).1
      = [(⟨Rect.unit (s := S2048x2048) (k0_off1 i) S512x2048.size (k0_off1_inb i), bankRows x0⟩ : View.Piece (Elt F) S2048x2048 .bf16)] := by
  unfold runMiddle; dsimp only
  simp only [View.readAt_eq_ld, harg2.read_unread, View.ld_unit_zero (S := S1x512x2048) hz3]
  rfl

set_option maxHeartbeats 1600000 in
theorem mid_acc (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : ¬isFirstChunk i) (hc1 : ¬isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) (f : arg16.view.ty.Contents (Elt F)) :
    arg16.view.read (Elt F) (arg16.view.writes (Elt F) f (runMiddle c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 s0 s1 s2 s3).2.1)
      = accumulate x0 s3 (colsAt i s2) := by
  unfold runMiddle; dsimp only
  rw [View.read_writes_eq_canon _ _ _ (fun y => ⟨_, List.mem_cons_self .., View.mem_set_unit_zero (S := S64x2048) hz2 inb_S64x2048_S64x2048_0_0 y⟩), View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1x512x2048) hz3, View.ld_unit_zero (S := S1x2048x128) hz3, View.ld_unit_zero (S := S64x128) hz2, View.ld_unit_zero (S := S64x1) hz2, View.ld_unit_zero (S := S64x64) hz2, View.ld_unit_zero (S := S192x64) hz2, View.ld_unit_zero (S := S192x1) hz2, View.ld_unit_zero (S := S64x2048) hz2, View.ld_unit_zero (S := S2048x2048) hz2]
  rfl

/-! ## The first chunk of a graph -/

theorem first_bank (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : isFirstChunk i) (hc1 : ¬isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) :
    (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 s0 s1 s2 s3).1
      = [(⟨Rect.unit (s := S2048x2048) (k0_off1 i) S512x2048.size (k0_off1_inb i), bankRows x0⟩ : View.Piece (Elt F) S2048x2048 .bf16)] := by
  unfold runFirst; dsimp only
  sl_unfold_words
  simp only [View.readAt_eq_ld, harg2.read_unread, View.ld_unit_zero (S := S1x512x2048) hz3]
  rfl

set_option maxHeartbeats 1600000 in
theorem first_layer (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : isFirstChunk i) (hc1 : ¬isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) (f : arg14.view.ty.Contents (Elt F)) :
    arg14.view.read (Elt F) (arg14.view.writes (Elt F) f (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 s0 s1 s2 s3).2.1)
      = inputLayer x1 x2 x3 := by
  unfold runFirst; dsimp only
  sl_unfold_words
  rw [View.read_writes_eq_canon _ _ _ (fun y => ⟨_, List.mem_cons_self .., View.mem_set_unit_zero (S := S64x2048) hz2 inb_S64x2048_S64x2048_0_0 y⟩), View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1x512x2048) hz3, View.ld_unit_zero (S := S1x2048x128) hz3, View.ld_unit_zero (S := S64x128) hz2, View.ld_unit_zero (S := S64x1) hz2, View.ld_unit_zero (S := S64x64) hz2, View.ld_unit_zero (S := S192x64) hz2, View.ld_unit_zero (S := S192x1) hz2, View.ld_unit_zero (S := S64x2048) hz2, View.ld_unit_zero (S := S2048x2048) hz2]
  rfl

set_option maxHeartbeats 1600000 in
theorem first_narrow (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : isFirstChunk i) (hc1 : ¬isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) (f : arg15.view.ty.Contents (Elt F)) :
    arg15.view.read (Elt F) (arg15.view.writes (Elt F) f (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 s0 s1 s2 s3).2.2.1)
      = inputLayerNarrow x1 x2 x3 := by
  unfold runFirst; dsimp only
  sl_unfold_words
  rw [View.read_writes_eq_canon _ _ _ (fun y => ⟨_, List.mem_cons_self .., View.mem_set_unit_zero (S := S64x2048) hz2 inb_S64x2048_S64x2048_0_0 y⟩), View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1x512x2048) hz3, View.ld_unit_zero (S := S1x2048x128) hz3, View.ld_unit_zero (S := S64x128) hz2, View.ld_unit_zero (S := S64x1) hz2, View.ld_unit_zero (S := S64x64) hz2, View.ld_unit_zero (S := S192x64) hz2, View.ld_unit_zero (S := S192x1) hz2, View.ld_unit_zero (S := S64x2048) hz2, View.ld_unit_zero (S := S2048x2048) hz2]
  rfl

set_option maxHeartbeats 1600000 in
theorem first_acc (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : isFirstChunk i) (hc1 : ¬isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) (f : arg16.view.ty.Contents (Elt F)) :
    arg16.view.read (Elt F) (arg16.view.writes (Elt F) f (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 s0 s1 s2 s3).2.2.2.1)
      = accumulate x0 (accumulatorReset (F := F)) (colsAt i (inputLayerNarrow x1 x2 x3)) := by
  unfold runFirst; dsimp only
  sl_unfold_words
  rw [View.read_writes_eq_canon _ _ _ (fun y => ⟨_, List.mem_cons_self .., View.mem_set_unit_zero (S := S64x2048) hz2 inb_S64x2048_S64x2048_0_0 y⟩), View.canon_cons_unit_zero hz2]
  simp only [View.readAt_eq_ld, View.readCov_unit_zero (S := S64x2048) _ hz2 inb_S64x2048_S64x2048_0_0, View.read_writes_junk_eq_canon, View.canon_unit_zero (S := S64x2048) hz2 inb_S64x2048_S64x2048_0_0, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1x512x2048) hz3, View.ld_unit_zero (S := S1x2048x128) hz3, View.ld_unit_zero (S := S64x128) hz2, View.ld_unit_zero (S := S64x1) hz2, View.ld_unit_zero (S := S64x64) hz2, View.ld_unit_zero (S := S192x64) hz2, View.ld_unit_zero (S := S192x1) hz2, View.ld_unit_zero (S := S64x2048) hz2, View.ld_unit_zero (S := S2048x2048) hz2]
  rfl

/-! ## The last chunk of a graph -/

theorem last_bank (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : ¬isFirstChunk i) (hc1 : isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) :
    (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 s0 s1 s2 s3).1
      = [(⟨Rect.unit (s := S2048x2048) (k0_off1 i) S512x2048.size (k0_off1_inb i), bankRows x0⟩ : View.Piece (Elt F) S2048x2048 .bf16)] := by
  unfold runLast; dsimp only
  sl_unfold_words
  simp only [View.readAt_eq_ld, harg2.read_unread, View.ld_unit_zero (S := S1x512x2048) hz3]
  rfl

set_option maxHeartbeats 1600000 in
theorem last_acc (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : ¬isFirstChunk i) (hc1 : isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) (f : arg16.view.ty.Contents (Elt F)) :
    arg16.view.read (Elt F) (arg16.view.writes (Elt F) f (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 s0 s1 s2 s3).2.1)
      = accumulate x0 s3 (colsAt i s2) := by
  unfold runLast; dsimp only
  sl_unfold_words
  rw [View.read_writes_eq_canon _ _ _ (fun y => ⟨_, List.mem_cons_self .., View.mem_set_unit_zero (S := S64x2048) hz2 inb_S64x2048_S64x2048_0_0 y⟩), View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1x512x2048) hz3, View.ld_unit_zero (S := S1x2048x128) hz3, View.ld_unit_zero (S := S64x128) hz2, View.ld_unit_zero (S := S64x1) hz2, View.ld_unit_zero (S := S64x64) hz2, View.ld_unit_zero (S := S192x64) hz2, View.ld_unit_zero (S := S192x1) hz2, View.ld_unit_zero (S := S64x2048) hz2, View.ld_unit_zero (S := S2048x2048) hz2]
  rfl

set_option maxHeartbeats 3200000 in
theorem last_out (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S192x64 .f32) (harg8 : arg8.IsWhole) (arg9 : Memref sig .tc .vmem S192x64 .f32) (harg9 : arg9.IsWhole) (arg10 : Memref sig .tc .vmem S192x1 .f32) (harg10 : arg10.IsWhole) (arg11 : Memref sig .tc .vmem S192x1 .f32) (harg11 : arg11.IsWhole) (arg12 : Memref sig .tc .vmem S1x64x2048 .f32) (harg12 : arg12.IsWhole) (arg13 : Memref sig .tc .vmem S2048x2048 .bf16) (harg13 : arg13.IsWhole) (arg14 : Memref sig .tc .vmem S64x2048 .f32) (harg14 : arg14.IsWhole) (arg15 : Memref sig .tc .vmem S64x2048 .bf16) (harg15 : arg15.IsWhole) (arg16 : Memref sig .tc .vmem S64x2048 .f32) (harg16 : arg16.IsWhole)
    (hc0 : ¬isFirstChunk i) (hc1 : isLastChunk i)
    (x0 : Vec F S1x512x2048 .f32) (x1 : Vec F S1x2048x128 .f32) (x2 : Vec F S64x128 .f32) (x3 : Vec F S64x1 .f32) (x4 : Vec F S64x64 .f32) (x5 : Vec F S64x1 .f32) (x6 : Vec F S192x64 .f32) (x7 : Vec F S192x64 .f32) (x8 : Vec F S192x1 .f32) (x9 : Vec F S192x1 .f32) (s0 : Vec F S2048x2048 .bf16) (s1 : Vec F S64x2048 .f32) (s2 : Vec F S64x2048 .bf16) (s3 : Vec F S64x2048 .f32) (f : arg12.view.ty.Contents (Elt F)) :
    arg12.view.read (Elt F) (arg12.view.writes (Elt F) f (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 s0 s1 s2 s3).2.2.1)
      = finishBlock s1 (accumulate x0 s3 (colsAt i s2))
          (arg13.view.read (Elt F) (arg13.view.writes (Elt F) (harg13.unread s0)
            [(⟨Rect.unit (s := S2048x2048) (k0_off1 i) S512x2048.size (k0_off1_inb i), bankRows x0⟩ : View.Piece (Elt F) S2048x2048 .bf16)]))
          x4 x5 x6 x8 x7 x9 := by
  unfold runLast; dsimp only
  sl_unfold_words
  rw [View.read_writes_eq_canon _ _ _ (fun y => ⟨_, List.mem_cons_self .., View.mem_set_unit_zero (S := S1x64x2048) hz3 inb_S1x64x2048_S1x64x2048_0_0_0 y⟩), View.canon_unit_zero hz3]
  simp only [View.readAt_eq_ld, View.readCov_unit_zero (S := S64x2048) _ hz2 inb_S64x2048_S64x2048_0_0, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1x512x2048) hz3, View.ld_unit_zero (S := S1x2048x128) hz3, View.ld_unit_zero (S := S64x128) hz2, View.ld_unit_zero (S := S64x1) hz2, View.ld_unit_zero (S := S64x64) hz2, View.ld_unit_zero (S := S192x64) hz2, View.ld_unit_zero (S := S192x1) hz2, View.ld_unit_zero (S := S64x2048) hz2, View.ld_unit_zero (S := S2048x2048) hz2]
  unfold finishBlock accumulate colsAt bankRows
  rfl

end Cert.KernelIdeal.Body

end
-- ==== Proof.KIStep.lean ====
/-
  How the closed forms advance from a point to the next.

  The bank's rows property gains the point's own chunk: its rows read the point's adjacency rows, the rows of the
  earlier chunks of the graph read what they held. With all four chunks in place the bank is `bankFull`. The input
  layer and its narrow copy are those of the graph's first point, so they do not change between points of one
  graph; the accumulator at a later chunk is the accumulation onto the previous point's.
-/
import proofs.«119515_g77850577207767_cont_9to1c4b_578_27_alg».proof.Proof.KIPieces

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open Cert.KernelIdeal.Enc

variable (m : (ℓ : Loc nD τ sig) → Buf (Elt F) ℓ)

/-! ## Points -/

theorem gstart_first (t : Fin cfg0.N) (h0 : t.val % 4 = 0) : gstart t = t := by
  unfold gstart; apply Fin.ext; show t.val - t.val % 4 = t.val; omega

theorem gstart_next (t p : Fin cfg0.N) (hp : p.val + 1 = t.val) (h0 : ¬ t.val % 4 = 0) : gstart t = gstart p := by
  unfold gstart; apply Fin.ext; show t.val - t.val % 4 = p.val - p.val % 4; omega

theorem gchunk_self (t : Fin cfg0.N) (hj : t.val % 4 ≤ t.val % 4) : gchunk t (t.val % 4) hj = t := by
  unfold gchunk; apply Fin.ext; show t.val - t.val % 4 + t.val % 4 = t.val
  have := Nat.mod_le t.val 4; omega

theorem layerAt_next (c : Dev nD) (t p : Fin cfg0.N) (hp : p.val + 1 = t.val) (h0 : ¬ t.val % 4 = 0) :
    layerAt m c t = layerAt m c p := by
  unfold layerAt; rw [gstart_next t p hp h0]

theorem narrowAt_next (c : Dev nD) (t p : Fin cfg0.N) (hp : p.val + 1 = t.val) (h0 : ¬ t.val % 4 = 0) :
    narrowAt m c t = narrowAt m c p := by
  unfold narrowAt; rw [gstart_next t p hp h0]

theorem accAt_next (c : Dev nD) (t p : Fin cfg0.N) (hp : p.val + 1 = t.val) (h0 : ¬ t.val % 4 = 0) :
    accAt m c t.val t.isLt
      = accumulate (iblk m c 0 t) (accAt m c p.val p.isLt) (colsAt (grid0.coords t) (narrowAt m c t)) := by
  obtain ⟨n, hn⟩ := t
  obtain ⟨k, hk⟩ := p
  have e : n = k + 1 := hp.symm
  subst e
  exact accAt_later m c k hn h0

/-! ## The bank -/

/-- The rows property one chunk on: given it for the earlier chunks of the graph, the bank after the point's chunk store
    has it for the point. -/
theorem bankRows_step (c : Dev nD) (t : Fin cfg0.N) (s0 : Vec F S2048x2048 .bf16)
    (hprev : ∀ (j : ℕ) (hj : j < t.val % 4) (r : Fin 512) (v : Fin 2048),
      s0 (ix2 ⟨512 * j + r.val, by have := r.isLt; have := Nat.mod_lt t.val (by decide : 4 > 0); omega⟩ v)
        = bankRows (iblk m c 0 (gchunk t j (Nat.le_of_lt hj))) (ix2 r v)) :
    BankRowsDone m c t (bankM.view.read (Elt F) (bankM.view.writes (Elt F) ((Memref.isWhole_whole cc0_scratch0).unread s0)
      [(⟨Rect.unit (s := S2048x2048) (k0_off1 (grid0.coords t)) S512x2048.size (k0_off1_inb (grid0.coords t)), bankRows (iblk m c 0 t)⟩ : View.Piece (Elt F) S2048x2048 .bf16)])) := by
  intro j hj r v
  by_cases hjk : j = t.val % 4
  · subst hjk
    rw [gchunk_self]
    exact bank_row_new (Memref.isWhole_whole cc0_scratch0) (k0_off1_inb (grid0.coords t)) (bankRows (iblk m c 0 t)) s0 (off1_eq t) r v _
  · have hlt : j < t.val % 4 := lt_of_le_of_ne hj hjk
    rw [bank_row_old (Memref.isWhole_whole cc0_scratch0) (k0_off1_inb (grid0.coords t)) (bankRows (iblk m c 0 t)) s0 (off1_eq t) _
      (Or.inl (by show 512 * j + r.val < 512 * (t.val % 4); have := r.isLt; omega))]
    exact hprev j hlt r v

/-- The earlier chunks' rows, from the rows property at the previous point of the same graph. -/
theorem bankRows_prev (c : Dev nD) (t p : Fin cfg0.N) (hp : p.val + 1 = t.val) (h0 : ¬ t.val % 4 = 0)
    (s0 : Vec F S2048x2048 .bf16) (hd : BankRowsDone m c p s0) :
    ∀ (j : ℕ) (hj : j < t.val % 4) (r : Fin 512) (v : Fin 2048),
      s0 (ix2 ⟨512 * j + r.val, by have := r.isLt; have := Nat.mod_lt t.val (by decide : 4 > 0); omega⟩ v)
        = bankRows (iblk m c 0 (gchunk t j (Nat.le_of_lt hj))) (ix2 r v) := by
  intro j hj r v
  have hj' : j ≤ p.val % 4 := by omega
  have e : gchunk t j (Nat.le_of_lt hj) = gchunk p j hj' := by
    unfold gchunk; apply Fin.ext; show t.val - t.val % 4 + j = p.val - p.val % 4 + j; omega
  rw [e]
  exact hd j hj' r v

/-- At a first chunk there is no earlier chunk. -/
theorem bankRows_none (c : Dev nD) (t : Fin cfg0.N) (h0 : t.val % 4 = 0) (s0 : Vec F S2048x2048 .bf16) :
    ∀ (j : ℕ) (hj : j < t.val % 4) (r : Fin 512) (v : Fin 2048),
      s0 (ix2 ⟨512 * j + r.val, by have := r.isLt; have := Nat.mod_lt t.val (by decide : 4 > 0); omega⟩ v)
        = bankRows (iblk m c 0 (gchunk t j (Nat.le_of_lt hj))) (ix2 r v) := by
  intro j hj; omega

/-- With all four chunks in place the bank is `bankFull`. -/
theorem bankFull_of_done (c : Dev nD) (t : Fin cfg0.N) (h3 : t.val % 4 = 3) (s0 : Vec F S2048x2048 .bf16)
    (hd : BankRowsDone m c t s0) : s0 = bankFull m c t := by
  funext y
  have hy : (y 0).val < 2048 := (y 0).isLt
  have hj : (y 0).val / 512 ≤ t.val % 4 := by rw [h3]; omega
  have h := hd ((y 0).val / 512) hj ⟨(y 0).val % 512, Nat.mod_lt _ (by decide)⟩ (y 1)
  have ey : (ix2 ⟨512 * ((y 0).val / 512) + (y 0).val % 512, by omega⟩ (y 1) : S2048x2048.Idx) = y := by
    funext a
    match a with
    | ⟨0, _⟩ => exact Fin.ext (Nat.div_add_mod (y 0).val 512)
    | ⟨1, _⟩ => rfl
  rw [ey] at h
  rw [h]
  rfl

end Cert.KernelIdeal.Body

end
-- ==== Proof.KIOutBefore.lean ====
/-
  What the output's staging buffer holds when the body runs.

  The output block is never fetched, and it is written back exactly at the last chunk of each graph. At every
  other point the body leaves the output's buffer alone. So at any point the buffer holds what it held when its
  current run of untouched points began: nothing anyone named, at the first point and after each write-back alike.
  By induction on the point: the first point and a point after a write-back are fresh; any other point comes after
  a point that left the buffer as it found it, and that was fresh by induction.
-/
import proofs.«119515_g77850577207767_cont_9to1c4b_578_27_alg».proof.Proof.KIState

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

variable (m : (ℓ : Loc nD τ sig) → Buf (Elt F) ℓ)

/-- The output's staging buffer holds, at every point, whatever a buffer nothing has filled holds. -/
theorem before10 (c : Dev nD) (t : Fin cfg0.N) (d) : (dats m 0 c).before 10 t d = d := by
  obtain ⟨n, hn⟩ := t
  induction n with
  | zero => exact (dats m 0 c).before_out_reset 10 rfl ⟨0, hn⟩ (.inl rfl) d
  | succ n ih =>
    have hn' : n < cfg0.N := Nat.lt_of_succ_lt hn
    by_cases hfl : (cfg0.win 10).flush ⟨n, hn'⟩ = true
    · exact (dats m 0 c).before_out_reset 10 rfl ⟨n + 1, hn⟩ (.inr ⟨Nat.succ_ne_zero n, hfl⟩) d
    · rw [Bool.not_eq_true] at hfl
      have hidle : cfg0.idle 10 (cfg0.grid.coords ⟨n, hn'⟩) = true :=
        (outIdle_iff ⟨n, hn'⟩).mpr fun h3 => by
          have := (flush0_10 ⟨n, hn'⟩).mpr h3; rw [hfl] at this; exact Bool.false_ne_true this
      rw [(dats m 0 c).before_of_pos 10 ⟨n + 1, hn⟩ (Nat.succ_ne_zero n) ((cfg0.win 10).fetch_out rfl _) d]
      show (if (cfg0.win 10).flush ⟨n, hn'⟩ = true then d else (dats m 0 c).left 10 ⟨n, hn'⟩ d) = d
      rw [hfl, if_neg Bool.false_ne_true]
      unfold Dat.left
      rw [hidle]
      exact ih hn'

end Cert.KernelIdeal.Body

end
-- ==== Proof.KIFrame.lean ====
/-
  The body obligation at every grid point, the frame run and the frame.

  At a point the body is handed the region's invariant (the four scratch buffers at contents with the properties
  of `Good`), the ten input buffers at their blocks and the output buffer at anything. By the point's chunk it is in
  one of three cases, and that case's run applies. What the run leaves is read back through the stored pieces: the
  bank gains the chunk's rows; a first chunk leaves the input layer, its narrow copy and the restarted accumulator;
  a later chunk leaves the accumulator one product further; a last chunk leaves in the output buffer the two
  recurrent steps of the finished state, which is `outAt` because by then the bank holds all four chunks.
-/
import proofs.«119515_g77850577207767_cont_9to1c4b_578_27_alg».proof.Proof.KIStep
import proofs.«119515_g77850577207767_cont_9to1c4b_578_27_alg».proof.Proof.KIOutBefore

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open Cert.KernelIdeal.Enc

variable (m : (ℓ : Loc nD τ sig) → Buf (Elt F) ℓ) (ρ : Dev nD → PrngReg)

/-! ## The output block at a last chunk -/

/-- The last chunk's stored block, from the previous point's closed forms, is `outAt`. -/
theorem out_step (c : Dev nD) (t p : Fin cfg0.N) (hp : p.val + 1 = t.val) (h0 : ¬ t.val % 4 = 0) (h3 : t.val % 4 = 3)
    (s0 : Vec F S2048x2048 .bf16) (hb : BankRowsDone m c p s0) :
    finishBlock (layerAt m c p) (accumulate (iblk m c 0 t) (accAt m c p.val p.isLt) (colsAt (grid0.coords t) (narrowAt m c p)))
        (bankM.view.read (Elt F) (bankM.view.writes (Elt F) ((Memref.isWhole_whole cc0_scratch0).unread s0)
          [(⟨Rect.unit (s := S2048x2048) (k0_off1 (grid0.coords t)) S512x2048.size (k0_off1_inb (grid0.coords t)), bankRows (iblk m c 0 t)⟩ : View.Piece (Elt F) S2048x2048 .bf16)]))
        (iblk m c 4 t) (iblk m c 5 t) (iblk m c 6 t) (iblk m c 8 t) (iblk m c 7 t) (iblk m c 9 t)
      = outAt m c t := by
  unfold outAt
  rw [← bankFull_of_done m c t h3 _ (bankRows_step m c t s0 (bankRows_prev m c t p hp h0 s0 hb)),
    accAt_next m c t p hp h0, layerAt_next m c t p hp h0, narrowAt_next m c t p hp h0]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem out_live (t : Fin cfg0.N) (h3 : t.val % 4 = 3) : cfg0.idle 10 (grid0.coords t) = false :=
  Bool.eq_false_iff.mpr fun h => (outIdle_iff t).mp h h3

theorem out_noflush (t : Fin cfg0.N) (h3 : ¬ t.val % 4 = 3) : (cfg0.win 10).flush t = false :=
  Bool.eq_false_iff.mpr fun h => h3 ((flush0_10 t).mp h)

set_option maxHeartbeats 16000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10 m c t]
  rw [show (dats m 0 c).owesAt () t.succ = (dats m 0 c).owesAt () t.castSucc from rfl]
  rw [show (dats m 0 c).Φ t.succ = Inv m c (t.val + 1) t.isLt from rfl, Inv_castSucc]
  have hN : t.val < 16 := lt_of_lt_of_eq t.isLt N16
  rw [show (dats m 0 c).leavesExact 0 t = owns (c : Thread nD τ) (stg0 t) fullShare ((dats m 0 c).after 0 t) from by
    unfold Dat.leavesExact; rw [live0 t], after0]
  rw [show (dats m 0 c).leavesExact 1 t = owns (c : Thread nD τ) (stg1 t) fullShare ((dats m 0 c).after 1 t) from by
    unfold Dat.leavesExact; rw [live1 t], after1]
  rw [show (dats m 0 c).leavesExact 2 t = owns (c : Thread nD τ) (stg2 t) fullShare ((dats m 0 c).after 2 t) from by
    unfold Dat.leavesExact; rw [live2 t], after2]
  rw [show (dats m 0 c).leavesExact 3 t = owns (c : Thread nD τ) (stg3 t) fullShare ((dats m 0 c).after 3 t) from by
    unfold Dat.leavesExact; rw [live3 t], after3]
  rw [show (dats m 0 c).leavesExact 4 t = owns (c : Thread nD τ) (stg4 t) fullShare ((dats m 0 c).after 4 t) from by
    unfold Dat.leavesExact; rw [live4 t], after4]
  rw [show (dats m 0 c).leavesExact 5 t = owns (c : Thread nD τ) (stg5 t) fullShare ((dats m 0 c).after 5 t) from by
    unfold Dat.leavesExact; rw [live5 t], after5]
  rw [show (dats m 0 c).leavesExact 6 t = owns (c : Thread nD τ) (stg6 t) fullShare ((dats m 0 c).after 6 t) from by
    unfold Dat.leavesExact; rw [live6 t], after6]
  rw [show (dats m 0 c).leavesExact 7 t = owns (c : Thread nD τ) (stg7 t) fullShare ((dats m 0 c).after 7 t) from by
    unfold Dat.leavesExact; rw [live7 t], after7]
  rw [show (dats m 0 c).leavesExact 8 t = owns (c : Thread nD τ) (stg8 t) fullShare ((dats m 0 c).after 8 t) from by
    unfold Dat.leavesExact; rw [live8 t], after8]
  rw [show (dats m 0 c).leavesExact 9 t = owns (c : Thread nD τ) (stg9 t) fullShare ((dats m 0 c).after 9 t) from by
    unfold Dat.leavesExact; rw [live9 t], after9]
  unfold Inv
  by_cases h0 : t.val % 4 = 0
  · -- the first chunk of a graph
    have h1 : ¬ t.val % 4 = 3 := by omega
    rw [Dat.leavesExact_idle (dats m 0 c) 10 t ((outIdle_iff t).mpr h1) (out_noflush t h1)]
    simp only [before10 m c t]
    iintro ⟨⟨⟨%s0, %s1, %s2, %s3, %hg, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runFirst c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) bankM (Memref.isWhole_whole _) layerM (Memref.isWhole_whole _) narrowM (Memref.isWhole_whole _) accM (Memref.isWhole_whole _) ((isFirstChunk_iff t).mpr h0) (fun h => h1 ((isLastChunk_iff t).mp h)) (iblk m c 0 t) (iblk m c 1 t) (iblk m c 2 t) (iblk m c 3 t) (iblk m c 4 t) (iblk m c 5 t) (iblk m c 6 t) (iblk m c 7 t) (iblk m c 8 t) (iblk m c 9 t) s0 s1 s2 s3).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, H7, H8, H9, H10, HB, HL, ⟨%fN, HN⟩, ⟨%fA, HA⟩⟩
    isplitl [HB HL HN HA Hg]
    · isplitl [HB HL HN HA]
      · iexists _, (layerAt m c t), (narrowAt m c t), (accAt m c t.val t.isLt)
        isplitr
        swap
        · isplitl [HB]
          · unfold owns; iexists _; isplitr
            swap; · iexact HB
            ipureintro; rfl
          isplitl [HL]
          · unfold owns; iexists _; isplitr
            swap; · iexact HL
            ipureintro
            exact (first_layer _ _ _ _ _ _ _ _ _ _ _ _ _ _ _ _ _ _ _ _ _ _ _ _ _ _ _ _ _ _ _ _ _ _ _ _ _ _ _ _ _ _ _ _ _ _ _ _ _).trans (by unfold layerAt; rw [gstart_first t h0])
          isplitl [HN]
          · unfold owns; iexists _; isplitr
            swap; · iexact HN
            ipureintro
            exact (first_narrow _ _ _ _ _ _ _ _ _ _ _ _ _ _ _ _ _ _ _ _ _ _ _ _ _ _ _ _ _ _ _ _ _ _ _ _ _ _ _ _ _ _ _ _ _ _ _ _ _).trans (by unfold narrowAt; rw [gstart_first t h0])
          unfold owns; iexists _; isplitr
          swap; · iexact HA
          ipureintro
          exact (first_acc _ _ _ _ _ _ _ _ _ _ _ _ _ _ _ _ _ _ _ _ _ _ _ _ _ _ _ _ _ _ _ _ _ _ _ _ _ _ _ _ _ _ _ _ _ _ _ _ _).trans (by rw [accAt_first m c t h0]; unfold narrowAt; rw [gstart_first t h0])
        · ipureintro
          refine (Good_succ m c t.val t.isLt _ _ _ _).mpr ⟨?_, rfl, rfl, rfl⟩
          rw [first_bank]
          exact bankRows_step m c t s0 (bankRows_none m c t h0 s0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hz : t.val ≠ 0 := fun h => h0 (by rw [h])
    have hpl : t.val - 1 < cfg0.N := lt_of_le_of_lt (Nat.sub_le _ _) t.isLt
    have hp : (⟨t.val - 1, hpl⟩ : Fin cfg0.N).val + 1 = t.val := by show t.val - 1 + 1 = t.val; omega
    by_cases h1 : t.val % 4 = 3
    · -- the last chunk of a graph
      rw [show (dats m 0 c).leavesExact 10 t = owns (c : Thread nD τ) (stg10 t) fullShare ((dats m 0 c).after 10 t) from by
        unfold Dat.leavesExact; rw [out_live t h1], after10]
      iintro ⟨⟨⟨%s0, %s1, %s2, %s3, %hg, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      obtain ⟨hb, e1, e2, e3⟩ := Good_at m c t ⟨t.val - 1, hpl⟩ hp s0 s1 s2 s3 hg
      subst e1 e2 e3
      iapply ((runLast c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) bankM (Memref.isWhole_whole _) layerM (Memref.isWhole_whole _) narrowM (Memref.isWhole_whole _) accM (Memref.isWhole_whole _) (fun h => h0 ((isFirstChunk_iff t).mp h)) ((isLastChunk_iff t).mpr h1) (iblk m c 0 t) (iblk m c 1 t) (iblk m c 2 t) (iblk m c 3 t) (iblk m c 4 t) (iblk m c 5 t) (iblk m c 6 t) (iblk m c 7 t) (iblk m c 8 t) (iblk m c 9 t) s0 _ _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, H6, H7, H8, H9, ⟨%fO, H10⟩, HB, HL, HN, ⟨%fA, HA⟩⟩
      isplitl [HB HL HN HA Hg]
      · isplitl [HB HL HN HA]
        · iexists _, (layerAt m c ⟨t.val - 1, hpl⟩), (narrowAt m c ⟨t.val - 1, hpl⟩), (accAt m c t.val t.isLt)
          isplitr
          swap
          · isplitl [HB]
            · unfold owns; iexists _; isplitr
              swap; · iexact HB
              ipureintro; rfl
            isplitl [HL]; · iexact HL
            isplitl [HN]; · iexact HN
            unfold owns; iexists _; isplitr
            swap; · iexact HA
            ipureintro
            exact (last_acc _ _ _ _ _ _ _ _ _ _ _ _ _ _ _ _ _ _ _ _ _ _ _ _ _ _ _ _ _ _ _ _ _ _ _ _ _ _ _ _ _ _ _ _ _ _ _ _ _).trans (by rw [accAt_next m c t _ hp h0, narrowAt_next m c t _ hp h0])
          · ipureintro
            refine (Good_succ m c t.val t.isLt _ _ _ _).mpr ⟨?_, (layerAt_next m c t _ hp h0).symm, (narrowAt_next m c t _ hp h0).symm, rfl⟩
            rw [last_bank]
            exact bankRows_step m c t s0 (bankRows_prev m c t _ hp h0 s0 hb)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro
      exact (last_out _ _ _ _ _ _ _ _ _ _ _ _ _ _ _ _ _ _ _ _ _ _ _ _ _ _ _ _ _ _ _ _ _ _ _ _ _ _ _ _ _ _ _ _ _ _ _ _ _).trans (out_step m c t _ hp h0 h1 s0 hb)
    · -- a middle chunk
      rw [Dat.leavesExact_idle (dats m 0 c) 10 t ((outIdle_iff t).mpr h1) (out_noflush t h1)]
      simp only [before10 m c t]
      iintro ⟨⟨⟨%s0, %s1, %s2, %s3, %hg, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      obtain ⟨hb, e1, e2, e3⟩ := Good_at m c t ⟨t.val - 1, hpl⟩ hp s0 s1 s2 s3 hg
      subst e1 e2 e3
      iapply ((runMiddle c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) bankM (Memref.isWhole_whole _) layerM (Memref.isWhole_whole _) narrowM (Memref.isWhole_whole _) accM (Memref.isWhole_whole _) (fun h => h0 ((isFirstChunk_iff t).mp h)) (fun h => h1 ((isLastChunk_iff t).mp h)) (iblk m c 0 t) (iblk m c 1 t) (iblk m c 2 t) (iblk m c 3 t) (iblk m c 4 t) (iblk m c 5 t) (iblk m c 6 t) (iblk m c 7 t) (iblk m c 8 t) (iblk m c 9 t) s0 _ _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, H6, H7, H8, H9, H10, HB, HL, HN, HA⟩
      isplitl [HB HL HN HA Hg]
      · isplitl [HB HL HN HA]
        · iexists _, (layerAt m c ⟨t.val - 1, hpl⟩), (narrowAt m c ⟨t.val - 1, hpl⟩), (accAt m c t.val t.isLt)
          isplitr
          swap
          · isplitl [HB]
            · unfold owns; iexists _; isplitr
              swap; · iexact HB
              ipureintro; rfl
            isplitl [HL]; · iexact HL
            isplitl [HN]; · iexact HN
            unfold owns; iexists _; isplitr
            swap; · iexact HA
            ipureintro
            exact (mid_acc _ _ _ _ _ _ _ _ _ _ _ _ _ _ _ _ _ _ _ _ _ _ _ _ _ _ _ _ _ _ _ _ _ _ _ _ _ _ _ _ _ _ _ _ _ _ _ _ _).trans (by rw [accAt_next m c t _ hp h0, narrowAt_next m c t _ hp h0])
          · ipureintro
            refine (Good_succ m c t.val t.isLt _ _ _ _).mpr ⟨?_, (layerAt_next m c t _ hp h0).symm, (narrowAt_next m c t _ hp h0).symm, rfl⟩
            rw [mid_bank]
            exact bankRows_step m c t s0 (bankRows_prev m c t _ hp h0 s0 hb)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer at what the
    host lines after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Body

end
-- ==== Proof.KIOutArray.lean ====
/-
  The output array after the region.

  The output array has one block per graph: graph b's block is the whole [64, 2048] slab at index (b, 0, 0). It is
  written back exactly once, at the last chunk of the graph, point 4 b + 3, with what the body stored there. So
  after the sixteen points the array holds, at (b, h, v), the entry (0, h, v) of the block stored at point 4 b + 3:
  every index lies in exactly its graph's block, and that block is written with the array's own values there.
-/
import proofs.«119515_g77850577207767_cont_9to1c4b_578_27_alg».proof.Proof.KIState
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

variable (m : (ℓ : Loc nD τ sig) → Buf (Elt F) ℓ)

/-- The output array after the region: graph b's slab is the block stored at the graph's last chunk. -/
def outArr (c : Dev nD) : S4x64x2048.Idx → Elt F .f32 := fun i =>
  outAt m c ⟨4 * (i 0).val + 3, by have h : (i 0).val < 4 := (i 0).isLt; have h16 : cfg0.N = 16 := N16; omega⟩
    (ix3 (0 : Fin 1) (⟨(i 1).val, (i 1).isLt⟩ : Fin 64) (⟨(i 2).val, (i 2).isLt⟩ : Fin 2048))

/-- The array at an index whose coordinates are a point and a block coordinate. -/
theorem outArr_apply (c : Dev nD) (i : S4x64x2048.Idx) (t : Fin cfg0.N) (j : S1x64x2048.Idx)
    (h0 : 4 * (i 0).val + 3 = t.val) (h1 : (i 1).val = (j 1).val) (h2 : (i 2).val = (j 2).val) :
    outArr m c i = outAt m c t j := by
  unfold outArr
  have ht : (⟨4 * (i 0).val + 3, by have h : (i 0).val < 4 := (i 0).isLt; have h16 : cfg0.N = 16 := N16; omega⟩ : Fin cfg0.N) = t :=
    Fin.ext h0
  rw [ht]
  congr 1
  funext a
  apply Fin.ext
  match a with
  | ⟨0, _⟩ => show 0 = (j 0).val; have hj : (j 0).val < 1 := (j 0).isLt; omega
  | ⟨1, _⟩ => exact h1
  | ⟨2, _⟩ => exact h2

/-- The output's block index at point t, decided over the grid: (t / 4, 0, 0). -/
theorem outIndex : ∀ t : Fin cfg0.N, win0_10.index t (0 : Fin 3) = t.val / 4
    ∧ win0_10.index t (1 : Fin 3) = 0 ∧ win0_10.index t (2 : Fin 3) = 0 :=
  (by decide +kernel : ∀ t : Fin grid0.N, _)

/-- What a last chunk writes back is its block of the array. -/
theorem flushed10_eq (c : Dev nD) (t : Fin cfg0.N) (ht : t.val % 4 = 3) :
    (dats m 0 c).flushed 10 t = ((cfg0.win 10).blk t).view.read (Elt F) (outArr m c) := by
  show (cfg0.win 10).cut (grid0.coords t) ((dats m 0 c).after 10 t) = _
  rw [after10]
  obtain ⟨e0, e1, e2⟩ := outIndex t
  funext j
  show outAt m c t j = outArr m c (((cfg0.win 10).blk t).view.emb j)
  refine (outArr_apply m c _ t j ?_ ?_ ?_).symm
  · show 4 * (win0_10.index t (0 : Fin 3) * 1 + 1 * (j 0).val) + 3 = t.val
    have hj : (j 0).val < 1 := (j 0).isLt; omega
  · show win0_10.index t (1 : Fin 3) * 64 + 1 * (j 1).val = (j 1).val
    omega
  · show win0_10.index t (2 : Fin 3) * 2048 + 1 * (j 2).val = (j 2).val
    omega

/-- An index of the array is in point t's block iff each coordinate is in the block's range on its axis. -/
theorem mem_blk10 (t : Fin cfg0.N) (i : S4x64x2048.Idx) :
    i ∈ ((cfg0.win 10).blk t).view.set ↔ ∀ a : Fin 3, win0_10.index t a * S1x64x2048.size a ≤ (i a).val
      ∧ (i a).val < win0_10.index t a * S1x64x2048.size a + S1x64x2048.size a := by
  show i ∈ ((View.whole main_v4).slice (win0_10.rect t)).set ↔ _
  rw [View.set_slice_whole, Rect.mem_set_unit]
  exact Iff.rfl

/-- Every index lies in the block written back at its graph's last chunk. -/
theorem cover10 (i : S4x64x2048.Idx) :
    ∃ t : Fin cfg0.N, (cfg0.win 10).flush t = true ∧ i ∈ ((cfg0.win 10).blk t).view.set := by
  have hi0 : (i 0).val < 4 := (i 0).isLt
  have hi1 : (i 1).val < 64 := (i 1).isLt
  have hi2 : (i 2).val < 2048 := (i 2).isLt
  have h16 : cfg0.N = 16 := N16
  have hlt : 4 * (i 0).val + 3 < cfg0.N := by omega
  refine ⟨⟨4 * (i 0).val + 3, hlt⟩, (flush0_10 _).mpr (by show (4 * (i 0).val + 3) % 4 = 3; omega), ?_⟩
  obtain ⟨e0, e1, e2⟩ := outIndex ⟨4 * (i 0).val + 3, hlt⟩
  replace e0 : win0_10.index ⟨4 * (i 0).val + 3, hlt⟩ (0 : Fin 3) = (4 * (i 0).val + 3) / 4 := e0
  rw [mem_blk10]
  intro a
  match a with
  | ⟨0, _⟩ =>
    show win0_10.index ⟨4 * (i 0).val + 3, hlt⟩ (0 : Fin 3) * 1 ≤ (i 0).val ∧ (i 0).val < win0_10.index ⟨4 * (i 0).val + 3, hlt⟩ (0 : Fin 3) * 1 + 1
    omega
  | ⟨1, _⟩ =>
    show win0_10.index ⟨4 * (i 0).val + 3, hlt⟩ (1 : Fin 3) * 64 ≤ (i 1).val ∧ (i 1).val < win0_10.index ⟨4 * (i 0).val + 3, hlt⟩ (1 : Fin 3) * 64 + 64
    omega
  | ⟨2, _⟩ =>
    show win0_10.index ⟨4 * (i 0).val + 3, hlt⟩ (2 : Fin 3) * 2048 ≤ (i 2).val ∧ (i 2).val < win0_10.index ⟨4 * (i 0).val + 3, hlt⟩ (2 : Fin 3) * 2048 + 2048
    omega

/-- The output array after the sixteen points. -/
theorem final10 (c : Dev nD) : (dats m 0 c).arrAt 10 cfg0.N = outArr m c :=
  (dats m 0 c).arrAt_eq_of_cover 10 (outArr m c) (fun t hf => flushed10_eq m c t ((flush0_10 t).mp hf)) cover10

end Cert.KernelIdeal.Body

end
-- ==== Proof.KIOutTail.lean ====
/-
  The result array: the lines after the region, read at an index.

  After the region the output array [4, 64, 2048] is transposed to [4, 2048, 64] and flattened to [8192, 64].
  Row r of the result is node r % 2048 of graph r / 2048, so the result at (r, h) is the output array at
  (r / 2048, h, r % 2048): the flattening keeps the row-major position, (r / 2048) * 2048 + r % 2048 = r, and the
  transposition exchanges the last two coordinates. With the output array after the region this is the entry
  (0, h, r % 2048) of the block stored at the last chunk of graph r / 2048.
-/
import proofs.«119515_g77850577207767_cont_9to1c4b_578_27_alg».proof.Proof.KIOutArray

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

variable (m : (ℓ : Loc nD τ sig) → Buf (Elt F) ℓ)

/-- The result at row r, column h is the output array after the region at (r / 2048, h, r % 2048). -/
theorem tail_apply (c : Dev nD) (r : Fin 8192) (h : Fin 64) :
    Pipeline.afterTail₀ cfgs (dats m) 0 (V0 m) [hostOps1] c main_v6 (ix2 r h)
      = (dats m 0 c).arrAt 10 cfg0.N
          (ix3 (⟨r.val / 2048, by have := r.isLt; omega⟩ : Fin 4) h (⟨r.val % 2048, Nat.mod_lt _ (by norm_num)⟩ : Fin 2048)) := by
  unfold Pipeline.afterTail₀
  show StableHlo.after hostOps1 _ (Proc.devRef .tc main_v6) (ix2 r h) = _
  after_results
  show shapeCast S8192x64 (transpose S4x2048x64 [0, 2, 1]
      (Pipeline.withArrays spec0 c (V0 m c) (fun w => (dats m 0 c).arrAt w cfg0.N) (Proc.devRef .tc main_v4))
      transposes_S4x64x2048_S4x2048x64_0_2_1) shapeCasts_S4x2048x64_S8192x64 (ix2 r h) = _
  rw [shapeCast_apply _ shapeCasts_S4x2048x64_S8192x64 (ix2 r h)
      (ix3 (⟨r.val / 2048, by have := r.isLt; omega⟩ : Fin 4) (⟨r.val % 2048, Nat.mod_lt _ (by norm_num)⟩ : Fin 2048) h)
      (by
        rewrite [Shape.rowMajor_val_three, Shape.rowMajor_val_two]
        show (r.val / 2048 * 2048 + r.val % 2048) * 64 + h.val = r.val * 64 + h.val
        omega),
    transpose_apply [0, 2, 1] _ transposes_S4x64x2048_S4x2048x64_0_2_1
      (ix3 (⟨r.val / 2048, by have := r.isLt; omega⟩ : Fin 4) (⟨r.val % 2048, Nat.mod_lt _ (by norm_num)⟩ : Fin 2048) h)
      (ix3 (⟨r.val / 2048, by have := r.isLt; omega⟩ : Fin 4) h (⟨r.val % 2048, Nat.mod_lt _ (by norm_num)⟩ : Fin 2048))
      (fun b => match b with
        | ⟨0, _⟩ => rfl
        | ⟨1, _⟩ => rfl
        | ⟨2, _⟩ => rfl)]
  exact congrFun (Pipeline.withArrays_arr spec0 launch0.win.arr_inj c _ _ 10) _

/-- The result at row r, column h is the entry (0, h, r % 2048) of the block stored at the last chunk of graph r / 2048. -/
theorem tail_outAt (c : Dev nD) (r : Fin 8192) (h : Fin 64) :
    Pipeline.afterTail₀ cfgs (dats m) 0 (V0 m) [hostOps1] c main_v6 (ix2 r h)
      = outAt m c ⟨4 * (r.val / 2048) + 3, by have := r.isLt; have h16 : cfg0.N = 16 := N16; omega⟩
          (ix3 (0 : Fin 1) h (⟨r.val % 2048, Nat.mod_lt _ (by norm_num)⟩ : Fin 2048)) := by
  rw [tail_apply, final10]
  exact outArr_apply m c _ _ _ rfl rfl rfl

end Cert.KernelIdeal.Body

end
-- ==== Proof.KValBlocks.lean ====
/-
  Each window's block at a grid point, read at one entry of the argument arrays.

  The grid has 16 points; point t is graph t / 4, chunk t % 4. The adjacency window's block at t is rows
  512 (t % 4) … 512 (t % 4) + 511 of graph t / 4 of the adjacency array; the feature window's block is graph t / 4
  of the feature array; the four weight windows' blocks are the whole weight arrays at every point. The four bias
  windows read arrays the program writes before the region, each a bias vector recast as one column, so their blocks'
  entry (h, 0) is entry h of the bias vector. A block's coordinate on an axis is always the block index times the block's
  size plus the coordinate inside the block; the block indices are decided once over the 16 points.
-/
import proofs.«119515_g77850577207767_cont_9to1c4b_578_27_alg».proof.Proof.Gen.KernelIdeal.Frame
import Idealize.ShloMosaic.Lib.Pipeline.Value
import Idealize.ShloMosaic.Lib.ValueLayout
import Idealize.ShloMosaic.Lib.Tactic

noncomputable section

namespace Cert.KernelIdeal.EncMath

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The graph of a grid point. -/
def pointGraph (t : Fin cfg0.N) : Fin 4 := ⟨t.val / 4, by have := t.isLt; have : cfg0.N = 16 := N_0; omega⟩
/-- The chunk of a grid point. -/
def pointChunk (t : Fin cfg0.N) : Fin 4 := ⟨t.val % 4, Nat.mod_lt _ (by decide)⟩

/-! ## The block indices, over the grid -/

theorem index_facts0 : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)
theorem index_facts1 : ∀ t : Fin cfg0.N, win0_1.index t (0 : Fin 3) = t.val / 4 ∧ win0_1.index t (1 : Fin 3) = 0
    ∧ win0_1.index t (2 : Fin 3) = 0 :=
  (by decide +kernel : ∀ t : Fin grid0.N, _)
theorem index_facts2 : ∀ t : Fin cfg0.N, win0_2.index t (0 : Fin 2) = 0 ∧ win0_2.index t (1 : Fin 2) = 0 :=
  (by decide +kernel : ∀ t : Fin grid0.N, _)
theorem index_facts3 : ∀ t : Fin cfg0.N, win0_3.index t (0 : Fin 2) = 0 ∧ win0_3.index t (1 : Fin 2) = 0 :=
  (by decide +kernel : ∀ t : Fin grid0.N, _)
theorem index_facts4 : ∀ t : Fin cfg0.N, win0_4.index t (0 : Fin 2) = 0 ∧ win0_4.index t (1 : Fin 2) = 0 :=
  (by decide +kernel : ∀ t : Fin grid0.N, _)
theorem index_facts5 : ∀ t : Fin cfg0.N, win0_5.index t (0 : Fin 2) = 0 ∧ win0_5.index t (1 : Fin 2) = 0 :=
  (by decide +kernel : ∀ t : Fin grid0.N, _)
theorem index_facts6 : ∀ t : Fin cfg0.N, win0_6.index t (0 : Fin 2) = 0 ∧ win0_6.index t (1 : Fin 2) = 0 :=
  (by decide +kernel : ∀ t : Fin grid0.N, _)
theorem index_facts7 : ∀ t : Fin cfg0.N, win0_7.index t (0 : Fin 2) = 0 ∧ win0_7.index t (1 : Fin 2) = 0 :=
  (by decide +kernel : ∀ t : Fin grid0.N, _)
theorem index_facts8 : ∀ t : Fin cfg0.N, win0_8.index t (0 : Fin 2) = 0 ∧ win0_8.index t (1 : Fin 2) = 0 :=
  (by decide +kernel : ∀ t : Fin grid0.N, _)
theorem index_facts9 : ∀ t : Fin cfg0.N, win0_9.index t (0 : Fin 2) = 0 ∧ win0_9.index t (1 : Fin 2) = 0 :=
  (by decide +kernel : ∀ t : Fin grid0.N, _)

/-! ## The adjacency and feature blocks -/

/-- The adjacency block at point `t`: rows `512 (t % 4) + j` of graph `t / 4`. -/
theorem iblk0_apply (c : Dev nD) (t : Fin cfg0.N) (j : Fin 512) (v : Fin 2048) :
    (iblk m c 0 t : Vec F S1x512x2048 .f32) (ix3 (0 : Fin 1) j v)
      = (m ((c.tc : Thread nD τ).loc main_arg0) : S4x2048x2048.Idx → Elt F .f32)
          (ix3 (pointGraph t) (⟨512 * (t.val % 4) + j.val, by have := j.isLt; omega⟩ : Fin 2048) v) := by
  obtain ⟨e0, e1, e2⟩ := index_facts0 t
  unfold iblk
  rw [View.read_apply]
  show V m c main_arg0 _ = m (c.tc.loc main_arg0) _
  rw [V_main_arg0]
  congr 1
  funext a
  apply Fin.ext
  match a with
  | ⟨0, _⟩ => show win0_0.index t (0 : Fin 3) * 1 + 1 * 0 = t.val / 4; omega
  | ⟨1, _⟩ => show win0_0.index t (1 : Fin 3) * 512 + 1 * j.val = 512 * (t.val % 4) + j.val; omega
  | ⟨2, _⟩ => show win0_0.index t (2 : Fin 3) * 2048 + 1 * v.val = v.val; omega

/-- The feature block at point `t`: graph `t / 4`. -/
theorem iblk1_apply (c : Dev nD) (t : Fin cfg0.N) (v : Fin 2048) (f : Fin 128) :
    (iblk m c 1 t : Vec F S1x2048x128 .f32) (ix3 (0 : Fin 1) v f)
      = (m ((c.tc : Thread nD τ).loc main_arg1) : S4x2048x128.Idx → Elt F .f32) (ix3 (pointGraph t) v f) := by
  obtain ⟨e0, e1, e2⟩ := index_facts1 t
  unfold iblk
  rw [View.read_apply]
  show V m c main_arg1 _ = m (c.tc.loc main_arg1) _
  rw [V_main_arg1]
  congr 1
  funext a
  apply Fin.ext
  match a with
  | ⟨0, _⟩ => show win0_1.index t (0 : Fin 3) * 1 + 1 * 0 = t.val / 4; omega
  | ⟨1, _⟩ => show win0_1.index t (1 : Fin 3) * 2048 + 1 * v.val = v.val; omega
  | ⟨2, _⟩ => show win0_1.index t (2 : Fin 3) * 128 + 1 * f.val = f.val; omega

/-! ## The weight blocks: the whole arrays -/

/-- Window 2's block is the input layer's weight, whole. -/
theorem iblk2_apply (c : Dev nD) (t : Fin cfg0.N) (p : Fin 64) (q : Fin 128) :
    (iblk m c 2 t : Vec F S64x128 .f32) (ix2 p q)
      = (m ((c.tc : Thread nD τ).loc main_arg2) : S64x128.Idx → Elt F .f32) (ix2 p q) := by
  obtain ⟨e0, e1⟩ := index_facts2 t
  unfold iblk
  rw [View.read_apply]
  show V m c main_arg2 _ = m (c.tc.loc main_arg2) _
  rw [V_main_arg2]
  congr 1
  funext a
  apply Fin.ext
  match a with
  | ⟨0, _⟩ => show win0_2.index t (0 : Fin 2) * 64 + 1 * p.val = p.val; omega
  | ⟨1, _⟩ => show win0_2.index t (1 : Fin 2) * 128 + 1 * q.val = q.val; omega

/-- The same as functions. -/
theorem iblk2_eq (c : Dev nD) (t : Fin cfg0.N) :
    (iblk m c 2 t : Vec F S64x128 .f32) = (m ((c.tc : Thread nD τ).loc main_arg2) : S64x128.Idx → Elt F .f32) :=
  funext fun y => by rw [eq_ix2 y]; exact iblk2_apply m c t (y 0) (y 1)

/-- Window 4's block is the aggregation layer's weight, whole. -/
theorem iblk4_apply (c : Dev nD) (t : Fin cfg0.N) (p : Fin 64) (q : Fin 64) :
    (iblk m c 4 t : Vec F S64x64 .f32) (ix2 p q)
      = (m ((c.tc : Thread nD τ).loc main_arg4) : S64x64.Idx → Elt F .f32) (ix2 p q) := by
  obtain ⟨e0, e1⟩ := index_facts4 t
  unfold iblk
  rw [View.read_apply]
  show V m c main_arg4 _ = m (c.tc.loc main_arg4) _
  rw [V_main_arg4]
  congr 1
  funext a
  apply Fin.ext
  match a with
  | ⟨0, _⟩ => show win0_4.index t (0 : Fin 2) * 64 + 1 * p.val = p.val; omega
  | ⟨1, _⟩ => show win0_4.index t (1 : Fin 2) * 64 + 1 * q.val = q.val; omega

/-- The same as functions. -/
theorem iblk4_eq (c : Dev nD) (t : Fin cfg0.N) :
    (iblk m c 4 t : Vec F S64x64 .f32) = (m ((c.tc : Thread nD τ).loc main_arg4) : S64x64.Idx → Elt F .f32) :=
  funext fun y => by rw [eq_ix2 y]; exact iblk4_apply m c t (y 0) (y 1)

/-- Window 6's block is the cell's input-projection weight, whole. -/
theorem iblk6_apply (c : Dev nD) (t : Fin cfg0.N) (p : Fin 192) (q : Fin 64) :
    (iblk m c 6 t : Vec F S192x64 .f32) (ix2 p q)
      = (m ((c.tc : Thread nD τ).loc main_arg6) : S192x64.Idx → Elt F .f32) (ix2 p q) := by
  obtain ⟨e0, e1⟩ := index_facts6 t
  unfold iblk
  rw [View.read_apply]
  show V m c main_arg6 _ = m (c.tc.loc main_arg6) _
  rw [V_main_arg6]
  congr 1
  funext a
  apply Fin.ext
  match a with
  | ⟨0, _⟩ => show win0_6.index t (0 : Fin 2) * 192 + 1 * p.val = p.val; omega
  | ⟨1, _⟩ => show win0_6.index t (1 : Fin 2) * 64 + 1 * q.val = q.val; omega

/-- The same as functions. -/
theorem iblk6_eq (c : Dev nD) (t : Fin cfg0.N) :
    (iblk m c 6 t : Vec F S192x64 .f32) = (m ((c.tc : Thread nD τ).loc main_arg6) : S192x64.Idx → Elt F .f32) :=
  funext fun y => by rw [eq_ix2 y]; exact iblk6_apply m c t (y 0) (y 1)

/-- Window 7's block is the cell's state-projection weight, whole. -/
theorem iblk7_apply (c : Dev nD) (t : Fin cfg0.N) (p : Fin 192) (q : Fin 64) :
    (iblk m c 7 t : Vec F S192x64 .f32) (ix2 p q)
      = (m ((c.tc : Thread nD τ).loc main_arg7) : S192x64.Idx → Elt F .f32) (ix2 p q) := by
  obtain ⟨e0, e1⟩ := index_facts7 t
  unfold iblk
  rw [View.read_apply]
  show V m c main_arg7 _ = m (c.tc.loc main_arg7) _
  rw [V_main_arg7]
  congr 1
  funext a
  apply Fin.ext
  match a with
  | ⟨0, _⟩ => show win0_7.index t (0 : Fin 2) * 192 + 1 * p.val = p.val; omega
  | ⟨1, _⟩ => show win0_7.index t (1 : Fin 2) * 64 + 1 * q.val = q.val; omega

/-- The same as functions. -/
theorem iblk7_eq (c : Dev nD) (t : Fin cfg0.N) :
    (iblk m c 7 t : Vec F S192x64 .f32) = (m ((c.tc : Thread nD τ).loc main_arg7) : S192x64.Idx → Elt F .f32) :=
  funext fun y => by rw [eq_ix2 y]; exact iblk7_apply m c t (y 0) (y 1)

/-! ## The bias blocks: a bias vector recast as one column before the region -/

/-- The array window 3 reads is the input layer's bias recast as a column. -/
theorem V_main_v0 (c : Dev nD) :
    (V m c main_v0 : S64x1.Idx → Elt F .f32)
      = shapeCast S64x1 (m ((c.tc : Thread nD τ).loc main_arg3) : S64.Idx → Elt F .f32) shapeCasts_S64_S64x1 := by
  show StableHlo.after hostOps0 (fun b => m (c, b)) (Proc.devRef .tc main_v0) = _
  after_results
  rfl

/-- Window 3's block at `(h, 0)` is entry `h` of the input layer's bias. -/
theorem iblk3_apply (c : Dev nD) (t : Fin cfg0.N) (h : Fin 64) :
    (iblk m c 3 t : Vec F S64x1 .f32) (ix2 h (0 : Fin 1))
      = (m ((c.tc : Thread nD τ).loc main_arg3) : S64.Idx → Elt F .f32) (ix1 h) := by
  obtain ⟨e0, e1⟩ := index_facts3 t
  unfold iblk
  rw [View.read_apply]
  show V m c main_v0 _ = _
  rw [V_main_v0]
  refine shapeCast_apply _ _ _ (ix1 h) ?_
  rw [Shape.rowMajor_val_one, Shape.rowMajor_val_two]
  show h.val = (win0_3.index t (0 : Fin 2) * 64 + 1 * h.val) * 1 + (win0_3.index t (1 : Fin 2) * 1 + 1 * 0)
  omega

/-- The array window 5 reads is the aggregation layer's bias recast as a column. -/
theorem V_main_v1 (c : Dev nD) :
    (V m c main_v1 : S64x1.Idx → Elt F .f32)
      = shapeCast S64x1 (m ((c.tc : Thread nD τ).loc main_arg5) : S64.Idx → Elt F .f32) shapeCasts_S64_S64x1 := by
  show StableHlo.after hostOps0 (fun b => m (c, b)) (Proc.devRef .tc main_v1) = _
  after_results
  rfl

/-- Window 5's block at `(h, 0)` is entry `h` of the aggregation layer's bias. -/
theorem iblk5_apply (c : Dev nD) (t : Fin cfg0.N) (h : Fin 64) :
    (iblk m c 5 t : Vec F S64x1 .f32) (ix2 h (0 : Fin 1))
      = (m ((c.tc : Thread nD τ).loc main_arg5) : S64.Idx → Elt F .f32) (ix1 h) := by
  obtain ⟨e0, e1⟩ := index_facts5 t
  unfold iblk
  rw [View.read_apply]
  show V m c main_v1 _ = _
  rw [V_main_v1]
  refine shapeCast_apply _ _ _ (ix1 h) ?_
  rw [Shape.rowMajor_val_one, Shape.rowMajor_val_two]
  show h.val = (win0_5.index t (0 : Fin 2) * 64 + 1 * h.val) * 1 + (win0_5.index t (1 : Fin 2) * 1 + 1 * 0)
  omega

/-- The array window 8 reads is the cell's input-projection bias recast as a column. -/
theorem V_main_v2 (c : Dev nD) :
    (V m c main_v2 : S192x1.Idx → Elt F .f32)
      = shapeCast S192x1 (m ((c.tc : Thread nD τ).loc main_arg8) : S192.Idx → Elt F .f32) shapeCasts_S192_S192x1 := by
  show StableHlo.after hostOps0 (fun b => m (c, b)) (Proc.devRef .tc main_v2) = _
  after_results
  rfl

/-- Window 8's block at `(h, 0)` is entry `h` of the cell's input-projection bias. -/
theorem iblk8_apply (c : Dev nD) (t : Fin cfg0.N) (h : Fin 192) :
    (iblk m c 8 t : Vec F S192x1 .f32) (ix2 h (0 : Fin 1))
      = (m ((c.tc : Thread nD τ).loc main_arg8) : S192.Idx → Elt F .f32) (ix1 h) := by
  obtain ⟨e0, e1⟩ := index_facts8 t
  unfold iblk
  rw [View.read_apply]
  show V m c main_v2 _ = _
  rw [V_main_v2]
  refine shapeCast_apply _ _ _ (ix1 h) ?_
  rw [Shape.rowMajor_val_one, Shape.rowMajor_val_two]
  show h.val = (win0_8.index t (0 : Fin 2) * 192 + 1 * h.val) * 1 + (win0_8.index t (1 : Fin 2) * 1 + 1 * 0)
  omega

/-- The array window 9 reads is the cell's state-projection bias recast as a column. -/
theorem V_main_v3 (c : Dev nD) :
    (V m c main_v3 : S192x1.Idx → Elt F .f32)
      = shapeCast S192x1 (m ((c.tc : Thread nD τ).loc main_arg9) : S192.Idx → Elt F .f32) shapeCasts_S192_S192x1 := by
  show StableHlo.after hostOps0 (fun b => m (c, b)) (Proc.devRef .tc main_v3) = _
  after_results
  rfl

/-- Window 9's block at `(h, 0)` is entry `h` of the cell's state-projection bias. -/
theorem iblk9_apply (c : Dev nD) (t : Fin cfg0.N) (h : Fin 192) :
    (iblk m c 9 t : Vec F S192x1 .f32) (ix2 h (0 : Fin 1))
      = (m ((c.tc : Thread nD τ).loc main_arg9) : S192.Idx → Elt F .f32) (ix1 h) := by
  obtain ⟨e0, e1⟩ := index_facts9 t
  unfold iblk
  rw [View.read_apply]
  show V m c main_v3 _ = _
  rw [V_main_v3]
  refine shapeCast_apply _ _ _ (ix1 h) ?_
  rw [Shape.rowMajor_val_one, Shape.rowMajor_val_two]
  show h.val = (win0_9.index t (0 : Fin 2) * 192 + 1 * h.val) * 1 + (win0_9.index t (1 : Fin 2) * 1 + 1 * 0)
  omega

end Cert.KernelIdeal.EncMath

end
-- ==== Proof.EncoderSpec.lean ====
/-
  The graph encoder as ONE function of its argument arrays, index by index over the extended reals.

  For each graph `b` (of 4), node `v` (of 2048) and feature `h` (of 64):
    * `lin0`   : the input layer, `max (∑ f, x b v f * lin0_w h f + lin0_b h) 0`;
    * `agg o`  : the sum over in-neighbours, `∑ u, adj b u v * o b u h`;
    * `gin o`  : `max (∑ e, (o b v e + agg o b v e) * gin_w d e + gin_b d) 0`;
    * `gru m s`: the gated recurrent cell with input `m` and state `s`: with `gi = m · w_ihᵀ + b_ih` and
                 `gh = s · w_hhᵀ + b_hh` (192 = 3 · 64 columns each, the gates `r`, `z`, `n` in that order),
                 `r = σ (gi_r + gh_r)`, `z = σ (gi_z + gh_z)`, `n = tanh (gi_n + r * gh_n)`, and the new state
                 `(1 - z) * n + z * s`;
    * `step o = gru (gin o) o`, and the encoder is two steps from `lin0`.
  The result array has one row per (graph, node), row `b * 2048 + v`, and one column per feature.
  Products are written left operand first as the matrix products of the plain formulation have them
  (`x * w`, `adj * o`); sums range over `Fin` of the literal extents. The two float words that occur
  (zero in the rectifier, one in `1 - z`) are kept as words.
-/
import Idealize.ShloMosaic.PureOps.Ideal
import Idealize.ShloMosaic.Lib.ValueIdx

noncomputable section

open scoped BigOperators

namespace Cert.GraphEncoder

open Idealize.ShloMosaic Idealize.ShloMosaic.ValueIdx

/-- The adjacency arrays, `[4, 2048, 2048]`: graph, source node, target node. -/
abbrev Adj : Type := (⟨3, ![4, 2048, 2048]⟩ : Shape).Idx → EReal
/-- The node features, `[4, 2048, 128]`. -/
abbrev Feat : Type := (⟨3, ![4, 2048, 128]⟩ : Shape).Idx → EReal
/-- A hidden state: graph, node, feature. -/
abbrev Hid : Type := Fin 4 → Fin 2048 → Fin 64 → EReal

/-- The weights. -/
structure Params where
  lin0_w : (⟨2, ![64, 128]⟩ : Shape).Idx → EReal
  lin0_b : (⟨1, ![64]⟩ : Shape).Idx → EReal
  gin_w : (⟨2, ![64, 64]⟩ : Shape).Idx → EReal
  gin_b : (⟨1, ![64]⟩ : Shape).Idx → EReal
  w_ih : (⟨2, ![192, 64]⟩ : Shape).Idx → EReal
  w_hh : (⟨2, ![192, 64]⟩ : Shape).Idx → EReal
  b_ih : (⟨1, ![192]⟩ : Shape).Idx → EReal
  b_hh : (⟨1, ![192]⟩ : Shape).Idx → EReal

/-- The float word of zero and of one, as the programs spell them. -/
def zeroW : EReal := Ideal.ofBits .f32 0x00000000#32
def oneW : EReal := Ideal.ofBits .f32 0x3F800000#32

/-- The rectifier: the larger of `x` and zero. -/
def relu (x : EReal) : EReal := max x zeroW

/-- The three gates' columns among the 192. -/
def colR (h : Fin 64) : Fin 192 := ⟨h.val, by have := h.isLt; omega⟩
def colZ (h : Fin 64) : Fin 192 := ⟨64 + h.val, by have := h.isLt; omega⟩
def colN (h : Fin 64) : Fin 192 := ⟨128 + h.val, by have := h.isLt; omega⟩

variable (P : Params) (adj : Adj)

/-- The input layer. -/
def lin0 (x : Feat) : Hid := fun b v h =>
  relu (∑ f : Fin 128, x (ix3 b v f) * P.lin0_w (ix2 h f) + P.lin0_b (ix1 h))

/-- The sum over in-neighbours of a state. -/
def agg (o : Hid) : Hid := fun b v h => ∑ u : Fin 2048, adj (ix3 b u v) * o b u h

/-- The aggregation layer. -/
def gin (o : Hid) : Hid := fun b v d =>
  relu (∑ e : Fin 64, (o b v e + agg adj o b v e) * P.gin_w (ix2 d e) + P.gin_b (ix1 d))

/-- The cell's input projection, column `j` of 192. -/
def gi (mm : Hid) (b : Fin 4) (v : Fin 2048) (j : Fin 192) : EReal :=
  ∑ e : Fin 64, mm b v e * P.w_ih (ix2 j e) + P.b_ih (ix1 j)
/-- The cell's state projection, column `j` of 192. -/
def gh (s : Hid) (b : Fin 4) (v : Fin 2048) (j : Fin 192) : EReal :=
  ∑ e : Fin 64, s b v e * P.w_hh (ix2 j e) + P.b_hh (ix1 j)

/-- The gated recurrent cell. -/
def gru (mm s : Hid) : Hid := fun b v h =>
  let r := Ideal.logistic (gi P mm b v (colR h) + gh P s b v (colR h))
  let z := Ideal.logistic (gi P mm b v (colZ h) + gh P s b v (colZ h))
  let n := Ideal.tanh (gi P mm b v (colN h) + r * gh P s b v (colN h))
  (oneW - z) * n + z * s b v h

/-- One step: aggregate, then the cell with the old state. -/
def step (o : Hid) : Hid := gru P (gin P adj o) o

/-- The encoder: two steps from the input layer. -/
def encode (x : Feat) : Hid := step P adj (step P adj (lin0 P x))

/-- The graph of a result row. -/
def rowGraph (i : Fin 8192) : Fin 4 := ⟨i.val / 2048, by have := i.isLt; omega⟩
/-- The node of a result row. -/
def rowNode (i : Fin 8192) : Fin 2048 := ⟨i.val % 2048, Nat.mod_lt _ (by norm_num)⟩

/-- The result array `[8192, 64]`: row `b * 2048 + v` is node `v` of graph `b`. -/
def result (x : Feat) : (⟨2, ![8192, 64]⟩ : Shape).Idx → EReal := fun i =>
  encode P adj x (rowGraph (i 0)) (rowNode (i 0)) (i 1)

end Cert.GraphEncoder

end
-- ==== Proof.KMathOps.lean ====
/-
  Reading the encoder kernel's operations at one entry, over the extended reals.

  The kernel keeps every matrix transposed, [feature, node]. Its five matrix products all go into a zero accumulator,
  so at an entry each is the plain sum over the one contracted coordinate of the products of the two operands' entries:
  four contract the left operand's columns with the right operand's rows ([a, k] times [k, b]), and the input layer
  contracts columns with columns ([a, k] times [b, k]). A bias is a one-column block repeated across all columns, so at
  (p, c) it reads the block's row p. The three gates are row blocks of a [192, 2048] value starting at rows 0, 64, 128.
-/
import proofs.«119515_g77850577207767_cont_9to1c4b_578_27_alg».proof.Proof.Gen.KernelIdeal.Skeleton
import proofs.«119515_g77850577207767_cont_9to1c4b_578_27_alg».proof.Proof.EncoderSpec
import Idealize.ShloMosaic.Lib.ValueLayout
import Idealize.ShloMosaic.PureOps.Ideal.Laws

noncomputable section

open scoped BigOperators

namespace Cert.KernelIdeal.EncMath

open Idealize.ShloMosaic Idealize.ShloMosaic.ValueIdx Cert.KernelIdeal Cert.KernelIdeal.Gen Cert.GraphEncoder

/-! ## A one-column block repeated across the columns -/

/-- An `[a, 1]` block broadcast to `[a, b]` reads, at `(p, c)`, the block's row `p`. -/
theorem broadcastTo_a1_ab_apply {α : Type} {a b : ℕ} (x : (⟨2, ![a, 1]⟩ : Shape).Idx → α)
    (h : (⟨2, ![a, 1]⟩ : Shape).Broadcasts ⟨2, ![a, b]⟩) (p : Fin a) (c : Fin b) :
    broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ => rfl

/-- The bias column of the kernel: the block, cast to its own shape and repeated across the columns. -/
theorem biasColumn_apply {a b : ℕ} (x : FVec Ideal ⟨2, ![a, 1]⟩ .f32) (hc : (⟨2, ![a, 1]⟩ : Shape).ShapeCasts ⟨2, ![a, 1]⟩)
    (h : (⟨2, ![a, 1]⟩ : Shape).Broadcasts ⟨2, ![a, b]⟩) (p : Fin a) (c : Fin b) :
    broadcastTo ⟨2, ![a, b]⟩ (shapeCast ⟨2, ![a, 1]⟩ x hc) h (ix2 p c) = x (ix2 p (0 : Fin 1)) := by
  rw [shapeCast_self]
  exact broadcastTo_a1_ab_apply x h p c

/-! ## The three gate blocks of a [192, 2048] value -/

theorem gateBlockR_apply (X : FVec Ideal S192x2048 .f32) (hs : S192x2048.Slices ![0, 0] S64x2048) (h : Fin 64) (v : Fin 2048) :
    extractStridedSlice S64x2048 ![0, 0] X hs (ix2 h v) = X (ix2 (colR h) v) :=
  slice2_axis0_apply 0 X hs h v (colR h) (Nat.zero_add _).symm

theorem gateBlockZ_apply (X : FVec Ideal S192x2048 .f32) (hs : S192x2048.Slices ![64, 0] S64x2048) (h : Fin 64) (v : Fin 2048) :
    extractStridedSlice S64x2048 ![64, 0] X hs (ix2 h v) = X (ix2 (colZ h) v) :=
  slice2_axis0_apply 64 X hs h v (colZ h) rfl

theorem gateBlockN_apply (X : FVec Ideal S192x2048 .f32) (hs : S192x2048.Slices ![128, 0] S64x2048) (h : Fin 64) (v : Fin 2048) :
    extractStridedSlice S64x2048 ![128, 0] X hs (ix2 h v) = X (ix2 (colN h) v) :=
  slice2_axis0_apply 128 X hs h v (colN h) rfl

end Cert.KernelIdeal.EncMath

end
-- ==== Proof.KMathMatmul.lean ====
/-
  The kernel's five matrix products read at one entry, over the extended reals.

  Each goes into a zero accumulator and contracts one axis, so at an entry it is the sum over the contracted coordinate of
  the products of the operands' entries, left operand first. Four are of the form [a, k] times [k, b], read at (p, c) as
  the sum over e of l (p, e) * r (e, c); the input layer's is [a, k] times [b, k], read as the sum over e of
  l (p, e) * r (c, e). The general statements take the dimension record with the facts that identify which coordinate of
  each operand index is the output's and which the contraction's; at each of the kernel's literal records those facts hold
  by computation.
-/
import proofs.«119515_g77850577207767_cont_9to1c4b_578_27_alg».proof.Proof.Gen.KernelIdeal.Skeleton
import Idealize.ShloMosaic.Lib.ValueLayout
import Idealize.ShloMosaic.PureOps.Ideal.Laws

noncomputable section

open scoped BigOperators

namespace Cert.KernelIdeal.EncMath

open Idealize.ShloMosaic Idealize.ShloMosaic.ValueIdx Cert.KernelIdeal Cert.KernelIdeal.Gen

/-- A product [a, k] times [k, b] into the zero accumulator, at (p, c): the sum over e of l (p, e) * r (e, c). -/
theorem matmul_cols_rows_apply {a k b : ℕ} {φ₁ φ₂ : FTy}
    (d : DotDims ⟨2, ![a, k]⟩ ⟨2, ![k, b]⟩ ⟨2, ![a, b]⟩)
    (hr : d.contr.rank = 1) (hs : d.contr.size ⟨0, by omega⟩ = k)
    (hlc : d.lhsContracting = [1]) (hrc : d.rhsContracting = [0])
    (hl0 : ∀ j q, (d.lhsIdx j q 0).val = (j 0).val) (hr1 : ∀ j q, (d.rhsIdx j q 1).val = (j 1).val)
    (l : FVec Ideal ⟨2, ![a, k]⟩ φ₁) (r : FVec Ideal ⟨2, ![k, b]⟩ φ₂) (p : Fin a) (c : Fin b) :
    matmul d none l r (constant (F := Ideal) ⟨2, ![a, b]⟩ .f32 0x00000000#32) (ix2 p c)
      = ∑ e : Fin k, l (ix2 p e) * r (ix2 e c) := by
  simp only [matmul]
  rw [Ideal.matmul_constant_zero_apply, ← Equiv.sum_comp (contrEquiv1 d k hr hs).symm]
  refine Finset.sum_congr rfl fun e _ => ?_
  have hk := contrEquiv1_symm_val d k hr hs e
  have el : d.lhsIdx (ix2 p c) ((contrEquiv1 d k hr hs).symm e) = ix2 p e := funext fun ax => Fin.ext (by
    match ax with
    | ⟨0, _⟩ => exact hl0 _ _
    | ⟨1, _⟩ => exact (d.lhsIdx_val_of_single hlc _ _).trans hk)
  have er : d.rhsIdx (ix2 p c) ((contrEquiv1 d k hr hs).symm e) = ix2 e c := funext fun ax => Fin.ext (by
    match ax with
    | ⟨0, _⟩ => exact (d.rhsIdx_val_of_single hrc _ _).trans hk
    | ⟨1, _⟩ => exact hr1 _ _)
  rw [el, er]

/-- A product [a, k] times [b, k] into the zero accumulator, at (p, c): the sum over e of l (p, e) * r (c, e). -/
theorem matmul_cols_cols_apply {a k b : ℕ} {φ₁ φ₂ : FTy}
    (d : DotDims ⟨2, ![a, k]⟩ ⟨2, ![b, k]⟩ ⟨2, ![a, b]⟩)
    (hr : d.contr.rank = 1) (hs : d.contr.size ⟨0, by omega⟩ = k)
    (hlc : d.lhsContracting = [1]) (hrc : d.rhsContracting = [1])
    (hl0 : ∀ j q, (d.lhsIdx j q 0).val = (j 0).val) (hr0 : ∀ j q, (d.rhsIdx j q 0).val = (j 1).val)
    (l : FVec Ideal ⟨2, ![a, k]⟩ φ₁) (r : FVec Ideal ⟨2, ![b, k]⟩ φ₂) (p : Fin a) (c : Fin b) :
    matmul d none l r (constant (F := Ideal) ⟨2, ![a, b]⟩ .f32 0x00000000#32) (ix2 p c)
      = ∑ e : Fin k, l (ix2 p e) * r (ix2 c e) := by
  simp only [matmul]
  rw [Ideal.matmul_constant_zero_apply, ← Equiv.sum_comp (contrEquiv1 d k hr hs).symm]
  refine Finset.sum_congr rfl fun e _ => ?_
  have hk := contrEquiv1_symm_val d k hr hs e
  have el : d.lhsIdx (ix2 p c) ((contrEquiv1 d k hr hs).symm e) = ix2 p e := funext fun ax => Fin.ext (by
    match ax with
    | ⟨0, _⟩ => exact hl0 _ _
    | ⟨1, _⟩ => exact (d.lhsIdx_val_of_single hlc _ _).trans hk)
  have er : d.rhsIdx (ix2 p c) ((contrEquiv1 d k hr hs).symm e) = ix2 c e := funext fun ax => Fin.ext (by
    match ax with
    | ⟨0, _⟩ => exact hr0 _ _
    | ⟨1, _⟩ => exact (d.rhsIdx_val_of_single hrc _ _).trans hk)
  rw [el, er]

/-! ## The kernel's records -/

/-- The input layer's product: the weight [64, 128] against the features [2048, 128], both contracted on their columns. -/
theorem mmIn_apply (l : FVec Ideal S64x128 .f32) (r : FVec Ideal S2048x128 .f32) (p : Fin 64) (c : Fin 2048) :
    matmul dot_S64x128_S2048x128_S64x2048_1_1_0_0_n_n none l r (constant (F := Ideal) S64x2048 .f32 0x00000000#32) (ix2 p c)
      = ∑ e : Fin 128, l (ix2 p e) * r (ix2 c e) :=
  matmul_cols_cols_apply dot_S64x128_S2048x128_S64x2048_1_1_0_0_n_n rfl rfl rfl rfl
    (fun j q => by
      unfold DotDims.lhsIdx
      rw [dif_neg (show ¬(0 : Fin S64x128.rank) ∈ dot_S64x128_S2048x128_S64x2048_1_1_0_0_n_n.lhsBatch by decide),
        dif_pos (show (0 : Fin S64x128.rank) ∈ dot_S64x128_S2048x128_S64x2048_1_1_0_0_n_n.lhsNonContracting by decide)]
      rfl)
    (fun j q => by
      unfold DotDims.rhsIdx
      rw [dif_neg (show ¬(0 : Fin S2048x128.rank) ∈ dot_S64x128_S2048x128_S64x2048_1_1_0_0_n_n.rhsBatch by decide),
        dif_pos (show (0 : Fin S2048x128.rank) ∈ dot_S64x128_S2048x128_S64x2048_1_1_0_0_n_n.rhsNonContracting by decide)]
      rfl)
    l r p c

/-- The partial product of a chunk: 512 columns of the input layer against the chunk's 512 adjacency rows. -/
theorem mmAcc_apply (l : FVec Ideal S64x512 .bf16) (r : FVec Ideal S512x2048 .bf16) (p : Fin 64) (c : Fin 2048) :
    matmul dot_S64x512_S512x2048_S64x2048_1_0_0_1_n_n none l r (constant (F := Ideal) S64x2048 .f32 0x00000000#32) (ix2 p c)
      = ∑ e : Fin 512, l (ix2 p e) * r (ix2 e c) :=
  matmul_cols_rows_apply dot_S64x512_S512x2048_S64x2048_1_0_0_1_n_n rfl rfl rfl rfl
    (fun j q => by
      unfold DotDims.lhsIdx
      rw [dif_neg (show ¬(0 : Fin S64x512.rank) ∈ dot_S64x512_S512x2048_S64x2048_1_0_0_1_n_n.lhsBatch by decide),
        dif_pos (show (0 : Fin S64x512.rank) ∈ dot_S64x512_S512x2048_S64x2048_1_0_0_1_n_n.lhsNonContracting by decide)]
      rfl)
    (fun j q => by
      unfold DotDims.rhsIdx
      rw [dif_neg (show ¬(1 : Fin S512x2048.rank) ∈ dot_S64x512_S512x2048_S64x2048_1_0_0_1_n_n.rhsBatch by decide),
        dif_pos (show (1 : Fin S512x2048.rank) ∈ dot_S64x512_S512x2048_S64x2048_1_0_0_1_n_n.rhsNonContracting by decide)]
      rfl)
    l r p c

/-- The aggregation layer's weight against a [feature, node] value. -/
theorem mmGin_apply (l : FVec Ideal S64x64 .f32) (r : FVec Ideal S64x2048 .f32) (p : Fin 64) (c : Fin 2048) :
    matmul dot_S64x64_S64x2048_S64x2048_1_0_0_1_n_n none l r (constant (F := Ideal) S64x2048 .f32 0x00000000#32) (ix2 p c)
      = ∑ e : Fin 64, l (ix2 p e) * r (ix2 e c) :=
  matmul_cols_rows_apply dot_S64x64_S64x2048_S64x2048_1_0_0_1_n_n rfl rfl rfl rfl
    (fun j q => by
      unfold DotDims.lhsIdx
      rw [dif_neg (show ¬(0 : Fin S64x64.rank) ∈ dot_S64x64_S64x2048_S64x2048_1_0_0_1_n_n.lhsBatch by decide),
        dif_pos (show (0 : Fin S64x64.rank) ∈ dot_S64x64_S64x2048_S64x2048_1_0_0_1_n_n.lhsNonContracting by decide)]
      rfl)
    (fun j q => by
      unfold DotDims.rhsIdx
      rw [dif_neg (show ¬(1 : Fin S64x2048.rank) ∈ dot_S64x64_S64x2048_S64x2048_1_0_0_1_n_n.rhsBatch by decide),
        dif_pos (show (1 : Fin S64x2048.rank) ∈ dot_S64x64_S64x2048_S64x2048_1_0_0_1_n_n.rhsNonContracting by decide)]
      rfl)
    l r p c

/-- A projection weight of the cell against a [feature, node] value. -/
theorem mmProj_apply (l : FVec Ideal S192x64 .f32) (r : FVec Ideal S64x2048 .f32) (p : Fin 192) (c : Fin 2048) :
    matmul dot_S192x64_S64x2048_S192x2048_1_0_0_1_n_n none l r (constant (F := Ideal) S192x2048 .f32 0x00000000#32) (ix2 p c)
      = ∑ e : Fin 64, l (ix2 p e) * r (ix2 e c) :=
  matmul_cols_rows_apply dot_S192x64_S64x2048_S192x2048_1_0_0_1_n_n rfl rfl rfl rfl
    (fun j q => by
      unfold DotDims.lhsIdx
      rw [dif_neg (show ¬(0 : Fin S192x64.rank) ∈ dot_S192x64_S64x2048_S192x2048_1_0_0_1_n_n.lhsBatch by decide),
        dif_pos (show (0 : Fin S192x64.rank) ∈ dot_S192x64_S64x2048_S192x2048_1_0_0_1_n_n.lhsNonContracting by decide)]
      rfl)
    (fun j q => by
      unfold DotDims.rhsIdx
      rw [dif_neg (show ¬(1 : Fin S64x2048.rank) ∈ dot_S192x64_S64x2048_S192x2048_1_0_0_1_n_n.rhsBatch by decide),
        dif_pos (show (1 : Fin S64x2048.rank) ∈ dot_S192x64_S64x2048_S192x2048_1_0_0_1_n_n.rhsNonContracting by decide)]
      rfl)
    l r p c

/-- A [feature, node] state against the full adjacency bank: the neighbour sum of the second step. -/
theorem mmBank_apply (l : FVec Ideal S64x2048 .bf16) (r : FVec Ideal S2048x2048 .bf16) (p : Fin 64) (c : Fin 2048) :
    matmul dot_S64x2048_S2048x2048_S64x2048_1_0_0_1_n_n none l r (constant (F := Ideal) S64x2048 .f32 0x00000000#32) (ix2 p c)
      = ∑ e : Fin 2048, l (ix2 p e) * r (ix2 e c) :=
  matmul_cols_rows_apply dot_S64x2048_S2048x2048_S64x2048_1_0_0_1_n_n rfl rfl rfl rfl
    (fun j q => by
      unfold DotDims.lhsIdx
      rw [dif_neg (show ¬(0 : Fin S64x2048.rank) ∈ dot_S64x2048_S2048x2048_S64x2048_1_0_0_1_n_n.lhsBatch by decide),
        dif_pos (show (0 : Fin S64x2048.rank) ∈ dot_S64x2048_S2048x2048_S64x2048_1_0_0_1_n_n.lhsNonContracting by decide)]
      rfl)
    (fun j q => by
      unfold DotDims.rhsIdx
      rw [dif_neg (show ¬(1 : Fin S2048x2048.rank) ∈ dot_S64x2048_S2048x2048_S64x2048_1_0_0_1_n_n.rhsBatch by decide),
        dif_pos (show (1 : Fin S2048x2048.rank) ∈ dot_S64x2048_S2048x2048_S64x2048_1_0_0_1_n_n.rhsNonContracting by decide)]
      rfl)
    l r p c

end Cert.KernelIdeal.EncMath

end
-- ==== Proof.KMathIn.lean ====
/-
  What a grid point leaves behind, read at one entry: the bank rows, the input layer, and the accumulator.

  The bank rows of a point are its adjacency block itself (the change of format is the identity on the extended reals
  and the leading unit axis is dropped). The input layer at (h, v) is the rectified sum over the 128 input features of
  feature f of node v times the weight's (h, f) entry, plus the bias of h: the kernel multiplies weight first, the
  specification feature first, and the product commutes. The accumulator is reset to the zero word, and a point adds to
  each entry (h, v) the sum over its 512 adjacency rows j of the row's entry for v times column j of the 512 input-layer
  columns it was given.
-/
import proofs.«119515_g77850577207767_cont_9to1c4b_578_27_alg».proof.Proof.KernelTerms
import proofs.«119515_g77850577207767_cont_9to1c4b_578_27_alg».proof.Proof.KMathOps
import proofs.«119515_g77850577207767_cont_9to1c4b_578_27_alg».proof.Proof.KMathMatmul

noncomputable section

open scoped BigOperators

namespace Cert.KernelIdeal.EncMath

open Idealize.ShloMosaic Idealize.ShloMosaic.ValueIdx Cert.KernelIdeal Cert.KernelIdeal.Gen Cert.KernelIdeal.Enc Cert.GraphEncoder

/-- A point's adjacency block without its unit axis. -/
theorem pay1_apply (a : Vec Ideal S1x512x2048 .f32) (r : Fin 512) (v : Fin 2048) :
    k0_pay1 a (ix2 r v) = a (ix3 0 r v) := by
  unfold k0_pay1
  exact shapeCast_1ab_ab_apply a _ r v

/-- The bank rows of a point are its adjacency block. -/
theorem bankRows_apply (a : Vec Ideal S1x512x2048 .f32) (r : Fin 512) (v : Fin 2048) :
    bankRows a (ix2 r v) = a (ix3 0 r v) := by
  unfold bankRows k0_pay2
  rw [shapeCast_self]
  exact pay1_apply a r v

/-- The rectified input projection, [feature, node]. -/
theorem pay3_apply (x : Vec Ideal S1x2048x128 .f32) (w : Vec Ideal S64x128 .f32) (bias : Vec Ideal S64x1 .f32)
    (h : Fin 64) (v : Fin 2048) :
    k0_pay3 x w bias (ix2 h v) = relu (∑ f : Fin 128, x (ix3 0 v f) * w (ix2 h f) + bias (ix2 h 0)) := by
  unfold k0_pay3 relu
  refine congrArg₂ max (congrArg₂ (· + ·) ((mmIn_apply w _ h v).trans (Finset.sum_congr rfl fun f _ => ?_))
    (biasColumn_apply bias _ _ h v)) rfl
  rw [shapeCast_1ab_ab_apply x _ v f]
  exact mul_comm _ _

/-- The input layer at (h, v). -/
theorem inputLayer_apply (x : Vec Ideal S1x2048x128 .f32) (w : Vec Ideal S64x128 .f32) (bias : Vec Ideal S64x1 .f32)
    (h : Fin 64) (v : Fin 2048) :
    inputLayer x w bias (ix2 h v) = relu (∑ f : Fin 128, x (ix3 0 v f) * w (ix2 h f) + bias (ix2 h 0)) := by
  unfold inputLayer k0_pay4
  rw [shapeCast_self]
  exact pay3_apply x w bias h v

/-- The input layer in the narrower format is the same value. -/
theorem inputLayerNarrow_apply (x : Vec Ideal S1x2048x128 .f32) (w : Vec Ideal S64x128 .f32) (bias : Vec Ideal S64x1 .f32)
    (h : Fin 64) (v : Fin 2048) :
    inputLayerNarrow x w bias (ix2 h v) = relu (∑ f : Fin 128, x (ix3 0 v f) * w (ix2 h f) + bias (ix2 h 0)) := by
  unfold inputLayerNarrow k0_pay5
  rw [shapeCast_self]
  exact pay3_apply x w bias h v

/-- The two formats of the input layer agree entry by entry. -/
theorem inputLayerNarrow_eq (x : Vec Ideal S1x2048x128 .f32) (w : Vec Ideal S64x128 .f32) (bias : Vec Ideal S64x1 .f32)
    (h : Fin 64) (v : Fin 2048) :
    inputLayerNarrow x w bias (ix2 h v) = inputLayer x w bias (ix2 h v) :=
  (inputLayerNarrow_apply x w bias h v).trans (inputLayer_apply x w bias h v).symm

/-- The accumulator is reset to the zero word. -/
theorem accumulatorReset_apply (h : Fin 64) (v : Fin 2048) :
    accumulatorReset (F := Ideal) (ix2 h v) = zeroW := by
  unfold accumulatorReset k0_pay6
  rw [shapeCast_self]
  rfl

/-- A point adds its chunk's partial product to the accumulator. -/
theorem accumulate_apply (a : Vec Ideal S1x512x2048 .f32) (acc : Vec Ideal S64x2048 .f32) (cols : Vec Ideal S64x512 .bf16)
    (h : Fin 64) (v : Fin 2048) :
    accumulate a acc cols (ix2 h v) = acc (ix2 h v) + ∑ j : Fin 512, a (ix3 0 j v) * cols (ix2 h j) := by
  unfold accumulate k0_pay7
  rw [shapeCast_self]
  refine congrArg (acc (ix2 h v) + ·) ((mmAcc_apply cols _ h v).trans (Finset.sum_congr rfl fun j _ => ?_))
  rw [pay1_apply a j v]
  exact mul_comm _ _

end Cert.KernelIdeal.EncMath

end
-- ==== Proof.KMathForms.lean ====
/-
  The gated recurrent step as arithmetic on one node's entries, in the order the kernel multiplies.

  At a node the kernel has the 64 entries X e = state + neighbour sum, and computes: the aggregation layer
  m e = relu (∑ e', gw (e, e') * X e' + gb e); the cell's input projection GI j = ∑ e, wih (j, e) * m e + bih j over
  the 192 gate columns; the state projection GH j = ∑ e, whh (j, e) * Y e + bhh j of the state's entries Y; and the new
  state (1 - z) * n + z * S with z = σ (GI + GH) on the update columns, r = σ (GI + GH) on the reset columns and
  n = tanh (GI + r * GH) on the candidate columns. These are the specification's `gi`, `gh` and `gru` with every
  product's factors exchanged; only commutativity of the product on the extended reals is used.
-/
import proofs.«119515_g77850577207767_cont_9to1c4b_578_27_alg».proof.Proof.EncoderSpec

noncomputable section

open scoped BigOperators

namespace Cert.KernelIdeal.EncMath

open Idealize.ShloMosaic Idealize.ShloMosaic.ValueIdx Cert.GraphEncoder

/-- The input projection of the cell with the aggregation layer inside it, weights first, from one node's entries
    `X e` = state plus neighbour sum. -/
def giForm (gw : (⟨2, ![64, 64]⟩ : Shape).Idx → EReal) (gb : (⟨2, ![64, 1]⟩ : Shape).Idx → EReal)
    (wih : (⟨2, ![192, 64]⟩ : Shape).Idx → EReal) (bih : (⟨2, ![192, 1]⟩ : Shape).Idx → EReal)
    (X : Fin 64 → EReal) (j : Fin 192) : EReal :=
  ∑ e : Fin 64, wih (ix2 j e) * relu (∑ e' : Fin 64, gw (ix2 e e') * X e' + gb (ix2 e 0)) + bih (ix2 j 0)

/-- The state projection of the cell, weights first, from one node's state entries `Y e`. -/
def ghForm (whh : (⟨2, ![192, 64]⟩ : Shape).Idx → EReal) (bhh : (⟨2, ![192, 1]⟩ : Shape).Idx → EReal)
    (Y : Fin 64 → EReal) (j : Fin 192) : EReal :=
  ∑ e : Fin 64, whh (ix2 j e) * Y e + bhh (ix2 j 0)

/-- The gated cell at feature `h` from the two projections' 192 columns and the old state's entry `S`. -/
def cell (GI GH : Fin 192 → EReal) (S : EReal) (h : Fin 64) : EReal :=
  (oneW - Ideal.logistic (GI (colZ h) + GH (colZ h)))
      * Ideal.tanh (GI (colN h) + Ideal.logistic (GI (colR h) + GH (colR h)) * GH (colN h))
    + Ideal.logistic (GI (colZ h) + GH (colZ h)) * S

/-- The specification's cell is `cell` of its two projections. -/
theorem gru_eq_cell (P : Params) (mm s : Hid) (b : Fin 4) (v : Fin 2048) (h : Fin 64) :
    gru P mm s b v h = cell (gi P mm b v) (gh P s b v) (s b v h) h := rfl

/-- One step of the specification is `cell` of the projections of the aggregation layer and of the old state. -/
theorem step_eq_cell (P : Params) (adj : Adj) (o : Hid) (b : Fin 4) (v : Fin 2048) (h : Fin 64) :
    step P adj o b v h = cell (gi P (gin P adj o) b v) (gh P o b v) (o b v h) h := rfl

/-- The kernel's input projection is the specification's, when the entries are state plus neighbour sum and the bias
    columns are the bias vectors. -/
theorem giForm_spec (P : Params) (adj : Adj) (o : Hid) (b : Fin 4) (v : Fin 2048)
    (gb : (⟨2, ![64, 1]⟩ : Shape).Idx → EReal) (bih : (⟨2, ![192, 1]⟩ : Shape).Idx → EReal) (X : Fin 64 → EReal)
    (hgb : ∀ d, gb (ix2 d 0) = P.gin_b (ix1 d)) (hbih : ∀ j, bih (ix2 j 0) = P.b_ih (ix1 j))
    (hX : ∀ e, X e = o b v e + agg adj o b v e) (j : Fin 192) :
    giForm P.gin_w gb P.w_ih bih X j = gi P (gin P adj o) b v j := by
  unfold giForm gi
  refine congrArg₂ (· + ·) (Finset.sum_congr rfl fun e _ => ?_) (hbih j)
  rw [mul_comm]
  refine congrArg (· * P.w_ih (ix2 j e)) ?_
  unfold gin
  refine congrArg relu (congrArg₂ (· + ·) (Finset.sum_congr rfl fun e' _ => ?_) (hgb e))
  rw [hX e', mul_comm]

/-- The kernel's state projection is the specification's. -/
theorem ghForm_spec (P : Params) (s : Hid) (b : Fin 4) (v : Fin 2048)
    (bhh : (⟨2, ![192, 1]⟩ : Shape).Idx → EReal) (Y : Fin 64 → EReal)
    (hbhh : ∀ j, bhh (ix2 j 0) = P.b_hh (ix1 j)) (hY : ∀ e, Y e = s b v e) (j : Fin 192) :
    ghForm P.w_hh bhh Y j = gh P s b v j := by
  unfold ghForm gh
  refine congrArg₂ (· + ·) (Finset.sum_congr rfl fun e _ => ?_) (hbhh j)
  rw [hY e, mul_comm]

/-- A step of the specification from the kernel's two projections and the old state's entry. -/
theorem cell_spec (P : Params) (adj : Adj) (o : Hid) (b : Fin 4) (v : Fin 2048) (h : Fin 64)
    (gb : (⟨2, ![64, 1]⟩ : Shape).Idx → EReal) (bih bhh : (⟨2, ![192, 1]⟩ : Shape).Idx → EReal) (X Y : Fin 64 → EReal) (S : EReal)
    (hgb : ∀ d, gb (ix2 d 0) = P.gin_b (ix1 d)) (hbih : ∀ j, bih (ix2 j 0) = P.b_ih (ix1 j))
    (hbhh : ∀ j, bhh (ix2 j 0) = P.b_hh (ix1 j))
    (hX : ∀ e, X e = o b v e + agg adj o b v e) (hY : ∀ e, Y e = o b v e) (hS : S = o b v h) :
    cell (giForm P.gin_w gb P.w_ih bih X) (ghForm P.w_hh bhh Y) S h = step P adj o b v h := by
  rw [step_eq_cell, hS]
  have e1 : giForm P.gin_w gb P.w_ih bih X = gi P (gin P adj o) b v :=
    funext fun j => giForm_spec P adj o b v gb bih X hgb hbih hX j
  have e2 : ghForm P.w_hh bhh Y = gh P o b v := funext fun j => ghForm_spec P o b v bhh Y hbhh hY j
  rw [e1, e2]

end Cert.KernelIdeal.EncMath

end
-- ==== Proof.KMathCell.lean ====
/-
  The last chunk's payload terms read at one entry, as the arithmetic of one gated step.

  At entry (j, v) of the 192 gate rows, the kernel's two projection terms are `giForm` and `ghForm` of node v's entries:
  in the first step the entries are the input layer plus the finished accumulator, in the second the first step's state
  plus its product with the adjacency bank (the sum over source nodes u of state (e, u) * bank (u, v)). The gates are
  the row blocks at 0, 64 and 128 of the projections, so the first new state and the stored output block are `cell` of
  those projections. The output block only adds a leading unit axis.
-/
import proofs.«119515_g77850577207767_cont_9to1c4b_578_27_alg».proof.Proof.KernelTerms
import proofs.«119515_g77850577207767_cont_9to1c4b_578_27_alg».proof.Proof.KMathOps
import proofs.«119515_g77850577207767_cont_9to1c4b_578_27_alg».proof.Proof.KMathMatmul
import proofs.«119515_g77850577207767_cont_9to1c4b_578_27_alg».proof.Proof.KMathForms

noncomputable section

open scoped BigOperators

namespace Cert.KernelIdeal.EncMath

open Idealize.ShloMosaic Idealize.ShloMosaic.ValueIdx Cert.KernelIdeal Cert.KernelIdeal.Gen Cert.KernelIdeal.Enc Cert.GraphEncoder

section FirstStep

variable (s a : Vec Ideal S64x2048 .f32) (gw : Vec Ideal S64x64 .f32) (gb : Vec Ideal S64x1 .f32)
  (wih : Vec Ideal S192x64 .f32) (bih : Vec Ideal S192x1 .f32) (whh : Vec Ideal S192x64 .f32) (bhh : Vec Ideal S192x1 .f32)

/-- The first step's input projection at gate row `j`, node `v`. -/
theorem pay9_apply (j : Fin 192) (v : Fin 2048) :
    k0_pay9 s a gw gb wih bih (ix2 j v) = giForm gw gb wih bih (fun e => s (ix2 e v) + a (ix2 e v)) j := by
  unfold k0_pay9 giForm relu
  refine congrArg₂ (· + ·) ((mmProj_apply wih _ j v).trans
    (Finset.sum_congr rfl fun e _ => congrArg (wih (ix2 j e) * ·) ?_)) (biasColumn_apply bih _ _ j v)
  exact congrArg₂ max (congrArg₂ (· + ·) (mmGin_apply gw _ e v) (biasColumn_apply gb _ _ e v)) rfl

/-- The first step's state projection at gate row `j`, node `v`. -/
theorem pay10_apply (j : Fin 192) (v : Fin 2048) :
    k0_pay10 s whh bhh (ix2 j v) = ghForm whh bhh (fun e => s (ix2 e v)) j := by
  unfold k0_pay10 ghForm
  exact congrArg₂ (· + ·) (mmProj_apply whh s j v) (biasColumn_apply bhh _ _ j v)

/-- The first step's update gate. -/
theorem pay11_apply (h : Fin 64) (v : Fin 2048) :
    k0_pay11 s a gw gb wih bih whh bhh (ix2 h v)
      = Ideal.logistic (k0_pay9 s a gw gb wih bih (ix2 (colZ h) v) + k0_pay10 s whh bhh (ix2 (colZ h) v)) := by
  unfold k0_pay11
  exact congrArg Ideal.logistic (congrArg₂ (· + ·) (gateBlockZ_apply _ _ h v) (gateBlockZ_apply _ _ h v))

/-- The first step's `(1 - z) * n`. -/
theorem pay12_apply (h : Fin 64) (v : Fin 2048) :
    k0_pay12 s a gw gb wih bih whh bhh (ix2 h v)
      = (oneW - k0_pay11 s a gw gb wih bih whh bhh (ix2 h v))
        * Ideal.tanh (k0_pay9 s a gw gb wih bih (ix2 (colN h) v)
          + Ideal.logistic (k0_pay9 s a gw gb wih bih (ix2 (colR h) v) + k0_pay10 s whh bhh (ix2 (colR h) v))
            * k0_pay10 s whh bhh (ix2 (colN h) v)) := by
  unfold k0_pay12
  exact congrArg ((oneW - k0_pay11 s a gw gb wih bih whh bhh (ix2 h v)) * ·)
    (congrArg Ideal.tanh (congrArg₂ (· + ·) (gateBlockN_apply _ _ h v)
      (congrArg₂ (· * ·) (congrArg Ideal.logistic (congrArg₂ (· + ·) (gateBlockR_apply _ _ h v) (gateBlockR_apply _ _ h v)))
        (gateBlockN_apply _ _ h v))))

/-- The first new state is the gated cell of the two projections and the old state. -/
theorem firstState_apply (h : Fin 64) (v : Fin 2048) :
    k0_pay13 s (k0_pay11 s a gw gb wih bih whh bhh) (k0_pay12 s a gw gb wih bih whh bhh) (ix2 h v)
      = cell (giForm gw gb wih bih (fun e => s (ix2 e v) + a (ix2 e v))) (ghForm whh bhh (fun e => s (ix2 e v)))
          (s (ix2 h v)) h := by
  unfold k0_pay13
  show k0_pay12 s a gw gb wih bih whh bhh (ix2 h v) + k0_pay11 s a gw gb wih bih whh bhh (ix2 h v) * s (ix2 h v) = _
  rw [pay12_apply, pay11_apply]
  simp only [pay9_apply, pay10_apply]
  rfl

end FirstStep

section SecondStep

variable (s : Vec Ideal S64x2048 .f32) (z x : FVec Ideal S64x2048 .f32) (bank : Vec Ideal S2048x2048 .bf16)
  (gw : Vec Ideal S64x64 .f32) (gb : Vec Ideal S64x1 .f32)
  (wih : Vec Ideal S192x64 .f32) (bih : Vec Ideal S192x1 .f32) (whh : Vec Ideal S192x64 .f32) (bhh : Vec Ideal S192x1 .f32)

/-- The second step's input projection: its entries are the first state plus the first state's product with the bank. -/
theorem pay14_apply (j : Fin 192) (v : Fin 2048) :
    k0_pay14 s z x bank gw gb wih bih (ix2 j v)
      = giForm gw gb wih bih
          (fun e => k0_pay13 s z x (ix2 e v) + ∑ u : Fin 2048, k0_pay13 s z x (ix2 e u) * bank (ix2 u v)) j := by
  unfold k0_pay14 giForm relu
  refine congrArg₂ (· + ·) ((mmProj_apply wih _ j v).trans
    (Finset.sum_congr rfl fun e _ => congrArg (wih (ix2 j e) * ·) ?_)) (biasColumn_apply bih _ _ j v)
  refine congrArg₂ max (congrArg₂ (· + ·) ((mmGin_apply gw _ e v).trans
    (Finset.sum_congr rfl fun e' _ => congrArg (gw (ix2 e e') * ·) ?_)) (biasColumn_apply gb _ _ e v)) rfl
  exact congrArg (k0_pay13 s z x (ix2 e' v) + ·) (mmBank_apply _ bank e' v)

/-- The second step's state projection, of the first state. -/
theorem pay15_apply (j : Fin 192) (v : Fin 2048) :
    k0_pay15 s z x whh bhh (ix2 j v) = ghForm whh bhh (fun e => k0_pay13 s z x (ix2 e v)) j := by
  unfold k0_pay15 ghForm
  exact congrArg₂ (· + ·) (mmProj_apply whh _ j v) (biasColumn_apply bhh _ _ j v)

/-- The second step's update gate. -/
theorem pay16_apply (h : Fin 64) (v : Fin 2048) :
    k0_pay16 s z x bank gw gb wih bih whh bhh (ix2 h v)
      = Ideal.logistic (k0_pay14 s z x bank gw gb wih bih (ix2 (colZ h) v) + k0_pay15 s z x whh bhh (ix2 (colZ h) v)) := by
  unfold k0_pay16
  exact congrArg Ideal.logistic (congrArg₂ (· + ·) (gateBlockZ_apply _ _ h v) (gateBlockZ_apply _ _ h v))

/-- The second step's candidate. -/
theorem pay17_apply (h : Fin 64) (v : Fin 2048) :
    k0_pay17 s z x bank gw gb wih bih whh bhh (ix2 h v)
      = Ideal.tanh (k0_pay14 s z x bank gw gb wih bih (ix2 (colN h) v)
          + Ideal.logistic (k0_pay14 s z x bank gw gb wih bih (ix2 (colR h) v) + k0_pay15 s z x whh bhh (ix2 (colR h) v))
            * k0_pay15 s z x whh bhh (ix2 (colN h) v)) := by
  unfold k0_pay17
  exact congrArg Ideal.tanh (congrArg₂ (· + ·) (gateBlockN_apply _ _ h v)
    (congrArg₂ (· * ·) (congrArg Ideal.logistic (congrArg₂ (· + ·) (gateBlockR_apply _ _ h v) (gateBlockR_apply _ _ h v)))
      (gateBlockN_apply _ _ h v)))

end SecondStep

/-- The stored output block: `(one - z) * n + z * state` under a leading unit axis. -/
theorem pay8_apply (s1 z n one : FVec Ideal S64x2048 .f32) (h : Fin 64) (v : Fin 2048) :
    k0_pay8 s1 z n one (ix3 (0 : Fin 1) h v)
      = (one (ix2 h v) - z (ix2 h v)) * n (ix2 h v) + z (ix2 h v) * s1 (ix2 h v) := by
  unfold k0_pay8
  exact shapeCast_ab_1ab_apply _ _ 0 h v

/-- The output block is the gated cell of the second step's projections and the first state. -/
theorem finishBlock_cell (o0 ag : Vec Ideal S64x2048 .f32) (bank : Vec Ideal S2048x2048 .bf16)
    (gw : Vec Ideal S64x64 .f32) (gb : Vec Ideal S64x1 .f32) (wih : Vec Ideal S192x64 .f32) (bih : Vec Ideal S192x1 .f32)
    (whh : Vec Ideal S192x64 .f32) (bhh : Vec Ideal S192x1 .f32) (h : Fin 64) (v : Fin 2048) :
    finishBlock o0 ag bank gw gb wih bih whh bhh (ix3 (0 : Fin 1) h v)
      = cell
          (giForm gw gb wih bih (fun e =>
            k0_pay13 o0 (k0_pay11 o0 ag gw gb wih bih whh bhh) (k0_pay12 o0 ag gw gb wih bih whh bhh) (ix2 e v)
              + ∑ u : Fin 2048,
                  k0_pay13 o0 (k0_pay11 o0 ag gw gb wih bih whh bhh) (k0_pay12 o0 ag gw gb wih bih whh bhh) (ix2 e u)
                    * bank (ix2 u v)))
          (ghForm whh bhh (fun e =>
            k0_pay13 o0 (k0_pay11 o0 ag gw gb wih bih whh bhh) (k0_pay12 o0 ag gw gb wih bih whh bhh) (ix2 e v)))
          (k0_pay13 o0 (k0_pay11 o0 ag gw gb wih bih whh bhh) (k0_pay12 o0 ag gw gb wih bih whh bhh) (ix2 h v)) h := by
  unfold finishBlock
  rw [pay8_apply, pay16_apply, pay17_apply]
  simp only [pay14_apply, pay15_apply]
  rfl

end Cert.KernelIdeal.EncMath

end
-- ==== Proof.KMathStep.lean ====
/-
  The last chunk's output block is two steps of the specification.

  Under the pointwise reading of the kernel's operands — the input layer's entry (h, v) is the old state of node v,
  feature h; the finished accumulator's entry is the old state's neighbour sum; the bank's entry (u, v) is the adjacency
  of source u and target v; the weights are the specification's and the bias columns its bias vectors — the first new
  state at (h, v) is one step of the specification at node v, feature h. The second step's neighbour sum is the product
  of that state with the bank, the sum over u of state (h, u) * bank (u, v), which is the specification's
  sum over u of adj (u, v) * state with the factors exchanged. So the stored block is the second step.
-/
import proofs.«119515_g77850577207767_cont_9to1c4b_578_27_alg».proof.Proof.KMathCell

noncomputable section

open scoped BigOperators

namespace Cert.KernelIdeal.EncMath

open Idealize.ShloMosaic Idealize.ShloMosaic.ValueIdx Cert.KernelIdeal Cert.KernelIdeal.Gen Cert.KernelIdeal.Enc Cert.GraphEncoder

variable (P : Params) (adj : Adj) (o : Hid) (b : Fin 4)
  (o0 ag : Vec Ideal S64x2048 .f32) (bank : Vec Ideal S2048x2048 .bf16)
  (gw : Vec Ideal S64x64 .f32) (gb : Vec Ideal S64x1 .f32) (wih : Vec Ideal S192x64 .f32) (bih : Vec Ideal S192x1 .f32)
  (whh : Vec Ideal S192x64 .f32) (bhh : Vec Ideal S192x1 .f32)

/-- The first new state is one step of the specification. -/
theorem firstState_spec
    (ho0 : ∀ (h : Fin 64) (v : Fin 2048), o0 (ix2 h v) = o b v h)
    (hag : ∀ (h : Fin 64) (v : Fin 2048), ag (ix2 h v) = agg adj o b v h)
    (hgw : gw = P.gin_w) (hgb : ∀ d : Fin 64, gb (ix2 d 0) = P.gin_b (ix1 d))
    (hwih : wih = P.w_ih) (hbih : ∀ j : Fin 192, bih (ix2 j 0) = P.b_ih (ix1 j))
    (hwhh : whh = P.w_hh) (hbhh : ∀ j : Fin 192, bhh (ix2 j 0) = P.b_hh (ix1 j)) (h : Fin 64) (v : Fin 2048) :
    k0_pay13 o0 (k0_pay11 o0 ag gw gb wih bih whh bhh) (k0_pay12 o0 ag gw gb wih bih whh bhh) (ix2 h v)
      = step P adj o b v h := by
  subst hgw hwih hwhh
  rw [firstState_apply]
  exact cell_spec P adj o b v h gb bih bhh _ _ _ hgb hbih hbhh (fun e => by rw [ho0 e v, hag e v]) (fun e => ho0 e v) (ho0 h v)

/-- The product of a state with the bank is the state's neighbour sum. -/
theorem bankProduct_eq_agg (o1 : Hid) (st : FVec Ideal S64x2048 .f32)
    (hst : ∀ (h : Fin 64) (u : Fin 2048), st (ix2 h u) = o1 b u h)
    (hbank : ∀ (u v : Fin 2048), bank (ix2 u v) = adj (ix3 b u v)) (h : Fin 64) (v : Fin 2048) :
    ∑ u : Fin 2048, st (ix2 h u) * bank (ix2 u v) = agg adj o1 b v h := by
  unfold agg
  exact Finset.sum_congr rfl fun u _ => by rw [hst h u, hbank u v, mul_comm]

/-- The output block of a graph's last chunk is two steps of the specification. -/
theorem finishBlock_spec
    (ho0 : ∀ (h : Fin 64) (v : Fin 2048), o0 (ix2 h v) = o b v h)
    (hag : ∀ (h : Fin 64) (v : Fin 2048), ag (ix2 h v) = agg adj o b v h)
    (hbank : ∀ (u v : Fin 2048), bank (ix2 u v) = adj (ix3 b u v))
    (hgw : gw = P.gin_w) (hgb : ∀ d : Fin 64, gb (ix2 d 0) = P.gin_b (ix1 d))
    (hwih : wih = P.w_ih) (hbih : ∀ j : Fin 192, bih (ix2 j 0) = P.b_ih (ix1 j))
    (hwhh : whh = P.w_hh) (hbhh : ∀ j : Fin 192, bhh (ix2 j 0) = P.b_hh (ix1 j)) (h : Fin 64) (v : Fin 2048) :
    finishBlock o0 ag bank gw gb wih bih whh bhh (ix3 (0 : Fin 1) h v) = step P adj (step P adj o) b v h := by
  have hs1 : ∀ (e : Fin 64) (u : Fin 2048),
      k0_pay13 o0 (k0_pay11 o0 ag gw gb wih bih whh bhh) (k0_pay12 o0 ag gw gb wih bih whh bhh) (ix2 e u)
        = step P adj o b u e :=
    fun e u => firstState_spec P adj o b o0 ag gw gb wih bih whh bhh ho0 hag hgw hgb hwih hbih hwhh hbhh e u
  rw [finishBlock_cell]
  subst hgw hwih hwhh
  refine cell_spec P adj (step P adj o) b v h gb bih bhh _ _ _ hgb hbih hbhh (fun e => ?_) (fun e => hs1 e v) (hs1 h v)
  rw [hs1 e v]
  exact congrArg (step P adj o b v e + ·) (bankProduct_eq_agg adj b bank (step P adj o) _ (fun h' u => hs1 h' u) hbank e v)

end Cert.KernelIdeal.EncMath

end
-- ==== Proof.KMathSpec.lean ====
/-
  The input layer and the output block against the specification's named functions.

  When a graph's feature block is graph b of the feature array, the weight is the specification's and the bias column its
  bias vector, the kernel's input layer at (h, v) is `lin0` at graph b, node v, feature h, in either format. With the input
  layer as the old state, the output block of the last chunk is the encoder's value.
-/
import proofs.«119515_g77850577207767_cont_9to1c4b_578_27_alg».proof.Proof.KMathIn
import proofs.«119515_g77850577207767_cont_9to1c4b_578_27_alg».proof.Proof.KMathStep

noncomputable section

open scoped BigOperators

namespace Cert.KernelIdeal.EncMath

open Idealize.ShloMosaic Idealize.ShloMosaic.ValueIdx Cert.KernelIdeal Cert.KernelIdeal.Gen Cert.KernelIdeal.Enc Cert.GraphEncoder

/-- The input layer of graph `b` is the specification's. -/
theorem inputLayer_spec (P : Params) (x : Feat) (b : Fin 4)
    (xb : Vec Ideal S1x2048x128 .f32) (w : Vec Ideal S64x128 .f32) (bias : Vec Ideal S64x1 .f32)
    (hx : ∀ (v : Fin 2048) (f : Fin 128), xb (ix3 0 v f) = x (ix3 b v f))
    (hw : w = P.lin0_w) (hb : ∀ h : Fin 64, bias (ix2 h 0) = P.lin0_b (ix1 h)) (h : Fin 64) (v : Fin 2048) :
    inputLayer xb w bias (ix2 h v) = lin0 P x b v h := by
  subst hw
  rw [inputLayer_apply]
  unfold lin0
  exact congrArg relu (congrArg₂ (· + ·) (Finset.sum_congr rfl fun f _ => by rw [hx v f]) (hb h))

/-- The same in the narrower format. -/
theorem inputLayerNarrow_spec (P : Params) (x : Feat) (b : Fin 4)
    (xb : Vec Ideal S1x2048x128 .f32) (w : Vec Ideal S64x128 .f32) (bias : Vec Ideal S64x1 .f32)
    (hx : ∀ (v : Fin 2048) (f : Fin 128), xb (ix3 0 v f) = x (ix3 b v f))
    (hw : w = P.lin0_w) (hb : ∀ h : Fin 64, bias (ix2 h 0) = P.lin0_b (ix1 h)) (h : Fin 64) (v : Fin 2048) :
    inputLayerNarrow xb w bias (ix2 h v) = lin0 P x b v h :=
  (inputLayerNarrow_eq xb w bias h v).trans (inputLayer_spec P x b xb w bias hx hw hb h v)

/-- With the input layer as the old state, the output block is the encoder's value. -/
theorem finishBlock_encode (P : Params) (adj : Adj) (x : Feat) (b : Fin 4)
    (o0 ag : Vec Ideal S64x2048 .f32) (bank : Vec Ideal S2048x2048 .bf16)
    (gw : Vec Ideal S64x64 .f32) (gb : Vec Ideal S64x1 .f32) (wih : Vec Ideal S192x64 .f32) (bih : Vec Ideal S192x1 .f32)
    (whh : Vec Ideal S192x64 .f32) (bhh : Vec Ideal S192x1 .f32)
    (ho0 : ∀ (h : Fin 64) (v : Fin 2048), o0 (ix2 h v) = lin0 P x b v h)
    (hag : ∀ (h : Fin 64) (v : Fin 2048), ag (ix2 h v) = agg adj (lin0 P x) b v h)
    (hbank : ∀ (u v : Fin 2048), bank (ix2 u v) = adj (ix3 b u v))
    (hgw : gw = P.gin_w) (hgb : ∀ d : Fin 64, gb (ix2 d 0) = P.gin_b (ix1 d))
    (hwih : wih = P.w_ih) (hbih : ∀ j : Fin 192, bih (ix2 j 0) = P.b_ih (ix1 j))
    (hwhh : whh = P.w_hh) (hbhh : ∀ j : Fin 192, bhh (ix2 j 0) = P.b_hh (ix1 j)) (h : Fin 64) (v : Fin 2048) :
    finishBlock o0 ag bank gw gb wih bih whh bhh (ix3 (0 : Fin 1) h v) = encode P adj x b v h :=
  finishBlock_spec P adj (lin0 P x) b o0 ag bank gw gb wih bih whh bhh ho0 hag hbank hgw hgb hwih hbih hwhh hbhh h v

end Cert.KernelIdeal.EncMath

end
-- ==== Proof.KValSpec.lean ====
/-
  The region's closed forms against the specification: the arrays, the input layer, and the bank.

  The specification's weights, adjacency and features are the argument arrays as launched. At every point of graph b the
  input-layer buffer's closed form (computed at the graph's first point from that point's blocks) is the specification's
  input layer of graph b, in either format: the first point of a graph has the same graph, its feature block is graph
  b of the features, its weight block the whole weight, its bias block the bias vector as a column. The bank with all
  four chunks in place is graph b of the adjacency: row u lies in chunk u / 512 at row u % 512 of that chunk's block.
-/
import proofs.«119515_g77850577207767_cont_9to1c4b_578_27_alg».proof.Proof.KIState
import proofs.«119515_g77850577207767_cont_9to1c4b_578_27_alg».proof.Proof.KValBlocks
import proofs.«119515_g77850577207767_cont_9to1c4b_578_27_alg».proof.Proof.KMathSpec

noncomputable section

open scoped BigOperators

namespace Cert.KernelIdeal.EncMath

open Idealize.ShloMosaic Idealize.ShloMosaic.TcCoe Idealize.SL.Sem Idealize.ShloMosaic.ValueIdx
open Cert.KernelIdeal Cert.KernelIdeal.Gen Cert.KernelIdeal.Enc Cert.KernelIdeal.Body Cert.GraphEncoder

variable (m : (ℓ : Loc nD τ sig) → Buf (Elt Ideal) ℓ)

/-- The specification's weights: the argument arrays as launched. -/
def paramsOf (c : Dev nD) : Params where
  lin0_w := (m ((c.tc : Thread nD τ).loc main_arg2) : S64x128.Idx → Elt Ideal .f32)
  lin0_b := (m ((c.tc : Thread nD τ).loc main_arg3) : S64.Idx → Elt Ideal .f32)
  gin_w := (m ((c.tc : Thread nD τ).loc main_arg4) : S64x64.Idx → Elt Ideal .f32)
  gin_b := (m ((c.tc : Thread nD τ).loc main_arg5) : S64.Idx → Elt Ideal .f32)
  w_ih := (m ((c.tc : Thread nD τ).loc main_arg6) : S192x64.Idx → Elt Ideal .f32)
  w_hh := (m ((c.tc : Thread nD τ).loc main_arg7) : S192x64.Idx → Elt Ideal .f32)
  b_ih := (m ((c.tc : Thread nD τ).loc main_arg8) : S192.Idx → Elt Ideal .f32)
  b_hh := (m ((c.tc : Thread nD τ).loc main_arg9) : S192.Idx → Elt Ideal .f32)

/-- The adjacency arrays as launched. -/
def adjOf (c : Dev nD) : Adj := (m ((c.tc : Thread nD τ).loc main_arg0) : S4x2048x2048.Idx → Elt Ideal .f32)
/-- The node features as launched. -/
def featOf (c : Dev nD) : Feat := (m ((c.tc : Thread nD τ).loc main_arg1) : S4x2048x128.Idx → Elt Ideal .f32)

/-- The first point of a graph has the graph of every point of it. -/
theorem pointGraph_gstart (t : Fin cfg0.N) : pointGraph (gstart t) = pointGraph t := by
  apply Fin.ext
  show (t.val - t.val % 4) / 4 = t.val / 4
  omega

/-- The input-layer buffer's closed form is the specification's input layer of the point's graph. -/
theorem layerAt_spec (c : Dev nD) (t : Fin cfg0.N) (h : Fin 64) (v : Fin 2048) :
    layerAt m c t (ix2 h v) = lin0 (paramsOf m c) (featOf m c) (pointGraph t) v h := by
  unfold layerAt
  refine inputLayer_spec (paramsOf m c) (featOf m c) (pointGraph t)
    (iblk m c 1 (gstart t)) (iblk m c 2 (gstart t)) (iblk m c 3 (gstart t)) (fun v' f => ?_) ?_ (fun h' => ?_) h v
  · rw [← pointGraph_gstart t]; exact iblk1_apply m c (gstart t) v' f
  · exact iblk2_eq m c (gstart t)
  · exact iblk3_apply m c (gstart t) h'

/-- The narrow buffer's closed form is the same value. -/
theorem narrowAt_spec (c : Dev nD) (t : Fin cfg0.N) (h : Fin 64) (v : Fin 2048) :
    narrowAt m c t (ix2 h v) = lin0 (paramsOf m c) (featOf m c) (pointGraph t) v h := by
  unfold narrowAt
  refine inputLayerNarrow_spec (paramsOf m c) (featOf m c) (pointGraph t)
    (iblk m c 1 (gstart t)) (iblk m c 2 (gstart t)) (iblk m c 3 (gstart t)) (fun v' f => ?_) ?_ (fun h' => ?_) h v
  · rw [← pointGraph_gstart t]; exact iblk1_apply m c (gstart t) v' f
  · exact iblk2_eq m c (gstart t)
  · exact iblk3_apply m c (gstart t) h'

/-- The bank with all four chunks in place is the graph's adjacency. -/
theorem bankFull_spec (c : Dev nD) (t : Fin cfg0.N) (u v : Fin 2048) :
    bankFull m c t (ix2 u v) = adjOf m c (ix3 (pointGraph t) u v) := by
  have hN : cfg0.N = 16 := N_0
  have ht := t.isLt
  have hu := u.isLt
  unfold bankFull
  rw [bankRows_apply]
  refine (iblk0_apply m c _ _ _).trans ?_
  unfold adjOf
  congr 1
  funext a
  apply Fin.ext
  match a with
  | ⟨0, _⟩ => show (t.val - t.val % 4 + u.val / 512) / 4 = t.val / 4; omega
  | ⟨1, _⟩ => show 512 * ((t.val - t.val % 4 + u.val / 512) % 4) + u.val % 512 = u.val; omega
  | ⟨2, _⟩ => rfl

end Cert.KernelIdeal.EncMath

end
-- ==== Proof.KMathChunks.lean ====
/-
  A sum over the 2048 nodes taken in four runs of 512.

  The kernel adds a graph's neighbour sum chunk by chunk: starting from zero, chunk k (of four) adds the sum over the
  512 source nodes 512 k, …, 512 k + 511. Since addition on the extended reals is commutative and associative, the four
  partial sums added in order from zero are the whole sum. Stated first for any additive commutative monoid, then for
  the encoder's neighbour sum.
-/
import proofs.«119515_g77850577207767_cont_9to1c4b_578_27_alg».proof.Proof.EncoderSpec
import Idealize.ShloMosaic.PureOps.Ideal.Laws

noncomputable section

open scoped BigOperators

namespace Cert.KernelIdeal.EncMath

open Idealize.ShloMosaic Idealize.ShloMosaic.ValueIdx Cert.GraphEncoder

/-- Node `512 k + j` of chunk `k`. -/
def chunkNode (k : Fin 4) (j : Fin 512) : Fin 2048 := ⟨512 * k.val + j.val, by have := k.isLt; have := j.isLt; omega⟩

/-- THE CHUNK LAW: a sum over 2048 indices is zero plus the four runs of 512 added in order. -/
theorem sum_four_chunks {M : Type*} [AddCommMonoid M] (f : Fin 2048 → M) :
    ∑ u, f u = (((0 + ∑ j : Fin 512, f ⟨j.val, by have := j.isLt; omega⟩) + ∑ j : Fin 512, f ⟨512 + j.val, by have := j.isLt; omega⟩)
      + ∑ j : Fin 512, f ⟨1024 + j.val, by have := j.isLt; omega⟩) + ∑ j : Fin 512, f ⟨1536 + j.val, by have := j.isLt; omega⟩ := by
  show ∑ u : Fin (512 + 512 + 512 + 512), f u = _
  rw [Fin.sum_univ_add, Fin.sum_univ_add, Fin.sum_univ_add, zero_add]
  rfl

/-- The same with the nodes written `chunkNode k j`. -/
theorem sum_chunkNode {M : Type*} [AddCommMonoid M] (f : Fin 2048 → M) :
    ∑ u, f u = (((0 + ∑ j : Fin 512, f (chunkNode 0 j)) + ∑ j : Fin 512, f (chunkNode 1 j))
      + ∑ j : Fin 512, f (chunkNode 2 j)) + ∑ j : Fin 512, f (chunkNode 3 j) := by
  rw [sum_four_chunks f]
  have e0 : ∀ j : Fin 512, chunkNode 0 j = ⟨j.val, by have := j.isLt; omega⟩ := fun j => Fin.ext (by show 512 * 0 + j.val = j.val; omega)
  have e1 : ∀ j : Fin 512, chunkNode 1 j = ⟨512 + j.val, by have := j.isLt; omega⟩ := fun j => Fin.ext (by show 512 * 1 + j.val = 512 + j.val; omega)
  have e2 : ∀ j : Fin 512, chunkNode 2 j = ⟨1024 + j.val, by have := j.isLt; omega⟩ := fun j => Fin.ext (by show 512 * 2 + j.val = 1024 + j.val; omega)
  have e3 : ∀ j : Fin 512, chunkNode 3 j = ⟨1536 + j.val, by have := j.isLt; omega⟩ := fun j => Fin.ext (by show 512 * 3 + j.val = 1536 + j.val; omega)
  simp only [e0, e1, e2, e3]

/-- Chunk `k`'s part of the neighbour sum of state `o` at graph `b`, target node `v`, feature `h`. -/
def aggChunk (adj : Adj) (o : Hid) (b : Fin 4) (k : Fin 4) (v : Fin 2048) (h : Fin 64) : EReal :=
  ∑ j : Fin 512, adj (ix3 b (chunkNode k j) v) * o b (chunkNode k j) h

/-- The neighbour sum is the four chunks' parts added in order from the zero word. -/
theorem agg_eq_chunks (adj : Adj) (o : Hid) (b : Fin 4) (v : Fin 2048) (h : Fin 64) :
    agg adj o b v h = (((zeroW + aggChunk adj o b 0 v h) + aggChunk adj o b 1 v h) + aggChunk adj o b 2 v h) + aggChunk adj o b 3 v h := by
  unfold agg aggChunk
  rw [sum_chunkNode (fun u => adj (ix3 b u v) * o b u h)]
  unfold zeroW
  rw [Ideal.ofBits_zero_f32]

end Cert.KernelIdeal.EncMath

end
-- ==== Proof.KMathAcc.lean ====
/-
  The accumulator over a graph's four chunks is the neighbour sum.

  When a point is given chunk k's adjacency rows (source nodes 512 k + j) and the matching 512 columns of the input
  layer, it adds chunk k's part of the neighbour sum to every entry of the accumulator. From the reset, the four points
  of a graph in order therefore leave the whole neighbour sum (the chunk law).
-/
import proofs.«119515_g77850577207767_cont_9to1c4b_578_27_alg».proof.Proof.KMathIn
import proofs.«119515_g77850577207767_cont_9to1c4b_578_27_alg».proof.Proof.KMathChunks

noncomputable section

open scoped BigOperators

namespace Cert.KernelIdeal.EncMath

open Idealize.ShloMosaic Idealize.ShloMosaic.ValueIdx Cert.KernelIdeal Cert.KernelIdeal.Gen Cert.KernelIdeal.Enc Cert.GraphEncoder

/-- A point that holds chunk `k`'s adjacency rows and state columns adds chunk `k`'s part. -/
theorem accumulate_chunk (adj : Adj) (o : Hid) (b : Fin 4) (k : Fin 4)
    (a : Vec Ideal S1x512x2048 .f32) (acc : Vec Ideal S64x2048 .f32) (cols : Vec Ideal S64x512 .bf16)
    (ha : ∀ (j : Fin 512) (v : Fin 2048), a (ix3 0 j v) = adj (ix3 b (chunkNode k j) v))
    (hc : ∀ (h : Fin 64) (j : Fin 512), cols (ix2 h j) = o b (chunkNode k j) h) (h : Fin 64) (v : Fin 2048) :
    accumulate a acc cols (ix2 h v) = acc (ix2 h v) + aggChunk adj o b k v h := by
  rw [accumulate_apply]
  unfold aggChunk
  exact congrArg (acc (ix2 h v) + ·) (Finset.sum_congr rfl fun j _ => by rw [ha j v, hc h j])

/-- The accumulator after chunks 0 … k of a graph, from the reset. -/
def aggPartial (adj : Adj) (o : Hid) (b : Fin 4) (k : Fin 4) (v : Fin 2048) (h : Fin 64) : EReal :=
  match k with
  | 0 => zeroW + aggChunk adj o b 0 v h
  | 1 => (zeroW + aggChunk adj o b 0 v h) + aggChunk adj o b 1 v h
  | 2 => ((zeroW + aggChunk adj o b 0 v h) + aggChunk adj o b 1 v h) + aggChunk adj o b 2 v h
  | 3 => (((zeroW + aggChunk adj o b 0 v h) + aggChunk adj o b 1 v h) + aggChunk adj o b 2 v h) + aggChunk adj o b 3 v h

theorem aggPartial_zero (adj : Adj) (o : Hid) (b : Fin 4) (v : Fin 2048) (h : Fin 64) :
    aggPartial adj o b 0 v h = zeroW + aggChunk adj o b 0 v h := rfl
theorem aggPartial_one (adj : Adj) (o : Hid) (b : Fin 4) (v : Fin 2048) (h : Fin 64) :
    aggPartial adj o b 1 v h = aggPartial adj o b 0 v h + aggChunk adj o b 1 v h := rfl
theorem aggPartial_two (adj : Adj) (o : Hid) (b : Fin 4) (v : Fin 2048) (h : Fin 64) :
    aggPartial adj o b 2 v h = aggPartial adj o b 1 v h + aggChunk adj o b 2 v h := rfl
theorem aggPartial_three (adj : Adj) (o : Hid) (b : Fin 4) (v : Fin 2048) (h : Fin 64) :
    aggPartial adj o b 3 v h = aggPartial adj o b 2 v h + aggChunk adj o b 3 v h := rfl

/-- After the last chunk the accumulator holds the neighbour sum. -/
theorem aggPartial_last (adj : Adj) (o : Hid) (b : Fin 4) (v : Fin 2048) (h : Fin 64) :
    aggPartial adj o b 3 v h = agg adj o b v h := (agg_eq_chunks adj o b v h).symm

/-- Four points from the reset, chunk by chunk, leave the neighbour sum. -/
theorem accumulate_four (adj : Adj) (o : Hid) (b : Fin 4)
    (a0 a1 a2 a3 : Vec Ideal S1x512x2048 .f32) (c0 c1 c2 c3 : Vec Ideal S64x512 .bf16)
    (ha0 : ∀ (j : Fin 512) (v : Fin 2048), a0 (ix3 0 j v) = adj (ix3 b (chunkNode 0 j) v))
    (ha1 : ∀ (j : Fin 512) (v : Fin 2048), a1 (ix3 0 j v) = adj (ix3 b (chunkNode 1 j) v))
    (ha2 : ∀ (j : Fin 512) (v : Fin 2048), a2 (ix3 0 j v) = adj (ix3 b (chunkNode 2 j) v))
    (ha3 : ∀ (j : Fin 512) (v : Fin 2048), a3 (ix3 0 j v) = adj (ix3 b (chunkNode 3 j) v))
    (hc0 : ∀ (h : Fin 64) (j : Fin 512), c0 (ix2 h j) = o b (chunkNode 0 j) h)
    (hc1 : ∀ (h : Fin 64) (j : Fin 512), c1 (ix2 h j) = o b (chunkNode 1 j) h)
    (hc2 : ∀ (h : Fin 64) (j : Fin 512), c2 (ix2 h j) = o b (chunkNode 2 j) h)
    (hc3 : ∀ (h : Fin 64) (j : Fin 512), c3 (ix2 h j) = o b (chunkNode 3 j) h) (h : Fin 64) (v : Fin 2048) :
    accumulate a3 (accumulate a2 (accumulate a1 (accumulate a0 (accumulatorReset (F := Ideal)) c0) c1) c2) c3 (ix2 h v)
      = agg adj o b v h := by
  rw [agg_eq_chunks, accumulate_chunk adj o b 3 a3 _ c3 ha3 hc3, accumulate_chunk adj o b 2 a2 _ c2 ha2 hc2,
    accumulate_chunk adj o b 1 a1 _ c1 ha1 hc1, accumulate_chunk adj o b 0 a0 _ c0 ha0 hc0, accumulatorReset_apply]

end Cert.KernelIdeal.EncMath

end
-- ==== Proof.KValAcc.lean ====
/-
  The accumulator's closed form against the specification: the partial neighbour sums.

  The 512 columns a point's partial product uses are columns 512 (t % 4) … 512 (t % 4) + 511 of the narrow input layer,
  the source nodes of the point's chunk. So a point adds its chunk's part of the neighbour sum of the input layer, and by
  induction over the points the accumulator after point t holds the parts of chunks 0 … t % 4 of t's graph added in
  order from the zero word: a first chunk restarts from the reset, a later chunk of the same graph continues. After a
  last chunk this is the whole neighbour sum.
-/
import proofs.«119515_g77850577207767_cont_9to1c4b_578_27_alg».proof.Proof.KValSpec
import proofs.«119515_g77850577207767_cont_9to1c4b_578_27_alg».proof.Proof.KMathAcc

noncomputable section

open scoped BigOperators

namespace Cert.KernelIdeal.EncMath

open Idealize.ShloMosaic Idealize.ShloMosaic.TcCoe Idealize.SL.Sem Idealize.ShloMosaic.ValueIdx
open Cert.KernelIdeal Cert.KernelIdeal.Gen Cert.KernelIdeal.Enc Cert.KernelIdeal.Body Cert.GraphEncoder

/-- The grid's second coordinate is the chunk. -/
theorem coords_chunk : ∀ t : Fin cfg0.N, ((grid0.coords t) (1 : Fin 2)).val = t.val % 4 :=
  (by decide +kernel : ∀ t : Fin grid0.N, _)

/-- The columns a point's partial product uses: the point's chunk of 512 source nodes. -/
theorem colsAt_apply {F : FTy → Type} [FloatOps F] (t : Fin cfg0.N) (s2 : Vec F S64x2048 .bf16) (h : Fin 64) (j : Fin 512) :
    colsAt (grid0.coords t) s2 (ix2 h j)
      = s2 (ix2 h (⟨512 * (t.val % 4) + j.val, by have := j.isLt; have := Nat.mod_lt t.val (by decide : 4 > 0); omega⟩ : Fin 2048)) := by
  have e := k0_off2_eq (grid0.coords t)
  have hc := coords_chunk t
  unfold colsAt
  show s2 _ = s2 _
  congr 1
  funext a
  apply Fin.ext
  match a with
  | ⟨0, _⟩ =>
    show k0_off2 (grid0.coords t) 0 + 1 * h.val = h.val
    rw [e]
    show 0 + 1 * h.val = h.val
    omega
  | ⟨1, _⟩ =>
    show k0_off2 (grid0.coords t) 1 + 1 * j.val = 512 * (t.val % 4) + j.val
    rw [e]
    show 512 * ((grid0.coords t) 1).val + 1 * j.val = 512 * (t.val % 4) + j.val
    rw [hc]
    omega

variable (m : (ℓ : Loc nD τ sig) → Buf (Elt Ideal) ℓ)

/-- A point adds its chunk's part of the neighbour sum of the input layer. -/
theorem accumulate_point (c : Dev nD) (t : Fin cfg0.N) (acc : Vec Ideal S64x2048 .f32) (h : Fin 64) (v : Fin 2048) :
    accumulate (iblk m c 0 t) acc (colsAt (grid0.coords t) (narrowAt m c t)) (ix2 h v)
      = acc (ix2 h v)
        + aggChunk (adjOf m c) (lin0 (paramsOf m c) (featOf m c)) (pointGraph t) (pointChunk t) v h :=
  accumulate_chunk (adjOf m c) (lin0 (paramsOf m c) (featOf m c)) (pointGraph t) (pointChunk t)
    (iblk m c 0 t) acc (colsAt (grid0.coords t) (narrowAt m c t))
    (fun j v' => iblk0_apply m c t j v')
    (fun h' j => (colsAt_apply t (narrowAt m c t) h' j).trans (narrowAt_spec m c t h' _)) h v

/-- The accumulator after point `n`: chunks 0 … n % 4 of its graph, from the zero word. -/
theorem accAt_spec (c : Dev nD) (n : ℕ) (hn : n < cfg0.N) (h : Fin 64) (v : Fin 2048) :
    accAt m c n hn (ix2 h v)
      = aggPartial (adjOf m c) (lin0 (paramsOf m c) (featOf m c)) (pointGraph ⟨n, hn⟩) (pointChunk ⟨n, hn⟩) v h := by
  induction n with
  | zero =>
    refine (congrFun (accAt_first m c ⟨0, hn⟩ rfl) (ix2 h v)).trans ?_
    refine (accumulate_point m c ⟨0, hn⟩ _ h v).trans ?_
    rw [accumulatorReset_apply]
    rfl
  | succ n ih =>
    by_cases h0 : (n + 1) % 4 = 0
    · refine (congrFun (accAt_first m c ⟨n + 1, hn⟩ h0) (ix2 h v)).trans ?_
      refine (accumulate_point m c ⟨n + 1, hn⟩ _ h v).trans ?_
      rw [accumulatorReset_apply]
      have e : pointChunk ⟨n + 1, hn⟩ = 0 := Fin.ext h0
      rw [e]
      rfl
    · rw [accAt_later m c n hn h0]
      refine (accumulate_point m c ⟨n + 1, hn⟩ _ h v).trans ?_
      rw [ih (Nat.lt_of_succ_lt hn)]
      have eg : pointGraph ⟨n + 1, hn⟩ = pointGraph ⟨n, Nat.lt_of_succ_lt hn⟩ :=
        Fin.ext (by show (n + 1) / 4 = n / 4; omega)
      rw [eg]
      obtain (h1 | h1 | h1) : n % 4 = 0 ∨ n % 4 = 1 ∨ n % 4 = 2 := by omega
      · have e0 : pointChunk ⟨n, Nat.lt_of_succ_lt hn⟩ = 0 := Fin.ext h1
        have e1 : pointChunk ⟨n + 1, hn⟩ = 1 := Fin.ext (by show (n + 1) % 4 = 1; omega)
        rw [e0, e1]
        rfl
      · have e0 : pointChunk ⟨n, Nat.lt_of_succ_lt hn⟩ = 1 := Fin.ext h1
        have e1 : pointChunk ⟨n + 1, hn⟩ = 2 := Fin.ext (by show (n + 1) % 4 = 2; omega)
        rw [e0, e1]
        rfl
      · have e0 : pointChunk ⟨n, Nat.lt_of_succ_lt hn⟩ = 2 := Fin.ext h1
        have e1 : pointChunk ⟨n + 1, hn⟩ = 3 := Fin.ext (by show (n + 1) % 4 = 3; omega)
        rw [e0, e1]
        rfl

/-- The same at a point. -/
theorem accAt_point (c : Dev nD) (t : Fin cfg0.N) (h : Fin 64) (v : Fin 2048) :
    accAt m c t.val t.isLt (ix2 h v)
      = aggPartial (adjOf m c) (lin0 (paramsOf m c) (featOf m c)) (pointGraph t) (pointChunk t) v h :=
  accAt_spec m c t.val t.isLt h v

/-- After a graph's last chunk the accumulator holds the neighbour sum of the input layer. -/
theorem accAt_last (c : Dev nD) (t : Fin cfg0.N) (h3 : t.val % 4 = 3) (h : Fin 64) (v : Fin 2048) :
    accAt m c t.val t.isLt (ix2 h v) = agg (adjOf m c) (lin0 (paramsOf m c) (featOf m c)) (pointGraph t) v h := by
  rw [accAt_point m c t h v]
  have e3 : pointChunk t = 3 := Fin.ext h3
  rw [e3]
  exact aggPartial_last _ _ _ v h

end Cert.KernelIdeal.EncMath

end
-- ==== Proof.KValOut.lean ====
/-
  The output block's closed form is the encoder's value.

  At a graph's last chunk the stored block is computed from the input layer's closed form (the specification's input
  layer), the finished accumulator (its neighbour sum), the full bank (the graph's adjacency), the whole weight arrays
  and the bias vectors as columns: two steps of the specification from the input layer.
-/
import proofs.«119515_g77850577207767_cont_9to1c4b_578_27_alg».proof.Proof.KValAcc

noncomputable section

open scoped BigOperators

namespace Cert.KernelIdeal.EncMath

open Idealize.ShloMosaic Idealize.ShloMosaic.TcCoe Idealize.SL.Sem Idealize.ShloMosaic.ValueIdx
open Cert.KernelIdeal Cert.KernelIdeal.Gen Cert.KernelIdeal.Enc Cert.KernelIdeal.Body Cert.GraphEncoder

variable (m : (ℓ : Loc nD τ sig) → Buf (Elt Ideal) ℓ)

/-- The output block stored at a graph's last chunk is the encoder's value on that graph. -/
theorem outAt_spec (c : Dev nD) (t : Fin cfg0.N) (h3 : t.val % 4 = 3) (h : Fin 64) (v : Fin 2048) :
    outAt m c t (ix3 (0 : Fin 1) h v)
      = encode (paramsOf m c) (adjOf m c) (featOf m c) (pointGraph t) v h := by
  unfold outAt
  exact finishBlock_encode (paramsOf m c) (adjOf m c) (featOf m c) (pointGraph t)
    (layerAt m c t) (accAt m c t.val t.isLt) (bankFull m c t)
    (iblk m c 4 t) (iblk m c 5 t) (iblk m c 6 t) (iblk m c 8 t) (iblk m c 7 t) (iblk m c 9 t)
    (fun h' v' => layerAt_spec m c t h' v') (fun h' v' => accAt_last m c t h3 h' v')
    (fun u v' => bankFull_spec m c t u v')
    (iblk4_eq m c t) (fun d => iblk5_apply m c t d) (iblk6_eq m c t) (fun j => iblk8_apply m c t j)
    (iblk7_eq m c t) (fun j => iblk9_apply m c t j) h v

end Cert.KernelIdeal.EncMath

end
-- ==== Proof.RefStageIdx.lean ====
/-
  Rows and coordinates.

  The arrays of the plain formulation have one row per (graph, node): row b * 2048 + v is node v of graph b. This
  file lays a hidden state out as such an array and identifies, at an index given by its coordinates, the index
  functions through which the operations of the plain formulation read their operands: regrouping the rows by graph
  sends row r, column h to graph r / 2048, node r % 2048, column h, and back; a matrix product reads its left operand
  at the same row and its right operand at the same column; a transposed weight is read with its coordinates
  exchanged; a bias broadcast along the rows is read at the column; the three column blocks of a 192-column array
  start at columns 0, 64 and 128.
-/
import proofs.«119515_g77850577207767_cont_9to1c4b_578_27_alg».proof.Proof.Gen.ReferenceIdeal.Read
import proofs.«119515_g77850577207767_cont_9to1c4b_578_27_alg».proof.Proof.EncoderSpec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo
open Cert.GraphEncoder Idealize.ShloMosaic.ValueIdx

/-- A hidden state laid out with one row per (graph, node). -/
def flat (o : Hid) : (⟨S8192x64, .f32⟩ : BufTy).Contents (Elt Ideal) :=
  fun i => o (rowGraph (i 0)) (rowNode (i 0)) (i 1)

/-- The row of node v of graph b. -/
def rowOf (b : Fin 4) (v : Fin 2048) : Fin 8192 :=
  ⟨b.val * 2048 + v.val, by have := b.isLt; have := v.isLt; omega⟩

theorem rowGraph_rowOf (b : Fin 4) (v : Fin 2048) : rowGraph (rowOf b v) = b :=
  Fin.ext (by show (b.val * 2048 + v.val) / 2048 = b.val; have := v.isLt; omega)

theorem rowNode_rowOf (b : Fin 4) (v : Fin 2048) : rowNode (rowOf b v) = v :=
  Fin.ext (by show (b.val * 2048 + v.val) % 2048 = v.val; have := v.isLt; omega)

theorem flat_ix2 (o : Hid) (r : Fin 8192) (h : Fin 64) : flat o (ix2 r h) = o (rowGraph r) (rowNode r) h := rfl

theorem flat_rowOf (o : Hid) (b : Fin 4) (v : Fin 2048) (h : Fin 64) : flat o (ix2 (rowOf b v) h) = o b v h := by
  rw [flat_ix2, rowGraph_rowOf, rowNode_rowOf]

/-! ## Regrouping the rows -/

/-- Row r, column h of the flat array is graph r / 2048, node r % 2048, column h of the grouped one. -/
theorem idx9_ix2 (r : Fin 8192) (h : Fin 64) : idx_main_v9 (ix2 r h) = ix3 (rowGraph r) (rowNode r) h :=
  funext fun a => Fin.ext (by
    have hr := r.isLt; have hh := h.isLt
    match a with
    | ⟨0, _⟩ => show (r.val * 64 + h.val) / 131072 = r.val / 2048; omega
    | ⟨1, _⟩ => show (r.val * 64 + h.val) / 64 % 2048 = r.val % 2048; omega
    | ⟨2, _⟩ => show (r.val * 64 + h.val) % 64 = h.val; omega)

/-- Graph b, node u, column h of the grouped array is row b * 2048 + u, column h of the flat one. -/
theorem idx7_ix3 (b : Fin 4) (u : Fin 2048) (h : Fin 64) : idx_main_v7 (ix3 b u h) = ix2 (rowOf b u) h :=
  funext fun a => Fin.ext (by
    have hb := b.isLt; have hu := u.isLt; have hh := h.isLt
    match a with
    | ⟨0, _⟩ => show ((b.val * 2048 + u.val) * 64 + h.val) / 64 = b.val * 2048 + u.val; omega
    | ⟨1, _⟩ => show ((b.val * 2048 + u.val) * 64 + h.val) % 64 = h.val; omega)

/-- Row r, feature f of the flat node features is graph r / 2048, node r % 2048, feature f. -/
theorem idx0_ix2 (r : Fin 8192) (f : Fin 128) : idx_main_v0 (ix2 r f) = ix3 (rowGraph r) (rowNode r) f :=
  funext fun a => Fin.ext (by
    have hr := r.isLt; have hf := f.isLt
    match a with
    | ⟨0, _⟩ => show (r.val * 128 + f.val) / 262144 = r.val / 2048; omega
    | ⟨1, _⟩ => show (r.val * 128 + f.val) / 128 % 2048 = r.val % 2048; omega
    | ⟨2, _⟩ => show (r.val * 128 + f.val) % 128 = f.val; omega)

/-! ## The products -/

theorem lidx8_ix3 (b : Fin 4) (v : Fin 2048) (h : Fin 64) (k : Fin 2048) : lidx_main_v8 (ix3 b v h) k = ix3 b k v :=
  funext fun a => Fin.ext (by match a with | ⟨0, _⟩ => rfl | ⟨1, _⟩ => rfl | ⟨2, _⟩ => rfl)
theorem ridx8_ix3 (b : Fin 4) (v : Fin 2048) (h : Fin 64) (k : Fin 2048) : ridx_main_v8 (ix3 b v h) k = ix3 b k h :=
  funext fun a => Fin.ext (by match a with | ⟨0, _⟩ => rfl | ⟨1, _⟩ => rfl | ⟨2, _⟩ => rfl)

theorem lidx2_ix2 (r : Fin 8192) (h : Fin 64) (k : Fin 128) : lidx_main_v2 (ix2 r h) k = ix2 r k :=
  funext fun a => Fin.ext (by match a with | ⟨0, _⟩ => rfl | ⟨1, _⟩ => rfl)
theorem ridx2_ix2 (r : Fin 8192) (h : Fin 64) (k : Fin 128) : idx_main_v1 (ridx_main_v2 (ix2 r h) k) = ix2 h k :=
  funext fun a => Fin.ext (by match a with | ⟨0, _⟩ => rfl | ⟨1, _⟩ => rfl)

theorem lidx12_ix2 (r : Fin 8192) (d : Fin 64) (k : Fin 64) : lidx_main_v12 (ix2 r d) k = ix2 r k :=
  funext fun a => Fin.ext (by match a with | ⟨0, _⟩ => rfl | ⟨1, _⟩ => rfl)
theorem ridx12_ix2 (r : Fin 8192) (d : Fin 64) (k : Fin 64) : idx_main_v11 (ridx_main_v12 (ix2 r d) k) = ix2 d k :=
  funext fun a => Fin.ext (by match a with | ⟨0, _⟩ => rfl | ⟨1, _⟩ => rfl)

theorem lidx18_ix2 (r : Fin 8192) (j : Fin 192) (k : Fin 64) : lidx_main_v18 (ix2 r j) k = ix2 r k :=
  funext fun a => Fin.ext (by match a with | ⟨0, _⟩ => rfl | ⟨1, _⟩ => rfl)
theorem ridx18_ix2 (r : Fin 8192) (j : Fin 192) (k : Fin 64) : idx_main_v17 (ridx_main_v18 (ix2 r j) k) = ix2 j k :=
  funext fun a => Fin.ext (by match a with | ⟨0, _⟩ => rfl | ⟨1, _⟩ => rfl)

/-! ## The biases and the column blocks -/

theorem bias64_ix2 (r : Fin 8192) (h : Fin 64) : idx_main_v3 (idx_main_v4 (ix2 r h)) = ix1 h :=
  funext fun a => Fin.ext (by match a with | ⟨0, _⟩ => rfl)
theorem bias64'_ix2 (r : Fin 8192) (h : Fin 64) : idx_main_v13 (idx_main_v14 (ix2 r h)) = ix1 h :=
  funext fun a => Fin.ext (by match a with | ⟨0, _⟩ => rfl)
theorem bias192_ix2 (r : Fin 8192) (j : Fin 192) : idx_main_v19 (idx_main_v20 (ix2 r j)) = ix1 j :=
  funext fun a => Fin.ext (by match a with | ⟨0, _⟩ => rfl)

theorem idx27_ix2 (r : Fin 8192) (h : Fin 64) : idx_main_v27 (ix2 r h) = ix2 r (colR h) :=
  funext fun a => Fin.ext (by match a with | ⟨0, _⟩ => rfl | ⟨1, _⟩ => rfl)
theorem idx28_ix2 (r : Fin 8192) (h : Fin 64) : idx_main_v28 (ix2 r h) = ix2 r (colZ h) :=
  funext fun a => Fin.ext (by match a with | ⟨0, _⟩ => rfl | ⟨1, _⟩ => rfl)
theorem idx29_ix2 (r : Fin 8192) (h : Fin 64) : idx_main_v29 (ix2 r h) = ix2 r (colN h) :=
  funext fun a => Fin.ext (by match a with | ⟨0, _⟩ => rfl | ⟨1, _⟩ => rfl)

end Cert.ReferenceIdeal.RefValue

end
-- ==== Proof.RefStageOps.lean ====
/-
  The operations of one recurrent step of the plain formulation, as functions of the state array.

  A state is an array of 8192 rows (one per graph and node) and 64 columns. One step applies to it, in order:
  the neighbour sum (regroup the rows by graph, multiply each graph's adjacency matrix in, flatten again), the
  aggregation layer, the two projections onto 192 columns, and the gates. The plain formulation performs this
  step twice, on the input layer's result and then on the first step's result; written once as a function of the
  state, both occurrences are instances of it by unfolding definitions.

  The second half of this file reads each operation whose operand is the state at an index: a regrouping of rows
  reads the operand at the index with the same row-major position, a matrix product is the sum over the contracted
  axis, a column slice reads the operand at the shifted column.
-/
import proofs.«119515_g77850577207767_cont_9to1c4b_578_27_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo

/-- A state array: 8192 rows, 64 columns. -/
abbrev Rows : Type := (⟨S8192x64, .f32⟩ : BufTy).Contents (Elt Ideal)
/-- A projected array: 8192 rows, 192 columns (three gates of 64). -/
abbrev Rows3 : Type := (⟨S8192x192, .f32⟩ : BufTy).Contents (Elt Ideal)
/-- A state array with its rows grouped by graph: 4 graphs, 2048 nodes, 64 columns. -/
abbrev Grouped : Type := (⟨S4x2048x64, .f32⟩ : BufTy).Contents (Elt Ideal)

/-! ## One step as a function of the state -/

/-- The neighbour sum: group the rows by graph, multiply by the adjacency arrays, flatten. -/
def aggV (x0 : (⟨S4x2048x2048, .f32⟩ : BufTy).Contents (Elt Ideal)) (s : Rows) : Rows :=
  shapeCast _ (Host.dotGeneral (F := Ideal) (φ₁ := .f32) (φ₂ := .f32) dot_S4x2048x2048_S4x2048x64_S4x2048x64_1_1_2_2_0_0 none x0
    (shapeCast _ s shapeCasts_S8192x64_S4x2048x64)) shapeCasts_S4x2048x64_S8192x64

/-- The aggregation layer: the rectifier of (s + aggV s) times the transposed weight, plus the bias. -/
def ginV (x0 : (⟨S4x2048x2048, .f32⟩ : BufTy).Contents (Elt Ideal)) (x4 : (⟨S64x64, .f32⟩ : BufTy).Contents (Elt Ideal))
    (x5 : (⟨S64, .f32⟩ : BufTy).Contents (Elt Ideal)) (s : Rows) : Rows :=
  maximumf (F := Ideal) (φ := .f32) (addf (F := Ideal) (φ := .f32) (Host.dotGeneral (F := Ideal) (φ₁ := .f32) (φ₂ := .f32) dot_S8192x64_S64x64_S8192x64_1_0_0_1_n_n none (addf (F := Ideal) (φ := .f32) s (aggV x0 s))
    (val_main_v11 (F := Ideal) x4)) (val_main_v14 (F := Ideal) x5)) (val_main_call1_v0 (F := Ideal))

/-- A projection onto the 192 gate columns: m times the transposed weight, plus the bias. -/
def projV (w : (⟨S192x64, .f32⟩ : BufTy).Contents (Elt Ideal)) (b : (⟨S192, .f32⟩ : BufTy).Contents (Elt Ideal))
    (m : Rows) : Rows3 :=
  addf (F := Ideal) (φ := .f32) (Host.dotGeneral (F := Ideal) (φ₁ := .f32) (φ₂ := .f32) dot_S8192x64_S64x192_S8192x192_1_0_0_1_n_n none m (val_main_v17 (F := Ideal) w))
    (val_main_v20 (F := Ideal) b)

/-- The three column blocks of a projected array. -/
def colsR (g : Rows3) : Rows := extractStridedSlice S8192x64 ![0, 0] g slices_S8192x192_S8192x64_0_0
def colsZ (g : Rows3) : Rows := extractStridedSlice S8192x64 ![0, 64] g slices_S8192x192_S8192x64_0_64
def colsN (g : Rows3) : Rows := extractStridedSlice S8192x64 ![0, 128] g slices_S8192x192_S8192x64_0_128

/-- A gate: one over one plus the exponential of minus the sum of two arrays. -/
def gateV (a b : Rows) : Rows :=
  Host.divf (F := Ideal) (φ := .f32) (val_main_v38 (F := Ideal)) (addf (F := Ideal) (φ := .f32) (val_main_v36 (F := Ideal)) (Host.exp (F := Ideal) (φ := .f32) (Host.negf (F := Ideal) (φ := .f32) (addf (F := Ideal) (φ := .f32) a b))))

/-- The candidate state: the hyperbolic tangent of the third block of gi plus the reset gate times the third block of gh. -/
def candV (gi gh : Rows3) : Rows :=
  Host.tanh (F := Ideal) (φ := .f32) (addf (F := Ideal) (φ := .f32) (colsN gi) (mulf (F := Ideal) (φ := .f32) (gateV (colsR gi) (colsR gh)) (colsN gh)))

/-- The cell: (1 - z) * n + z * s. -/
def gruV (gi gh : Rows3) (s : Rows) : Rows :=
  addf (F := Ideal) (φ := .f32) (mulf (F := Ideal) (φ := .f32) (subf (F := Ideal) (φ := .f32) (val_main_v50 (F := Ideal)) (gateV (colsZ gi) (colsZ gh))) (candV gi gh))
    (mulf (F := Ideal) (φ := .f32) (gateV (colsZ gi) (colsZ gh)) s)

/-- One step. -/
def stepV (x0 : (⟨S4x2048x2048, .f32⟩ : BufTy).Contents (Elt Ideal)) (x4 : (⟨S64x64, .f32⟩ : BufTy).Contents (Elt Ideal))
    (x5 : (⟨S64, .f32⟩ : BufTy).Contents (Elt Ideal)) (x6 x7 : (⟨S192x64, .f32⟩ : BufTy).Contents (Elt Ideal))
    (x8 x9 : (⟨S192, .f32⟩ : BufTy).Contents (Elt Ideal)) (s : Rows) : Rows :=
  gruV (projV x6 x8 (ginV x0 x4 x5 s)) (projV x7 x9 s) s

/-! ## The operations on a state, read at an index -/

/-- Grouping the rows by graph keeps the row-major position. -/
theorem group_apply (y : Rows) (i : S4x2048x64.Idx) :
    (shapeCast _ y shapeCasts_S8192x64_S4x2048x64 : Grouped) i = y (idx_main_v7 i) :=
  shapeCast_apply y shapeCasts_S8192x64_S4x2048x64 i (idx_main_v7 i)
    (by rewrite [Shape.rowMajor_val_two, Shape.rowMajor_val_three]; have h0 : (i 0).val < 4 := (i 0).isLt; have h1 : (i 1).val < 2048 := (i 1).isLt; have h2 : (i 2).val < 64 := (i 2).isLt; show (((i 0).val * 2048 + (i 1).val) * 64 + (i 2).val) / 64 * 64 + (((i 0).val * 2048 + (i 1).val) * 64 + (i 2).val) % 64 = ((i 0).val * 2048 + (i 1).val) * 64 + (i 2).val; omega)

/-- Flattening the groups keeps the row-major position. -/
theorem ungroup_apply (y : Grouped) (i : S8192x64.Idx) :
    (shapeCast _ y shapeCasts_S4x2048x64_S8192x64 : Rows) i = y (idx_main_v9 i) :=
  shapeCast_apply y shapeCasts_S4x2048x64_S8192x64 i (idx_main_v9 i)
    (by rewrite [Shape.rowMajor_val_three, Shape.rowMajor_val_two]; have h0 : (i 0).val < 8192 := (i 0).isLt; have h1 : (i 1).val < 64 := (i 1).isLt; show (((i 0).val * 64 + (i 1).val) / 131072 * 2048 + ((i 0).val * 64 + (i 1).val) / 64 % 2048) * 64 + ((i 0).val * 64 + (i 1).val) % 64 = (i 0).val * 64 + (i 1).val; omega)

/-- The batched product with the adjacency arrays: per graph, the sum over the source node. -/
theorem adjDot_apply (x0 : (⟨S4x2048x2048, .f32⟩ : BufTy).Contents (Elt Ideal)) (y0 : Grouped) (i : S4x2048x64.Idx) :
    (Host.dotGeneral (F := Ideal) (φ₁ := .f32) (φ₂ := .f32) dot_S4x2048x2048_S4x2048x64_S4x2048x64_1_1_2_2_0_0 none x0 y0 : Grouped) i
      = ∑ k : Fin 2048, x0 (lidx_main_v8 i k) * y0 (ridx_main_v8 i k) := by
  simp only [Host.dotGeneral]
  rw [Ideal.dotGeneral_apply, ← Equiv.sum_comp (ValueIdx.contrEquiv1 dot_S4x2048x2048_S4x2048x64_S4x2048x64_1_1_2_2_0_0 2048 rfl rfl).symm]
  refine Finset.sum_congr rfl fun k _ => ?_
  have hk := ValueIdx.contrEquiv1_symm_val dot_S4x2048x2048_S4x2048x64_S4x2048x64_1_1_2_2_0_0 2048 rfl rfl k
  have el : dot_S4x2048x2048_S4x2048x64_S4x2048x64_1_1_2_2_0_0.lhsIdx i ((ValueIdx.contrEquiv1 dot_S4x2048x2048_S4x2048x64_S4x2048x64_1_1_2_2_0_0 2048 rfl rfl).symm k) = lidx_main_v8 i k := funext fun a => Fin.ext (by
    match a with
    | ⟨0, _⟩ => exact lhs_main_v8_0 _ _
    | ⟨1, _⟩ => exact (lhs_main_v8_1 _ _).trans hk
    | ⟨2, _⟩ => exact lhs_main_v8_2 _ _)
  have er : dot_S4x2048x2048_S4x2048x64_S4x2048x64_1_1_2_2_0_0.rhsIdx i ((ValueIdx.contrEquiv1 dot_S4x2048x2048_S4x2048x64_S4x2048x64_1_1_2_2_0_0 2048 rfl rfl).symm k) = ridx_main_v8 i k := funext fun a => Fin.ext (by
    match a with
    | ⟨0, _⟩ => exact rhs_main_v8_0 _ _
    | ⟨1, _⟩ => exact (rhs_main_v8_1 _ _).trans hk
    | ⟨2, _⟩ => exact rhs_main_v8_2 _ _)
  rw [el, er]

/-- A product with a 64 by 64 matrix: the sum over the 64 columns of the left operand. -/
theorem dot64_apply (y0 : Rows) (y1 : (⟨S64x64, .f32⟩ : BufTy).Contents (Elt Ideal)) (i : S8192x64.Idx) :
    (Host.dotGeneral (F := Ideal) (φ₁ := .f32) (φ₂ := .f32) dot_S8192x64_S64x64_S8192x64_1_0_0_1_n_n none y0 y1 : Rows) i
      = ∑ k : Fin 64, y0 (lidx_main_v12 i k) * y1 (ridx_main_v12 i k) := by
  simp only [Host.dotGeneral]
  rw [Ideal.dotGeneral_apply, ← Equiv.sum_comp (ValueIdx.contrEquiv1 dot_S8192x64_S64x64_S8192x64_1_0_0_1_n_n 64 rfl rfl).symm]
  refine Finset.sum_congr rfl fun k _ => ?_
  have hk := ValueIdx.contrEquiv1_symm_val dot_S8192x64_S64x64_S8192x64_1_0_0_1_n_n 64 rfl rfl k
  have el : dot_S8192x64_S64x64_S8192x64_1_0_0_1_n_n.lhsIdx i ((ValueIdx.contrEquiv1 dot_S8192x64_S64x64_S8192x64_1_0_0_1_n_n 64 rfl rfl).symm k) = lidx_main_v12 i k := funext fun a => Fin.ext (by
    match a with
    | ⟨0, _⟩ => exact lhs_main_v12_0 _ _
    | ⟨1, _⟩ => exact (lhs_main_v12_1 _ _).trans hk)
  have er : dot_S8192x64_S64x64_S8192x64_1_0_0_1_n_n.rhsIdx i ((ValueIdx.contrEquiv1 dot_S8192x64_S64x64_S8192x64_1_0_0_1_n_n 64 rfl rfl).symm k) = ridx_main_v12 i k := funext fun a => Fin.ext (by
    match a with
    | ⟨0, _⟩ => exact (rhs_main_v12_0 _ _).trans hk
    | ⟨1, _⟩ => exact rhs_main_v12_1 _ _)
  rw [el, er]

/-- A product with a 64 by 192 matrix: the sum over the 64 columns of the left operand. -/
theorem dot192_apply (y0 : Rows) (y1 : (⟨S64x192, .f32⟩ : BufTy).Contents (Elt Ideal)) (i : S8192x192.Idx) :
    (Host.dotGeneral (F := Ideal) (φ₁ := .f32) (φ₂ := .f32) dot_S8192x64_S64x192_S8192x192_1_0_0_1_n_n none y0 y1 : Rows3) i
      = ∑ k : Fin 64, y0 (lidx_main_v18 i k) * y1 (ridx_main_v18 i k) := by
  simp only [Host.dotGeneral]
  rw [Ideal.dotGeneral_apply, ← Equiv.sum_comp (ValueIdx.contrEquiv1 dot_S8192x64_S64x192_S8192x192_1_0_0_1_n_n 64 rfl rfl).symm]
  refine Finset.sum_congr rfl fun k _ => ?_
  have hk := ValueIdx.contrEquiv1_symm_val dot_S8192x64_S64x192_S8192x192_1_0_0_1_n_n 64 rfl rfl k
  have el : dot_S8192x64_S64x192_S8192x192_1_0_0_1_n_n.lhsIdx i ((ValueIdx.contrEquiv1 dot_S8192x64_S64x192_S8192x192_1_0_0_1_n_n 64 rfl rfl).symm k) = lidx_main_v18 i k := funext fun a => Fin.ext (by
    match a with
    | ⟨0, _⟩ => exact lhs_main_v18_0 _ _
    | ⟨1, _⟩ => exact (lhs_main_v18_1 _ _).trans hk)
  have er : dot_S8192x64_S64x192_S8192x192_1_0_0_1_n_n.rhsIdx i ((ValueIdx.contrEquiv1 dot_S8192x64_S64x192_S8192x192_1_0_0_1_n_n 64 rfl rfl).symm k) = ridx_main_v18 i k := funext fun a => Fin.ext (by
    match a with
    | ⟨0, _⟩ => exact (rhs_main_v18_0 _ _).trans hk
    | ⟨1, _⟩ => exact rhs_main_v18_1 _ _)
  rw [el, er]

/-- The first, second and third block of 64 columns read the projected array at column h, 64 + h, 128 + h. -/
theorem colsR_apply (g : Rows3) (i : S8192x64.Idx) : colsR g i = g (idx_main_v27 i) :=
  extractStridedSlice_apply ![0, 0] g slices_S8192x192_S8192x64_0_0 i (idx_main_v27 i) (fun a => match a with
    | ⟨0, _⟩ => by show (i 0).val = 0 + (i 0).val; omega
    | ⟨1, _⟩ => by show (i 1).val = 0 + (i 1).val; omega)
theorem colsZ_apply (g : Rows3) (i : S8192x64.Idx) : colsZ g i = g (idx_main_v28 i) :=
  extractStridedSlice_apply ![0, 64] g slices_S8192x192_S8192x64_0_64 i (idx_main_v28 i) (fun a => match a with
    | ⟨0, _⟩ => by show (i 0).val = 0 + (i 0).val; omega
    | ⟨1, _⟩ => by show 64 + (i 1).val = 64 + (i 1).val; omega)
theorem colsN_apply (g : Rows3) (i : S8192x64.Idx) : colsN g i = g (idx_main_v29 i) :=
  extractStridedSlice_apply ![0, 128] g slices_S8192x192_S8192x64_0_128 i (idx_main_v29 i) (fun a => match a with
    | ⟨0, _⟩ => by show (i 0).val = 0 + (i 0).val; omega
    | ⟨1, _⟩ => by show 128 + (i 1).val = 128 + (i 1).val; omega)

/-! ## The two occurrences of the step in the plain formulation -/

/-- The first step's result is the step applied to the input layer's result. -/
theorem val_main_v54_eq_stepV (x0 : (⟨S4x2048x2048, .f32⟩ : BufTy).Contents (Elt Ideal))
    (x1 : (⟨S4x2048x128, .f32⟩ : BufTy).Contents (Elt Ideal)) (x2 : (⟨S64x128, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) (x6 x7 : (⟨S192x64, .f32⟩ : BufTy).Contents (Elt Ideal))
    (x8 x9 : (⟨S192, .f32⟩ : BufTy).Contents (Elt Ideal)) :
    val_main_v54 (F := Ideal) x0 x1 x2 x3 x4 x5 x6 x7 x8 x9
      = stepV x0 x4 x5 x6 x7 x8 x9 (val_main_v6 (F := Ideal) x1 x2 x3) := rfl

/-- The second step's result is the step applied to the first step's result. -/
theorem val_main_v102_eq_stepV (x0 : (⟨S4x2048x2048, .f32⟩ : BufTy).Contents (Elt Ideal))
    (x1 : (⟨S4x2048x128, .f32⟩ : BufTy).Contents (Elt Ideal)) (x2 : (⟨S64x128, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) (x6 x7 : (⟨S192x64, .f32⟩ : BufTy).Contents (Elt Ideal))
    (x8 x9 : (⟨S192, .f32⟩ : BufTy).Contents (Elt Ideal)) :
    val_main_v102 (F := Ideal) x0 x1 x2 x3 x4 x5 x6 x7 x8 x9
      = stepV x0 x4 x5 x6 x7 x8 x9 (val_main_v54 (F := Ideal) x0 x1 x2 x3 x4 x5 x6 x7 x8 x9) := rfl

end Cert.ReferenceIdeal.RefValue

end
-- ==== Proof.RefStageAgg.lean ====
/-
  The neighbour sum and the aggregation layer of the plain formulation are those of the specification.

  Applied to a state laid out by rows, the regrouping by graph, the batched product with the adjacency arrays and
  the flattening give, at row r (graph r / 2048, node r % 2048) and column h, the sum over the source nodes u of
  adj b u v * o b u h: the regroupings cancel, since row b * 2048 + u is node u of graph b. The aggregation layer
  then reads its left operand at the same row and the transposed weight with exchanged coordinates.
-/
import proofs.«119515_g77850577207767_cont_9to1c4b_578_27_alg».proof.Proof.RefStageIdx
import proofs.«119515_g77850577207767_cont_9to1c4b_578_27_alg».proof.Proof.RefStageOps

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo
open Cert.GraphEncoder Idealize.ShloMosaic.ValueIdx

/-- The neighbour sum of a state laid out by rows is the laid-out sum over in-neighbours. -/
theorem aggV_flat (adj : Adj) (o : Hid) : aggV adj (flat o) = flat (agg adj o) := by
  funext i
  obtain ⟨r, h, rfl⟩ : ∃ (r : Fin 8192) (h : Fin 64), i = ix2 r h := ⟨i 0, i 1, eq_ix2 i⟩
  unfold aggV
  rw [ungroup_apply, idx9_ix2, adjDot_apply, flat_ix2]
  unfold agg
  refine Finset.sum_congr rfl fun k _ => ?_
  rw [lidx8_ix3, ridx8_ix3, group_apply, idx7_ix3, flat_rowOf]

/-- The aggregation layer of a state laid out by rows. -/
theorem ginV_flat (P : Params) (adj : Adj) (o : Hid) :
    ginV adj P.gin_w P.gin_b (flat o) = flat (gin P adj o) := by
  funext i
  obtain ⟨r, d, rfl⟩ : ∃ (r : Fin 8192) (d : Fin 64), i = ix2 r d := ⟨i 0, i 1, eq_ix2 i⟩
  unfold ginV
  rw [aggV_flat, maximumf_apply, addf_apply, dot64_apply, val_main_v14_apply, val_main_v13_apply, bias64'_ix2,
    val_main_call1_v0_apply, val_main_call1_cst_apply]
  simp only [addf_apply, lidx12_ix2, val_main_v11_apply, ridx12_ix2, flat_ix2]
  rfl

end Cert.ReferenceIdeal.RefValue

end
-- ==== Proof.RefStageGru.lean ====
/-
  The projections and the gated cell of the plain formulation, read at an index.

  A projection of a state laid out by rows is, at row r and column j of 192, the sum over the 64 features of the
  state's entry times the weight's entry (j, e), plus the bias at j. The plain formulation spells a gate as
  one over one plus the exponential of the negated argument, with the float word of one in both places: that word
  is the number one, so the gate is the logistic function. The three blocks of 64 columns of a projection are the
  columns h, 64 + h and 128 + h.
-/
import proofs.«119515_g77850577207767_cont_9to1c4b_578_27_alg».proof.Proof.RefStageIdx
import proofs.«119515_g77850577207767_cont_9to1c4b_578_27_alg».proof.Proof.RefStageOps
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo
open Cert.GraphEncoder Idealize.ShloMosaic.ValueIdx

/-- A projection of a laid-out state at row r, column j. -/
theorem projV_flat_apply (w : (⟨S192x64, .f32⟩ : BufTy).Contents (Elt Ideal)) (b : (⟨S192, .f32⟩ : BufTy).Contents (Elt Ideal))
    (m : Hid) (r : Fin 8192) (j : Fin 192) :
    projV w b (flat m) (ix2 r j)
      = ∑ e : Fin 64, m (rowGraph r) (rowNode r) e * w (ix2 j e) + b (ix1 j) := by
  unfold projV
  rw [addf_apply, dot192_apply, val_main_v20_apply, val_main_v19_apply, bias192_ix2]
  simp only [lidx18_ix2, val_main_v17_apply, ridx18_ix2, flat_ix2]

/-- The host's pointwise operations at an index. -/
theorem hostTanh_apply (v : Rows) (i : S8192x64.Idx) : Host.tanh (F := Ideal) (φ := .f32) v i = Ideal.tanh (v i) := rfl
theorem hostExp_apply (v : Rows) (i : S8192x64.Idx) : Host.exp (F := Ideal) (φ := .f32) v i = Ideal.exp (v i) := rfl
theorem hostNegf_apply (v : Rows) (i : S8192x64.Idx) : Host.negf (F := Ideal) (φ := .f32) v i = -(v i) := rfl
theorem hostDivf_apply (u v : Rows) (i : S8192x64.Idx) : Host.divf (F := Ideal) (φ := .f32) u v i = Ideal.div (u i) (v i) := rfl

/-- A gate is the logistic function of the sum of its two arguments. -/
theorem gateV_apply (a b : Rows) (i : S8192x64.Idx) : gateV a b i = Ideal.logistic (a i + b i) := by
  unfold gateV
  rw [hostDivf_apply, addf_apply, hostExp_apply, hostNegf_apply, addf_apply, val_main_v38_apply, val_main_cst_0_apply,
    val_main_v36_apply, val_main_cst_apply, Ideal.ofBits_def, Ideal.ofBits_one_f32]
  rfl

/-- The cell at row r, column h, from the projections at the three gate columns. -/
theorem gruV_apply (gi gh : Rows3) (s : Rows) (r : Fin 8192) (h : Fin 64) :
    gruV gi gh s (ix2 r h)
      = (oneW - Ideal.logistic (gi (ix2 r (colZ h)) + gh (ix2 r (colZ h))))
          * Ideal.tanh (gi (ix2 r (colN h))
              + Ideal.logistic (gi (ix2 r (colR h)) + gh (ix2 r (colR h))) * gh (ix2 r (colN h)))
        + Ideal.logistic (gi (ix2 r (colZ h)) + gh (ix2 r (colZ h))) * s (ix2 r h) := by
  unfold gruV candV
  rw [addf_apply, mulf_apply, subf_apply, mulf_apply, hostTanh_apply, addf_apply, mulf_apply]
  simp only [gateV_apply, colsR_apply, colsZ_apply, colsN_apply, idx27_ix2, idx28_ix2, idx29_ix2]
  rw [val_main_v50_apply, val_main_cst_3_apply]
  rfl

end Cert.ReferenceIdeal.RefValue

end
-- ==== Proof.RefStageLin0.lean ====
/-
  The input layer of the plain formulation is the specification's.

  The node features are flattened to one row per (graph, node); the product with the transposed weight reads the
  features at row r and the weight at (h, f); the bias is broadcast along the rows; the rectifier compares with
  the float word of zero.
-/
import proofs.«119515_g77850577207767_cont_9to1c4b_578_27_alg».proof.Proof.RefStageIdx

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo
open Cert.GraphEncoder Idealize.ShloMosaic.ValueIdx

/-- The input layer's result is the specification's input layer laid out by rows. -/
theorem lin0V_flat (P : Params) (x : Feat) :
    val_main_v6 (F := Ideal) x P.lin0_w P.lin0_b = flat (lin0 P x) := by
  funext i
  obtain ⟨r, h, rfl⟩ : ∃ (r : Fin 8192) (h : Fin 64), i = ix2 r h := ⟨i 0, i 1, eq_ix2 i⟩
  rw [val_main_v6_apply, val_main_v5_apply, val_main_v2_apply, val_main_v4_apply, val_main_v3_apply, bias64_ix2,
    val_main_call0_v0_apply, val_main_call0_cst_apply]
  simp only [val_main_v0_apply, val_main_v1_apply, lidx2_ix2, idx0_ix2, ridx2_ix2]
  rfl

end Cert.ReferenceIdeal.RefValue

end
-- ==== Proof.RefIsSpec.lean ====
/-
  The plain formulation computes the specification.

  One step of the plain formulation, applied to a hidden state laid out by rows, is the specification's step laid
  out by rows: the aggregation layer feeds the input projection, the state feeds the state projection, and the cell
  combines the three gate columns of both. The plain formulation is the input layer followed by this step twice,
  and the result array is the encoder's state laid out by rows.
-/
import proofs.«119515_g77850577207767_cont_9to1c4b_578_27_alg».proof.Proof.RefStageAgg
import proofs.«119515_g77850577207767_cont_9to1c4b_578_27_alg».proof.Proof.RefStageGru
import proofs.«119515_g77850577207767_cont_9to1c4b_578_27_alg».proof.Proof.RefStageLin0

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo
open Cert.GraphEncoder Idealize.ShloMosaic.ValueIdx

/-- One step on a state laid out by rows is the specification's step laid out by rows. -/
theorem stepV_flat (P : Params) (adj : Adj) (o : Hid) :
    stepV adj P.gin_w P.gin_b P.w_ih P.w_hh P.b_ih P.b_hh (flat o) = flat (step P adj o) := by
  funext i
  obtain ⟨r, h, rfl⟩ : ∃ (r : Fin 8192) (h : Fin 64), i = ix2 r h := ⟨i 0, i 1, eq_ix2 i⟩
  unfold stepV
  rw [ginV_flat, gruV_apply]
  simp only [projV_flat_apply]
  rfl

/-- The result of the plain formulation is the specification's result. -/
theorem result_eq (x0 : (⟨S4x2048x2048, .f32⟩ : BufTy).Contents (Elt Ideal))
    (x1 : (⟨S4x2048x128, .f32⟩ : BufTy).Contents (Elt Ideal)) (x2 : (⟨S64x128, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) (x6 x7 : (⟨S192x64, .f32⟩ : BufTy).Contents (Elt Ideal))
    (x8 x9 : (⟨S192, .f32⟩ : BufTy).Contents (Elt Ideal)) :
    Cert.ReferenceIdeal.Read.val_main_v102 (F := Ideal) x0 x1 x2 x3 x4 x5 x6 x7 x8 x9
      = Cert.GraphEncoder.result ⟨x2, x3, x4, x5, x6, x7, x8, x9⟩ x0 x1 := by
  rw [val_main_v102_eq_stepV, val_main_v54_eq_stepV]
  have h0 := lin0V_flat ⟨x2, x3, x4, x5, x6, x7, x8, x9⟩ x1
  have h1 := stepV_flat ⟨x2, x3, x4, x5, x6, x7, x8, x9⟩ x0
  dsimp only at h0 h1
  rw [h0, h1, h1]
  rfl

end Cert.ReferenceIdeal.RefValue

end
-- ==== Proof.KIAlgebraic.lean ====
/-
  The two programs compute one function: the assembly of the algebraic claim.

  The kernel's result array ends at the host tail applied to the region's output array; read at row r, column h that is
  the output block of graph r / 2048 stored at its last chunk, at feature h and node r % 2048, which is the encoder's
  value there: the specification's result array of the arguments as launched. The plain formulation's result is the same
  specification of its own arguments, which agree with the kernel's. Both runs leave their arguments unchanged.
-/
import proofs.«119515_g77850577207767_cont_9to1c4b_578_27_alg».proof.Defs
import proofs.«119515_g77850577207767_cont_9to1c4b_578_27_alg».proof.Proof.KValOut
import proofs.«119515_g77850577207767_cont_9to1c4b_578_27_alg».proof.Proof.RefIsSpec
import proofs.«119515_g77850577207767_cont_9to1c4b_578_27_alg».proof.Proof.Gen.ReferenceIdeal
import proofs.«119515_g77850577207767_cont_9to1c4b_578_27_alg».proof.Proof.Gen.ReferenceIdeal.Run
import proofs.«119515_g77850577207767_cont_9to1c4b_578_27_alg».proof.Proof.Gen.ReferenceIdeal.Read
import proofs.«119515_g77850577207767_cont_9to1c4b_578_27_alg».proof.Proof.Gen.Pre_finite_inputs

noncomputable section

namespace Cert.Proof.EncoderClaims

open Idealize.ShloMosaic Idealize.ShloMosaic.TcCoe Idealize.SL.Sem Idealize.ShloMosaic.ValueIdx
open Cert.KernelIdeal Cert.KernelIdeal.Gen Cert.KernelIdeal.Body Cert.KernelIdeal.EncMath Cert.GraphEncoder

/-- The kernel's frame run: every pipeline array at what the proof data computes, every other unscoped buffer at the host
    tail's value. -/
def KernelRun : Prop :=
  ∀ (m : (ℓ : Loc nD τ sig) → Buf (Elt Ideal) ℓ) (ρ : Dev nD → PrngReg),
    θ_run (defs (F := Ideal)) (onTc (τ := τ) (main (F := Ideal))) (s₀ m ρ)
      (Pipeline.FramePost cfgs (dats m) 0 (Pipeline.afterTail₀ cfgs (dats m) 0 (V0 m) [hostOps1]))

/-- The host tail read at an entry: row `r`, column `h` of the result is the output block of graph `r / 2048`, stored at
    its last chunk, at feature `h`, node `r % 2048`. -/
def TailRead : Prop :=
  ∀ (m : (ℓ : Loc nD τ sig) → Buf (Elt Ideal) ℓ) (c : Dev nD) (r : Fin 8192) (h : Fin 64),
    (Pipeline.afterTail₀ cfgs (dats m) 0 (V0 m) [hostOps1] c main_v6 : S8192x64.Idx → Elt Ideal .f32) (ix2 r h)
      = outAt m c ⟨4 * (r.val / 2048) + 3, by have := r.isLt; have h16 : cfg0.N = 16 := N_0; omega⟩
          (ix3 (0 : Fin 1) h (⟨r.val % 2048, Nat.mod_lt _ (by decide)⟩ : Fin 2048))

/-- The kernel's result array is the specification's result of the arguments as launched. -/
theorem kernel_result (htail : TailRead) (m : (ℓ : Loc nD τ sig) → Buf (Elt Ideal) ℓ) (c : Dev nD) :
    (Pipeline.afterTail₀ cfgs (dats m) 0 (V0 m) [hostOps1] c main_v6 : S8192x64.Idx → Elt Ideal .f32)
      = result (paramsOf m c) (adjOf m c) (featOf m c) := by
  funext i
  obtain ⟨r, h, rfl⟩ : ∃ (r : Fin 8192) (h : Fin 64), i = ix2 r h := ⟨i 0, i 1, eq_ix2 i⟩
  have hr := r.isLt
  rw [htail m c r h, outAt_spec m c _ (by show (4 * (r.val / 2048) + 3) % 4 = 3; omega)]
  unfold result
  have eg : pointGraph ⟨4 * (r.val / 2048) + 3, by have h16 : cfg0.N = 16 := N_0; omega⟩ = rowGraph r :=
    Fin.ext (by show (4 * (r.val / 2048) + 3) / 4 = r.val / 2048; omega)
  rw [eg]
  rfl

/-- The algebraic claim, from the kernel's frame run and the host tail's reading. -/
theorem algebraic_of (hrun : KernelRun) (htail : TailRead) : Cert.algebraic_KernelIdeal_ReferenceIdeal := by
  intro m ρ m' ρ' _ hagree
  refine ⟨fun c => (result (paramsOf m c) (adjOf m c) (featOf m c) : S8192x64.Idx → Elt Ideal .f32), ?_, ?_⟩
  · refine (θ_run (defs (F := Ideal)) _ _).mono (fun r h c => ?_) (hrun m ρ)
    exact ⟨((h c).2 main_v6 (Pipeline.mem_restRefs_of main_v6 (by decide) (by decide))).trans (kernel_result htail m c),
      ((h c).1 0).trans ((((dats m) 0 c).arrAt_in 0 rfl _).trans ((A_eq m c 0).trans (V_main_arg0 m c))),
      ((h c).1 1).trans ((((dats m) 0 c).arrAt_in 1 rfl _).trans ((A_eq m c 1).trans (V_main_arg1 m c))),
      ((h c).1 2).trans ((((dats m) 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans ((((dats m) 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans ((((dats m) 0 c).arrAt_in 6 rfl _).trans ((A_eq m c 6).trans (V_main_arg6 m c))),
      ((h c).1 7).trans ((((dats m) 0 c).arrAt_in 7 rfl _).trans ((A_eq m c 7).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩
  · refine (θ_run (Cert.ReferenceIdeal.defs (F := Ideal)) _ _).mono (fun _ h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v102_eq, Cert.ReferenceIdeal.RefValue.result_eq, a0, a1, a2, a3, a4, a5, a6, a7, a8, a9]
    rfl

/-- The plain formulation runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel runs and leaves its arguments unchanged, from its frame run. -/
theorem frame_pi_of (hrun : KernelRun) : Cert.frame_KernelIdeal := fun m ρ _ =>
  Cert.KernelIdeal.Gen.frame_of m ρ (dats m) (A_eq m) (hrun m ρ)

end Cert.Proof.EncoderClaims

end
-- ==== Proof.lean ====
/-
  The certificate of the graph encoder kernel against its plain reference.

  The kernel computes, for each of 4 graphs, an input layer of the node features and then two steps of
  "sum the state over in-neighbours, pass it through a dense layer, update the state by a gated recurrent cell",
  on a grid of (graph, chunk of 512 adjacency rows): it keeps the state transposed, [feature, node], stores the adjacency
  rows chunk by chunk into a bank, accumulates the first neighbour sum chunk by chunk, and at a graph's last chunk
  finishes both steps and writes the graph's output block; the host then transposes and flattens the blocks to
  one row per (graph, node). The reference is the same mathematics on [node, feature] arrays in one piece.

  Read over the extended reals both programs end with one function of the argument arrays, `Cert.GraphEncoder.result`:
  the reference by reading its operations one after the other; the kernel because each point's stores read back as
  the kernel's own arithmetic of the blocks and of what the earlier points left, because a sum over 2048 neighbours
  is the sum of its four chunks, and because a product does not depend on the order of its factors. No law used
  needs the inputs to be finite.

  The three frames: each program terminates without a fault and leaves its argument arrays unchanged. For the two
  kernels this is the pipeline's frame run over the body's run at every grid point, the four scratch buffers carried
  from point to point at contents the invariant describes; for the reference it is its run with the result dropped.
  The idealization rewrote no operation, so the kernel's sanctioned idealization is its own text read exactly.
-/
import proofs.«119515_g77850577207767_cont_9to1c4b_578_27_alg».proof.Defs
import proofs.«119515_g77850577207767_cont_9to1c4b_578_27_alg».proof.Proof.Gen.Kernel
import proofs.«119515_g77850577207767_cont_9to1c4b_578_27_alg».proof.Proof.Gen.KernelIdeal
import proofs.«119515_g77850577207767_cont_9to1c4b_578_27_alg».proof.Proof.Gen.ReferenceIdeal
import proofs.«119515_g77850577207767_cont_9to1c4b_578_27_alg».proof.Proof.Gen.Pre_finite_inputs
import proofs.«119515_g77850577207767_cont_9to1c4b_578_27_alg».proof.Proof.KBFrame
import proofs.«119515_g77850577207767_cont_9to1c4b_578_27_alg».proof.Proof.KIFrame
import proofs.«119515_g77850577207767_cont_9to1c4b_578_27_alg».proof.Proof.KIOutTail
import proofs.«119515_g77850577207767_cont_9to1c4b_578_27_alg».proof.Proof.KIAlgebraic

noncomputable section

namespace Cert.Proof

open Idealize.ShloMosaic Idealize.SL.Sem

/-- The idealized kernel's frame run, with every output array named. -/
theorem kernelRun : Cert.Proof.EncoderClaims.KernelRun :=
  fun m ρ => Cert.KernelIdeal.Body.run_main (F := Ideal) m ρ

/-- The kernel's result buffer, read at a row and a feature, is the output block of the row's graph at the row's node. -/
theorem tailRead : Cert.Proof.EncoderClaims.TailRead :=
  fun m c r h => Cert.KernelIdeal.Body.tail_outAt m c r h

theorem claim : Cert.Claim := ⟨Cert.Kernel.Gen.facts, Cert.KernelIdeal.Gen.facts, Cert.ReferenceIdeal.Gen.facts, Cert.Pre_finite_inputs.Gen.facts,
  fun m ρ _ => Cert.Kernel.Body.frame (F := Bits) m ρ,
  Cert.Proof.EncoderClaims.frame_pi_of kernelRun,
  Cert.Proof.EncoderClaims.frame_ri,
  trivial,
  Cert.Proof.EncoderClaims.algebraic_of kernelRun tailRead⟩

end Cert.Proof

end
